-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x3072 : Shape := ⟨2, ![1, 3072]⟩
abbrev S1x512x1024 : Shape := ⟨3, ![1, 512, 1024]⟩
abbrev S512x1024 : Shape := ⟨2, ![512, 1024]⟩
abbrev S512x3072 : Shape := ⟨2, ![512, 3072]⟩
abbrev S1x1024x1024 : Shape := ⟨3, ![1, 1024, 1024]⟩
abbrev S1x256x1024 : Shape := ⟨3, ![1, 256, 1024]⟩
abbrev S1024x1 : Shape := ⟨2, ![1024, 1]⟩
abbrev S256x1024 : Shape := ⟨2, ![256, 1024]⟩
abbrev S1024x256 : Shape := ⟨2, ![1024, 256]⟩

abbrev nBuf : Space → Nat
  | .hbm => 15
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S3072x1024, .f32⟩
  | .hbm, ⟨8, _⟩ => ⟨S3072x1024, .bf16⟩
  | .hbm, ⟨9, _⟩ => ⟨S3072, .f32⟩
  | .hbm, ⟨10, _⟩ => ⟨S1x3072, .f32⟩
  | .hbm, ⟨11, _⟩ => ⟨S4x2048x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x3072, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 2, 8], ![false, false, false]⟩

def k1_cond3 (i : grid1.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_2 : BitVec 32 := 0#32
  let v10 : BitVec 1 := Scalar.cmpi .ne v9 c0_i32_2
  v10

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let v2 : BitVec 32 := Scalar.minsi arg2 v1
  let c0_i32 : BitVec 32 := 0#32
  let c0_i32_0 : BitVec 32 := 0#32
  ![arg0.toNat, v2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c3_i32 : BitVec 32 := 3#32
  let v1 : BitVec 32 := Scalar.addi v0 c3_i32
  let v2 : BitVec 32 := Scalar.minsi arg2 v1
  let c0_i32 : BitVec 32 := 0#32
  let c0_i32_0 : BitVec 32 := 0#32
  ![arg0.toNat, v2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  iota_S1024x256_d0_w32 : S1024x256.Iotas .tc 32 [0]
  iota_S1024x256_d1_w32 : S1024x256.Iotas .tc 32 [1]
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  shapeCasts_S1024x1024_S1x1024x1024 : S1024x1024.ShapeCasts S1x1024x1024
  dot_S512x1024_S3072x1024_S512x3072_1_1_0_0_n_n_wf : DotDims.WF S512x1024 S3072x1024 S512x3072 [1] [1] [0] [0] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x2048x1024.size a
  hwx1_1 : ∀ i : grid1.Coords, EltTy.bits .bf16 = 32 ∨ (Rect.block (s := S4x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .i1⟩
  | .hbm, ⟨24, _⟩ => ⟨S2048x2048, .i1⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S4x2048x2048, .i1⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KB.Proj.lean ====
/- The projection call of the kernel as printed: what its body leaves in each output block, and the body's triple
   at every grid point. -/
import proofs.«157933_j90314572300799_2_alg».proof.Proof.Gen.Kernel.Launch
import proofs.«157933_j90314572300799_2_alg».proof.Proof.Gen.Kernel.Skeleton
import proofs.«157933_j90314572300799_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The projection call: three input windows (a block of 512 rows of the activations, the stacked weights whole,
    the stacked biases whole) and three output windows (the same 512 rows of the three projections), at the contents
    `V` the call is entered with. -/

section Proj
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1x512x1024 := Rect.unit (s := S1x512x1024) ![0, 0, 0] S1x512x1024.size inb_S1x512x1024_S1x512x1024_0_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0

/-- What the body leaves in the three output buffers: one whole-block store each, of the matching third of
    `x · Wᵀ + b`. -/
def out0_3 (x0 : Vec F S1x512x1024 .f32) (x1 : Vec F S3072x1024 .bf16) (x2 : Vec F S1x3072 .f32) : Vec F S1x512x1024 .bf16 :=
  View.canon [⟨rX, k0_pay2 (View.ld x0 rX) (View.ld x1 rW) (View.ld x2 rB)⟩]
def out0_4 (x0 : Vec F S1x512x1024 .f32) (x1 : Vec F S3072x1024 .bf16) (x2 : Vec F S1x3072 .f32) : Vec F S1x512x1024 .bf16 :=
  View.canon [⟨rX, k0_pay3 (View.ld x0 rX) (View.ld x1 rW) (View.ld x2 rB)⟩]
def out0_5 (x0 : Vec F S1x512x1024 .f32) (x1 : Vec F S3072x1024 .bf16) (x2 : Vec F S1x3072 .f32) : Vec F S1x512x1024 .bf16 :=
  View.canon [⟨rX, k0_pay4 (View.ld x0 rX) (View.ld x1 rW) (View.ld x2 rB)⟩]

/-- A single whole-block store covers the block. -/
theorem cover0 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

set_option maxHeartbeats 4000000 in
/-- The body on whole staging buffers, inputs at `x0 x1 x2`, outputs at anything: it ends with the inputs as they
    were and each output at its stored third. -/
theorem sound_kernel0 (c : Dev nD) (E : Set ℕ) (i : grid0.Coords)
    (arg2 : Memref sig .tc .vmem S1x512x1024 .f32) (harg2 : arg2.IsWhole) (arg3 : Memref sig .tc .vmem S3072x1024 .bf16) (harg3 : arg3.IsWhole)
    (arg4 : Memref sig .tc .vmem S1x3072 .f32) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .bf16) (harg7 : arg7.IsWhole)
    (x0 : Vec F S1x512x1024 .f32) (x1 : Vec F S3072x1024 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The proof data of the projection call on core `c`: arrays as entered; after the body each input buffer at its
    block, each output buffer at its stored third of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Proj

end Cert.Kernel.Hand

end
-- ==== Proof.KB.FlashDefs.lean ====
/- The attention call of the kernel as printed: the closed forms of its three conditions over the grid, where the
   output window is idle, and the invariant that carries the three scratch buffers between grid points. -/
import proofs.«157933_j90314572300799_2_alg».proof.Proof.Gen.Kernel.Launch
import proofs.«157933_j90314572300799_2_alg».proof.Proof.Gen.Kernel.Skeleton
import proofs.«157933_j90314572300799_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention call: what its runs are stated over — the body's three conditions in closed form over the
    64 grid points (batch, query block, key block; the key block fastest), where the output window is idle,
    the staging and scratch buffers. -/

/-- First condition: the key-block coordinate is 0 (the running maximum, sum and accumulator are reset). -/
abbrev cond1_0 (i : grid1.Coords) : Prop := (Scalar.cmpi .ne (Scalar.extui (Scalar.cmpi .eq (BitVec.ofNat 32 (i 2).val) 0#32)) 0#32) = 1#1
/-- Second condition: the key block is not wholly above the diagonal of the query block (4·q + 3 bounds it). -/
abbrev cond1_1 (i : grid1.Coords) : Prop := (Scalar.cmpi .ne (Scalar.extui (Scalar.cmpi .sle (BitVec.ofNat 32 (i 2).val) (Scalar.addi (Scalar.muli (BitVec.ofNat 32 (i 1).val) 4#32) 3#32))) 0#32) = 1#1
/-- Third condition: the key-block coordinate is 7, the last (the quotient is stored). -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ (t.val % 16 < 4 ∨ 8 ≤ t.val % 16) :=
  (by decide +kernel : ∀ t : Fin grid1.N, cond1_1 (grid1.coords t) ↔ (t.val % 16 < 4 ∨ 8 ≤ t.val % 16))
theorem hcond1_2 : ∀ t : Fin cfg1.N, cond1_2 (grid1.coords t) ↔ t.val % 8 = 7 :=
  (by decide +kernel : ∀ t : Fin grid1.N, cond1_2 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the third condition fails the output window is idle and its block is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch buffers (running maximum, running sum, accumulator), whole. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
abbrev VO1_3 : View sig .tc .vmem S1x1024x1024 .f32 := (Memref.whole cc1_stg3_0 : Memref sig .tc .vmem S1x1024x1024 .f32).view

/-- The call's invariant with the three scratch buffers' states `S0 S1 S2` as parameters: the projection call's ten
    staging buffers (never touched here) each whole at some contents, the scratch buffers, the generator register. -/
def PhiWith (c : Dev nD) (S0 S1 S2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2) ∗ (∃ r, prngReg c r))

/-- What of the invariant no point of the call ever looks at. -/
def PhiRest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r))

theorem PhiWith_split (c : Dev nD) (S0 S1 S2 : sProp 𝕄) : PhiWith c S0 S1 S2 ⊢ iprop(S0 ∗ S1 ∗ S2 ∗ PhiRest c) := by
  unfold PhiWith PhiRest
  iintro ⟨⟨A0, A1, A2, A3, A4, A5, A6, A7, A8, A9, H0, H1, H2⟩, Hg⟩
  isplitl [H0]; · iexact H0
  isplitl [H1]; · iexact H1
  isplitl [H2]; · iexact H2
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

theorem PhiWith_join (c : Dev nD) (S0 S1 S2 : sProp 𝕄) : iprop(S0 ∗ S1 ∗ S2 ∗ PhiRest c) ⊢ PhiWith c S0 S1 S2 := by
  unfold PhiWith PhiRest
  iintro ⟨H0, H1, H2, ⟨A0, A1, A2, A3, A4, A5, A6, A7, A8, A9⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [H0]; · iexact H0
    isplitl [H1]; · iexact H1
    iexact H2
  iexact Hg

/-- The class invariant of the call is `PhiWith` at "each scratch buffer at some contents". -/
theorem PhiA1_eq (c : Dev nD) :
    (Pipeline.ΦA spec1 c : sProp 𝕄)
      = PhiWith c iprop(∃ d, owns (c : Thread nD τ) scM1_0 fullShare d) iprop(∃ d, owns (c : Thread nD τ) scM1_1 fullShare d) iprop(∃ d, owns (c : Thread nD τ) scM1_2 fullShare d) := by
  unfold Pipeline.ΦA PhiWith; rw [scopedRest1_eq]; simp only [scM1_0, scM1_1, scM1_2, owns_whole]; try rfl

end Cert.Kernel.Hand

end
-- ==== Proof.KB.FlashRunA.lean ====
/- The attention call's body in the case "reset and accumulate, no store of the quotient": its triple on whole buffers, the pieces its stores leave in
   each buffer found by running it. -/
import proofs.«157933_j90314572300799_2_alg».proof.Proof.KB.FlashDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Key block 0: the scratch buffers are reset and the first key block is accumulated; the output buffer is not touched. -/
noncomputable def kernelRun1_A (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KB.FlashRunB.lean ====
/- The attention call's body in the case "accumulate only": its triple on whole buffers, the pieces its stores leave in
   each buffer found by running it. -/
import proofs.«157933_j90314572300799_2_alg».proof.Proof.KB.FlashDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A later key block on or below the diagonal, not the last: it is accumulated into the scratch buffers the point
    before left; the output buffer is not touched. -/
noncomputable def kernelRun1_B (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16)
    (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KB.FlashRunC.lean ====
/- The attention call's body in the case "nothing to do": its triple on whole buffers, the pieces its stores leave in
   each buffer found by running it. -/
import proofs.«157933_j90314572300799_2_alg».proof.Proof.KB.FlashDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A key block wholly above the diagonal, not the last: none of the three conditions holds and the body touches
    nothing. -/
theorem kernelRun1_C (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  iintro Hk
  sl_exec (disch := first | exact hc0 | exact hc1 | exact hc2)
  sl_step
  iexact Hk

end Cert.Kernel.Hand

end
-- ==== Proof.KB.FlashRunD.lean ====
/- The attention call's body in the case "store the quotient only": its triple on whole buffers, the pieces its stores leave in
   each buffer found by running it. -/
import proofs.«157933_j90314572300799_2_alg».proof.Proof.KB.FlashDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last key block, wholly above the diagonal: nothing is accumulated; the accumulator divided by the running
    sum is stored into the output buffer; the scratch buffers are only read, the input buffers not even that. -/
noncomputable def kernelRun1_D (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (xs0 : Vec F S1024x1 .f32) (xs1 : Vec F S1024x1 .f32) (xs2 : Vec F S1024x1024 .f32) :
    { L3 : List (View.Piece (Elt F) S1x1024x1024 .f32) //
      ∀ (E : Set ℕ) (K : PUnit → sProp 𝕄),
        iprop((∃ d, owns (c : Thread nD τ) arg6 fullShare d) ∗ owns (c : Thread nD τ) arg7 fullShare xs0 ∗ owns (c : Thread nD τ) arg8 fullShare xs1 ∗ owns (c : Thread nD τ) arg9 fullShare xs2
            ∗ (iprop((∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%d3, %f3, -, H3⟩, ⟨%fs0, %hfs0, HS0⟩, ⟨%fs1, %hfs1, HS1⟩, ⟨%fs2, %hfs2, HS2⟩, Hk⟩
    obtain rfl := harg7.eq_unread hfs0; obtain rfl := harg8.eq_unread hfs1; obtain rfl := harg9.eq_unread hfs2
    sl_exec (disch := first | exact hc0 | exact hc1 | exact hc2)
    sl_step
    iapply Hk
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KB.FlashRunE.lean ====
/- The attention call's body in the case "accumulate and store the quotient": its triple on whole buffers, the pieces its stores leave in
   each buffer found by running it. -/
import proofs.«157933_j90314572300799_2_alg».proof.Proof.KB.FlashDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last key block, on the diagonal: it is accumulated into the scratch buffers the point before left, and the
    accumulator divided by the running sum is stored into the output buffer. -/
noncomputable def kernelRun1_E (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KB.FlashData.lean ====
/- The attention call of the kernel as printed: its proof data. -/
import proofs.«157933_j90314572300799_2_alg».proof.Proof.KB.FlashRunA
import proofs.«157933_j90314572300799_2_alg».proof.Proof.KB.FlashRunB
import proofs.«157933_j90314572300799_2_alg».proof.Proof.KB.FlashRunC
import proofs.«157933_j90314572300799_2_alg».proof.Proof.KB.FlashRunD
import proofs.«157933_j90314572300799_2_alg».proof.Proof.KB.FlashRunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention call's proof data: what the output buffer and the three scratch buffers (running maximum,
    running sum, accumulator) hold after each grid point, by recursion on the point; the invariant that carries the
    scratch buffers from point to point; the body's triple at every point. -/

section Flash
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Flash

theorem scover1_A_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y

def sout1_A_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

theorem scover1_A_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y

def sout1_A_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

theorem scover1_A_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) (y : S1024x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x1024.size (by sl_kernel_rfl) y

def sout1_A_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

theorem scover1_B_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1024x1.size (by sl_kernel_rfl) y

def sout1_B_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

theorem scover1_B_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1024x1.size (by sl_kernel_rfl) y

def sout1_B_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

theorem scover1_B_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1024x1024.size (by sl_kernel_rfl) y

def sout1_B_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

theorem cover1_D_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (xs0 : Vec F S1024x1 .f32) (xs1 : Vec F S1024x1 .f32) (xs2 : Vec F S1024x1024 .f32) (y : S1x1024x1024.Idx) :
    ∃ pc ∈ (kernelRun1_D c i arg3 harg3 arg4 harg4 arg5 harg5 arg6 harg6 arg7 harg7 arg8 harg8 arg9 harg9 hc0 hc1 hc2 xs0 xs1 xs2).1, y ∈ pc.1.set :=
  View.cover_of_tiledL (kernelRun1_D c i arg3 harg3 arg4 harg4 arg5 harg5 arg6 harg6 arg7 harg7 arg8 harg8 arg9 harg9 hc0 hc1 hc2 xs0 xs1 xs2).1 S1x1024x1024.size (by sl_kernel_rfl) y

def out1_D_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_D c i arg3 harg3 arg4 harg4 arg5 harg5 arg6 harg6 arg7 harg7 arg8 harg8 arg9 harg9 hc0 hc1 hc2 xs0 xs1 xs2).1)

theorem scover1_E_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_E c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).2.1 S1024x1.size (by sl_kernel_rfl) y

def sout1_E_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 x0 x1 x2 xs0 xs1 xs2).2.1)

theorem scover1_E_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_E c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).2.2.1 S1024x1.size (by sl_kernel_rfl) y

def sout1_E_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 x0 x1 x2 xs0 xs1 xs2).2.2.1)

theorem scover1_E_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).2.2.2.1 S1024x1024.size (by sl_kernel_rfl) y

def sout1_E_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_E c i arg3 harg3 arg4 harg4 arg5 harg5 arg6 harg6 arg7 harg7 arg8 harg8 arg9 harg9 hc0 hc1 hc2 x0 x1 x2 xs0 xs1 xs2).2.2.2.1)

theorem cover1_E_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1x1024x1024.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x1024x1024.size (by sl_kernel_rfl) y

def out1_E_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- The four buffers after a point: output block, running maximum, running sum, accumulator. -/
abbrev St (F : FTy → Type) [FloatOps F] : Type := Vec F S1x1024x1024 .f32 × Vec F S1024x1 .f32 × Vec F S1024x1 .f32 × Vec F S1024x1024 .f32

/-- The output buffer where the body stores nothing into it: a placeholder nothing consults (the block is neither
    written back there nor read at the next point). -/
def outJunk : Vec F S1x1024x1024 .f32 := VO1_3.read (Elt F) VO1_3.junk

section Flash2
variable (V : (c : Dev nD) → (b : Ref sig .tc) → Buf (Elt F) ((c : Thread nD τ).loc b))

/-- Key block 0: reset, then the first block accumulated. -/
def stA (c : Dev nD) (t : Fin cfg1.N) (h0 : t.val % 8 = 0) : St F :=
  (outJunk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t),
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t),
    sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
/-- A later key block on or below the diagonal, not the last: accumulated into what the point before left. -/
def stB (c : Dev nD) (t : Fin cfg1.N) (h0 : ¬t.val % 8 = 0) (h1 : (t.val % 16 < 4 ∨ 8 ≤ t.val % 16)) (h2 : ¬t.val % 8 = 7) (prev : St F) : St F :=
  (outJunk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2,
    sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2,
    sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2)
/-- A key block wholly above the diagonal, not the last: the scratch buffers stay. -/
def stC (prev : St F) : St F := (outJunk, prev.2)
/-- The last key block, wholly above the diagonal: the quotient stored, the scratch buffers stay. -/
def stD (c : Dev nD) (t : Fin cfg1.N) (h0 : ¬t.val % 8 = 0) (h1 : ¬(t.val % 16 < 4 ∨ 8 ≤ t.val % 16)) (h2 : t.val % 8 = 7) (prev : St F) : St F :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) prev.2.1 prev.2.2.1 prev.2.2.2, prev.2)
/-- The last key block, on the diagonal: accumulated, then the quotient stored. -/
def stE (c : Dev nD) (t : Fin cfg1.N) (h0 : ¬t.val % 8 = 0) (h1 : (t.val % 16 < 4 ∨ 8 ≤ t.val % 16)) (h2 : t.val % 8 = 7) (prev : St F) : St F :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2,
    sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2,
    sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2,
    sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2)

/-- One grid point: the case the closed forms select. -/
def step (c : Dev nD) (t : Fin cfg1.N) (prev : St F) : St F :=
  if h0 : t.val % 8 = 0 then stA V c t h0
  else if h1 : (t.val % 16 < 4 ∨ 8 ≤ t.val % 16) then
    if h2 : t.val % 8 = 7 then stE V c t h0 h1 h2 prev else stB V c t h0 h1 h2 prev
  else
    if h2 : t.val % 8 = 7 then stD c t h0 h1 h2 prev else stC prev

/-- The four buffers after the body at position `n`. -/
def outsAt1 (c : Dev nD) : (n : ℕ) → n < cfg1.N → St F
  | 0, hn => stA V c ⟨0, hn⟩ (Nat.zero_mod _)
  | n + 1, hn => step V c ⟨n + 1, hn⟩ (outsAt1 c n (Nat.lt_of_succ_lt hn))

theorem outsAt1_A (c : Dev nD) (t : Fin cfg1.N) (h0 : t.val % 8 = 0) : outsAt1 V c t.val t.isLt = stA V c t h0 := by
  obtain ⟨n, hn⟩ := t
  cases n with
  | zero => rfl
  | succ n => exact dif_pos h0

theorem outsAt1_pos (c : Dev nD) (t : Fin cfg1.N) (h0 : ¬t.val % 8 = 0) :
    outsAt1 V c t.val t.isLt = step V c t (outsAt1 V c (t.val - 1) (Nat.lt_of_le_of_lt (Nat.sub_le _ _) t.isLt)) := by
  obtain ⟨n, hn⟩ := t
  cases n with
  | zero => exact absurd (Nat.zero_mod _) h0
  | succ n => rfl

/-- The invariant before position `n`: before the first point the class's (every scratch buffer at anything);
    afterwards each scratch buffer at what the point before left in it. -/
def PhiS (c : Dev nD) : (n : ℕ) → n ≤ cfg1.N → sProp 𝕄
  | 0, _ => Pipeline.ΦA spec1 c
  | n + 1, hn => PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) := rfl
theorem PhiS_pos (c : Dev nD) (n : ℕ) (h : n ≤ cfg1.N) (hz : n ≠ 0) :
    PhiS V c n h = PhiWith c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-- The proof data of the attention call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Flash2

end Cert.Kernel.Hand

end
-- ==== Proof.KB.FlashBody.lean ====
/- The attention call of the kernel as printed: the body's triple at every grid point. -/
import proofs.«157933_j90314572300799_2_alg».proof.Proof.KB.FlashData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section FlashBody
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which of the five cases the point is in; the invariant hands the body
    the scratch buffers at what the point before left (at anything at a batch's and query block's first key block,
    where they are reset) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · -- key block 0: reset and accumulate
    have hc2 : ¬cond1_2 (grid1.coords t) := fun h => by have := (hcond1_2 t).mp h; omega
    rw [Dat.leavesExact_idle (dat1 V c) 3 t (idleAt1_3 t hc2) (noFlush1_3 t hc2)]
    rw [outsAt1_A V c t h0]
    unfold stA sout1_A_0 sout1_A_1 sout1_A_2; dsimp only
    have hrun := (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.2
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (PhiWith_split c _ _ _) $$ HΦ
      icases HΦ' with ⟨HS0, HS1, HS2, Hrest⟩
      iapply (hrun _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · iapply (PhiWith_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (PhiWith_split c _ _ _) $$ HΦ
      icases HΦ' with ⟨HS0, HS1, HS2, Hrest⟩
      iapply (hrun _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest]
      · iapply (PhiWith_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
  · have hz : t.val ≠ 0 := fun e => h0 (by rw [e])
    rw [PhiS_castSucc V c t, PhiS_pos V c _ _ hz, outsAt1_pos V c t h0]
    by_cases h1 : (t.val % 16 < 4 ∨ 8 ≤ t.val % 16)
    · by_cases h2 : t.val % 8 = 7
      · -- last key block, on the diagonal: accumulate and store the quotient
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3, outsAt1_pos V c t h0]
        simp only [step, dif_neg h0, dif_pos h1, dif_pos h2]
        unfold stE out1_E_3 sout1_E_0 sout1_E_1 sout1_E_2; dsimp only
        iintro ⟨HΦ, Ho, ⟨%d0, H0⟩, ⟨%d1, H1⟩, ⟨%d2, H2⟩, ⟨%d3, H3⟩⟩
        ihave HΦ' := (PhiWith_split c _ _ _) $$ HΦ
        icases HΦ' with ⟨HS0, HS1, HS2, Hrest⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrest]
        · iapply (PhiWith_join c _ _ _)
          isplitl [HS0]
          · unfold owns; iexists _; isplitr
            swap; · iexact HS0
            ipureintro; exact View.read_writes_of_cover _ _ _ _ _ (scover1_E_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_E_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_E_2 c _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _ _ _ _ _ _ _)
      · -- a later key block on or below the diagonal: accumulate
        have hc2 : ¬cond1_2 (grid1.coords t) := fun h => h2 ((hcond1_2 t).mp h)
        rw [Dat.leavesExact_idle (dat1 V c) 3 t (idleAt1_3 t hc2) (noFlush1_3 t hc2)]
        simp only [step, dif_neg h0, dif_pos h1, dif_neg h2]
        unfold stB sout1_B_0 sout1_B_1 sout1_B_2; dsimp only
        iintro ⟨HΦ, Ho, ⟨%d0, H0⟩, ⟨%d1, H1⟩, ⟨%d2, H2⟩, ⟨%d3, H3⟩⟩
        ihave HΦ' := (PhiWith_split c _ _ _) $$ HΦ
        icases HΦ' with ⟨HS0, HS1, HS2, Hrest⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest]
        · iapply (PhiWith_join c _ _ _)
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        iexists _; iexact H3
    · by_cases h2 : t.val % 8 = 7
      · -- last key block, wholly above the diagonal: store the quotient
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3, outsAt1_pos V c t h0]
        simp only [step, dif_neg h0, dif_neg h1, dif_pos h2]
        unfold stD out1_D_3; dsimp only
        iintro ⟨HΦ, Ho, ⟨%d0, H0⟩, ⟨%d1, H1⟩, ⟨%d2, H2⟩, ⟨%d3, H3⟩⟩
        ihave HΦ' := (PhiWith_split c _ _ _) $$ HΦ
        icases HΦ' with ⟨HS0, HS1, HS2, Hrest⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) _ _ _).2 Set.univ _)
        isplitl [H3]; · iexists _; iexact H3
        isplitl [HS0]; · iexact HS0
        isplitl [HS1]; · iexact HS1
        isplitl [HS2]; · iexact HS2
        iintro ⟨⟨%e3, H3⟩, HS0, HS1, HS2⟩
        isplitl [HS0 HS1 HS2 Hrest]
        · iapply (PhiWith_join c _ _ _)
          isplitl [HS0]; · iexact HS0
          isplitl [HS1]; · iexact HS1
          isplitl [HS2]; · iexact HS2
          iexact Hrest
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c _ _ _ _ _ _ _ _ _ _ _ _ _ _ _ _ _ _ _ _ _)
      · -- a key block wholly above the diagonal, not the last: nothing
        have hc2 : ¬cond1_2 (grid1.coords t) := fun h => h2 ((hcond1_2 t).mp h)
        rw [Dat.leavesExact_idle (dat1 V c) 3 t (idleAt1_3 t hc2) (noFlush1_3 t hc2)]
        simp only [step, dif_neg h0, dif_neg h1, dif_neg h2]
        unfold stC; dsimp only
        iintro ⟨HΦ, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) Set.univ _)
        isplitl [HΦ]; · iexact HΦ
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro H
  ihave H' := (PhiWith_split c _ _ _) $$ H
  icases H' with ⟨HS0, HS1, HS2, Hrest⟩
  iapply (PhiWith_join c _ _ _)
  isplitl [HS0]; · iexists _; iexact HS0
  isplitl [HS1]; · iexists _; iexact HS1
  isplitl [HS2]; · iexists _; iexact HS2
  iexact Hrest

end FlashBody

end Cert.Kernel.Hand

end
-- ==== Proof.KB.Main.lean ====
/- The printed kernel's whole run: host operations, the projection call, the attention call. -/
import proofs.«157933_j90314572300799_2_alg».proof.Proof.KB.Proj
import proofs.«157933_j90314572300799_2_alg».proof.Proof.KB.FlashBody
import proofs.«157933_j90314572300799_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: the four host operations (the three weight matrices stacked and rounded,
    the three biases stacked and recast as a row), the projection call, the attention call — the buffer contents at
    each boundary as a fold from the launch memory, each call a segment between two boundaries. -/

/-- Core `c`'s buffers at launch. -/
abbrev W0 : Dev nD → Valuation τ sig (Elt F) := fun c b => m (c, b)
/-- After the host operations (the projection call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection call's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention call's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### No host operation and no call writes an argument array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in the final state every unscoped buffer of every core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

/-- The run with the result array named: after the run the output array holds what the attention call's
    write-backs leave, and the argument arrays are as launched. -/
theorem run_value : θ_run defs (onTc (τ := τ) (main (F := F))) ⟨m, fun _ => 0, ρ⟩ (fun r => ∀ c : Dev nD,
      r.2.mem ((c.tc : Thread nD τ).loc main_v5) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_v5 (by decide))).trans (W3_arr m c 3),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.Kernel.Hand

end
-- ==== Proof.KI.Proj.lean ====
/- The projection call of the idealized kernel: what its body leaves in each output block, and the body's triple
   at every grid point. -/
import proofs.«157933_j90314572300799_2_alg».proof.Proof.Gen.KernelIdeal.Launch
import proofs.«157933_j90314572300799_2_alg».proof.Proof.Gen.KernelIdeal.Skeleton
import proofs.«157933_j90314572300799_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The projection call: three input windows (a block of 512 rows of the activations, the stacked weights whole,
    the stacked biases whole) and three output windows (the same 512 rows of the three projections), at the contents
    `V` the call is entered with. -/

section Proj
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1x512x1024 := Rect.unit (s := S1x512x1024) ![0, 0, 0] S1x512x1024.size inb_S1x512x1024_S1x512x1024_0_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0

/-- What the body leaves in the three output buffers: one whole-block store each, of the matching third of
    `x · Wᵀ + b`. -/
def out0_3 (x0 : Vec F S1x512x1024 .f32) (x1 : Vec F S3072x1024 .bf16) (x2 : Vec F S1x3072 .f32) : Vec F S1x512x1024 .bf16 :=
  View.canon [⟨rX, k0_pay2 (View.ld x0 rX) (View.ld x1 rW) (View.ld x2 rB)⟩]
def out0_4 (x0 : Vec F S1x512x1024 .f32) (x1 : Vec F S3072x1024 .bf16) (x2 : Vec F S1x3072 .f32) : Vec F S1x512x1024 .bf16 :=
  View.canon [⟨rX, k0_pay3 (View.ld x0 rX) (View.ld x1 rW) (View.ld x2 rB)⟩]
def out0_5 (x0 : Vec F S1x512x1024 .f32) (x1 : Vec F S3072x1024 .bf16) (x2 : Vec F S1x3072 .f32) : Vec F S1x512x1024 .bf16 :=
  View.canon [⟨rX, k0_pay4 (View.ld x0 rX) (View.ld x1 rW) (View.ld x2 rB)⟩]

/-- A single whole-block store covers the block. -/
theorem cover0 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

set_option maxHeartbeats 4000000 in
/-- The body on whole staging buffers, inputs at `x0 x1 x2`, outputs at anything: it ends with the inputs as they
    were and each output at its stored third. -/
theorem sound_kernel0 (c : Dev nD) (E : Set ℕ) (i : grid0.Coords)
    (arg2 : Memref sig .tc .vmem S1x512x1024 .f32) (harg2 : arg2.IsWhole) (arg3 : Memref sig .tc .vmem S3072x1024 .bf16) (harg3 : arg3.IsWhole)
    (arg4 : Memref sig .tc .vmem S1x3072 .f32) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .bf16) (harg7 : arg7.IsWhole)
    (x0 : Vec F S1x512x1024 .f32) (x1 : Vec F S3072x1024 .bf16) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The proof data of the projection call on core `c`: arrays as entered; after the body each input buffer at its
    block, each output buffer at its stored third of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Proj

end Cert.KernelIdeal.Hand

end
-- ==== Proof.KI.FlashDefs.lean ====
/- The attention call of the idealized kernel: the closed forms of its three conditions over the grid, where the
   output window is idle, and the invariant that carries the three scratch buffers between grid points. -/
import proofs.«157933_j90314572300799_2_alg».proof.Proof.Gen.KernelIdeal.Launch
import proofs.«157933_j90314572300799_2_alg».proof.Proof.Gen.KernelIdeal.Skeleton
import proofs.«157933_j90314572300799_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The attention call: what its runs are stated over — the body's three conditions in closed form over the
    64 grid points (batch, query block, key block; the key block fastest), where the output window is idle,
    the staging and scratch buffers. -/

/-- First condition: the key-block coordinate is 0 (the running maximum, sum and accumulator are reset). -/
abbrev cond1_0 (i : grid1.Coords) : Prop := (Scalar.cmpi .ne (Scalar.extui (Scalar.cmpi .eq (BitVec.ofNat 32 (i 2).val) 0#32)) 0#32) = 1#1
/-- Second condition: the key block is not wholly above the diagonal of the query block (4·q + 3 bounds it). -/
abbrev cond1_1 (i : grid1.Coords) : Prop := (Scalar.cmpi .ne (Scalar.extui (Scalar.cmpi .sle (BitVec.ofNat 32 (i 2).val) (Scalar.addi (Scalar.muli (BitVec.ofNat 32 (i 1).val) 4#32) 3#32))) 0#32) = 1#1
/-- Third condition: the key-block coordinate is 7, the last (the quotient is stored). -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ (t.val % 16 < 4 ∨ 8 ≤ t.val % 16) :=
  (by decide +kernel : ∀ t : Fin grid1.N, cond1_1 (grid1.coords t) ↔ (t.val % 16 < 4 ∨ 8 ≤ t.val % 16))
theorem hcond1_2 : ∀ t : Fin cfg1.N, cond1_2 (grid1.coords t) ↔ t.val % 8 = 7 :=
  (by decide +kernel : ∀ t : Fin grid1.N, cond1_2 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the third condition fails the output window is idle and its block is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch buffers (running maximum, running sum, accumulator), whole. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
abbrev VO1_3 : View sig .tc .vmem S1x1024x1024 .f32 := (Memref.whole cc1_stg3_0 : Memref sig .tc .vmem S1x1024x1024 .f32).view

/-- The call's invariant with the three scratch buffers' states `S0 S1 S2` as parameters: the projection call's ten
    staging buffers (never touched here) each whole at some contents, the scratch buffers, the generator register. -/
def PhiWith (c : Dev nD) (S0 S1 S2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2) ∗ (∃ r, prngReg c r))

/-- What of the invariant no point of the call ever looks at. -/
def PhiRest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r))

theorem PhiWith_split (c : Dev nD) (S0 S1 S2 : sProp 𝕄) : PhiWith c S0 S1 S2 ⊢ iprop(S0 ∗ S1 ∗ S2 ∗ PhiRest c) := by
  unfold PhiWith PhiRest
  iintro ⟨⟨A0, A1, A2, A3, A4, A5, A6, A7, A8, A9, H0, H1, H2⟩, Hg⟩
  isplitl [H0]; · iexact H0
  isplitl [H1]; · iexact H1
  isplitl [H2]; · iexact H2
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

theorem PhiWith_join (c : Dev nD) (S0 S1 S2 : sProp 𝕄) : iprop(S0 ∗ S1 ∗ S2 ∗ PhiRest c) ⊢ PhiWith c S0 S1 S2 := by
  unfold PhiWith PhiRest
  iintro ⟨H0, H1, H2, ⟨A0, A1, A2, A3, A4, A5, A6, A7, A8, A9⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [H0]; · iexact H0
    isplitl [H1]; · iexact H1
    iexact H2
  iexact Hg

/-- The class invariant of the call is `PhiWith` at "each scratch buffer at some contents". -/
theorem PhiA1_eq (c : Dev nD) :
    (Pipeline.ΦA spec1 c : sProp 𝕄)
      = PhiWith c iprop(∃ d, owns (c : Thread nD τ) scM1_0 fullShare d) iprop(∃ d, owns (c : Thread nD τ) scM1_1 fullShare d) iprop(∃ d, owns (c : Thread nD τ) scM1_2 fullShare d) := by
  unfold Pipeline.ΦA PhiWith; rw [scopedRest1_eq]; simp only [scM1_0, scM1_1, scM1_2, owns_whole]; try rfl

end Cert.KernelIdeal.Hand

end
-- ==== Proof.KI.FlashRunA.lean ====
/- The attention call's body in the case "reset and accumulate, no store of the quotient": its triple on whole buffers, the pieces its stores leave in
   each buffer found by running it. -/
import proofs.«157933_j90314572300799_2_alg».proof.Proof.KI.FlashDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- Key block 0: the scratch buffers are reset and the first key block is accumulated; the output buffer is not touched. -/
noncomputable def kernelRun1_A (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunB.lean ====
/- The attention call's body in the case "accumulate only": its triple on whole buffers, the pieces its stores leave in
   each buffer found by running it. -/
import proofs.«157933_j90314572300799_2_alg».proof.Proof.KI.FlashDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A later key block on or below the diagonal, not the last: it is accumulated into the scratch buffers the point
    before left; the output buffer is not touched. -/
noncomputable def kernelRun1_B (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16)
    (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunC.lean ====
/- The attention call's body in the case "nothing to do": its triple on whole buffers, the pieces its stores leave in
   each buffer found by running it. -/
import proofs.«157933_j90314572300799_2_alg».proof.Proof.KI.FlashDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A key block wholly above the diagonal, not the last: none of the three conditions holds and the body touches
    nothing. -/
theorem kernelRun1_C (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  iintro Hk
  sl_exec (disch := first | exact hc0 | exact hc1 | exact hc2)
  sl_step
  iexact Hk

end Cert.KernelIdeal.Hand

end
-- ==== Proof.KI.FlashRunD.lean ====
/- The attention call's body in the case "store the quotient only": its triple on whole buffers, the pieces its stores leave in
   each buffer found by running it. -/
import proofs.«157933_j90314572300799_2_alg».proof.Proof.KI.FlashDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The last key block, wholly above the diagonal: nothing is accumulated; the accumulator divided by the running
    sum is stored into the output buffer; the scratch buffers are only read, the input buffers not even that. -/
noncomputable def kernelRun1_D (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (xs0 : Vec F S1024x1 .f32) (xs1 : Vec F S1024x1 .f32) (xs2 : Vec F S1024x1024 .f32) :
    { L3 : List (View.Piece (Elt F) S1x1024x1024 .f32) //
      ∀ (E : Set ℕ) (K : PUnit → sProp 𝕄),
        iprop((∃ d, owns (c : Thread nD τ) arg6 fullShare d) ∗ owns (c : Thread nD τ) arg7 fullShare xs0 ∗ owns (c : Thread nD τ) arg8 fullShare xs1 ∗ owns (c : Thread nD τ) arg9 fullShare xs2
            ∗ (iprop((∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%d3, %f3, -, H3⟩, ⟨%fs0, %hfs0, HS0⟩, ⟨%fs1, %hfs1, HS1⟩, ⟨%fs2, %hfs2, HS2⟩, Hk⟩
    obtain rfl := harg7.eq_unread hfs0; obtain rfl := harg8.eq_unread hfs1; obtain rfl := harg9.eq_unread hfs2
    sl_exec (disch := first | exact hc0 | exact hc1 | exact hc2)
    sl_step
    iapply Hk
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.FlashRunE.lean ====
/- The attention call's body in the case "accumulate and store the quotient": its triple on whole buffers, the pieces its stores leave in
   each buffer found by running it. -/
import proofs.«157933_j90314572300799_2_alg».proof.Proof.KI.FlashDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The last key block, on the diagonal: it is accumulated into the scratch buffers the point before left, and the
    accumulator divided by the running sum is stored into the output buffer. -/
noncomputable def kernelRun1_E (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.FlashData.lean ====
/- The attention call of the idealized kernel: its proof data. -/
import proofs.«157933_j90314572300799_2_alg».proof.Proof.KI.FlashRunA
import proofs.«157933_j90314572300799_2_alg».proof.Proof.KI.FlashRunB
import proofs.«157933_j90314572300799_2_alg».proof.Proof.KI.FlashRunC
import proofs.«157933_j90314572300799_2_alg».proof.Proof.KI.FlashRunD
import proofs.«157933_j90314572300799_2_alg».proof.Proof.KI.FlashRunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The attention call's proof data: what the output buffer and the three scratch buffers (running maximum,
    running sum, accumulator) hold after each grid point, by recursion on the point; the invariant that carries the
    scratch buffers from point to point; the body's triple at every point. -/

section Flash
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Flash

theorem scover1_A_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y

def sout1_A_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

theorem scover1_A_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y

def sout1_A_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

theorem scover1_A_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) (y : S1024x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x1024.size (by sl_kernel_rfl) y

def sout1_A_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x256x1024 .bf16) (x2 : Vec F S1x256x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

theorem scover1_B_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1024x1.size (by sl_kernel_rfl) y

def sout1_B_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

theorem scover1_B_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1024x1.size (by sl_kernel_rfl) y

def sout1_B_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

theorem scover1_B_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1024x1024.size (by sl_kernel_rfl) y

def sout1_B_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

theorem cover1_D_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (xs0 : Vec F S1024x1 .f32) (xs1 : Vec F S1024x1 .f32) (xs2 : Vec F S1024x1024 .f32) (y : S1x1024x1024.Idx) :
    ∃ pc ∈ (kernelRun1_D c i arg3 harg3 arg4 harg4 arg5 harg5 arg6 harg6 arg7 harg7 arg8 harg8 arg9 harg9 hc0 hc1 hc2 xs0 xs1 xs2).1, y ∈ pc.1.set :=
  View.cover_of_tiledL (kernelRun1_D c i arg3 harg3 arg4 harg4 arg5 harg5 arg6 harg6 arg7 harg7 arg8 harg8 arg9 harg9 hc0 hc1 hc2 xs0 xs1 xs2).1 S1x1024x1024.size (by sl_kernel_rfl) y

def out1_D_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_D c i arg3 harg3 arg4 harg4 arg5 harg5 arg6 harg6 arg7 harg7 arg8 harg8 arg9 harg9 hc0 hc1 hc2 xs0 xs1 xs2).1)

theorem scover1_E_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_E c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).2.1 S1024x1.size (by sl_kernel_rfl) y

def sout1_E_0 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 x0 x1 x2 xs0 xs1 xs2).2.1)

theorem scover1_E_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1.Idx) :
    ∃ pc ∈ (kernelRun1_E c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).2.2.1 S1024x1.size (by sl_kernel_rfl) y

def sout1_E_1 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 x0 x1 x2 xs0 xs1 xs2).2.2.1)

theorem scover1_E_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1024x1024.Idx) :
    ∃ pc ∈ (kernelRun1_E c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).2.2.2.1 S1024x1024.size (by sl_kernel_rfl) y

def sout1_E_2 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_E c i arg3 harg3 arg4 harg4 arg5 harg5 arg6 harg6 arg7 harg7 arg8 harg8 arg9 harg9 hc0 hc1 hc2 x0 x1 x2 xs0 xs1 xs2).2.2.2.1)

theorem cover1_E_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) (y : S1x1024x1024.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x1024x1024.size (by sl_kernel_rfl) y

def out1_E_3 (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-- The four buffers after a point: output block, running maximum, running sum, accumulator. -/
abbrev St (F : FTy → Type) [FloatOps F] : Type := Vec F S1x1024x1024 .f32 × Vec F S1024x1 .f32 × Vec F S1024x1 .f32 × Vec F S1024x1024 .f32

/-- The output buffer where the body stores nothing into it: a placeholder nothing consults (the block is neither
    written back there nor read at the next point). -/
def outJunk : Vec F S1x1024x1024 .f32 := VO1_3.read (Elt F) VO1_3.junk

section Flash2
variable (V : (c : Dev nD) → (b : Ref sig .tc) → Buf (Elt F) ((c : Thread nD τ).loc b))

/-- Key block 0: reset, then the first block accumulated. -/
def stA (c : Dev nD) (t : Fin cfg1.N) (h0 : t.val % 8 = 0) : St F :=
  (outJunk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t),
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t),
    sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
/-- A later key block on or below the diagonal, not the last: accumulated into what the point before left. -/
def stB (c : Dev nD) (t : Fin cfg1.N) (h0 : ¬t.val % 8 = 0) (h1 : (t.val % 16 < 4 ∨ 8 ≤ t.val % 16)) (h2 : ¬t.val % 8 = 7) (prev : St F) : St F :=
  (outJunk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2,
    sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2,
    sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) prev.2.1 prev.2.2.1 prev.2.2.2)
/-- A key block wholly above the diagonal, not the last: the scratch buffers stay. -/
def stC (prev : St F) : St F := (outJunk, prev.2)
/-- The last key block, wholly above the diagonal: the quotient stored, the scratch buffers stay. -/
def stD (c : Dev nD) (t : Fin cfg1.N) (h0 : ¬t.val % 8 = 0) (h1 : ¬(t.val % 16 < 4 ∨ 8 ≤ t.val % 16)) (h2 : t.val % 8 = 7) (prev : St F) : St F :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) prev.2.1 prev.2.2.1 prev.2.2.2, prev.2)
/-- The last key block, on the diagonal: accumulated, then the quotient stored. -/
def stE (c : Dev nD) (t : Fin cfg1.N) (h0 : ¬t.val % 8 = 0) (h1 : (t.val % 16 < 4 ∨ 8 ≤ t.val % 16)) (h2 : t.val % 8 = 7) (prev : St F) : St F :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2,
    sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2,
    sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2,
    sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) prev.2.1 prev.2.2.1 prev.2.2.2)

/-- One grid point: the case the closed forms select. -/
def step (c : Dev nD) (t : Fin cfg1.N) (prev : St F) : St F :=
  if h0 : t.val % 8 = 0 then stA V c t h0
  else if h1 : (t.val % 16 < 4 ∨ 8 ≤ t.val % 16) then
    if h2 : t.val % 8 = 7 then stE V c t h0 h1 h2 prev else stB V c t h0 h1 h2 prev
  else
    if h2 : t.val % 8 = 7 then stD c t h0 h1 h2 prev else stC prev

/-- The four buffers after the body at position `n`. -/
def outsAt1 (c : Dev nD) : (n : ℕ) → n < cfg1.N → St F
  | 0, hn => stA V c ⟨0, hn⟩ (Nat.zero_mod _)
  | n + 1, hn => step V c ⟨n + 1, hn⟩ (outsAt1 c n (Nat.lt_of_succ_lt hn))

theorem outsAt1_A (c : Dev nD) (t : Fin cfg1.N) (h0 : t.val % 8 = 0) : outsAt1 V c t.val t.isLt = stA V c t h0 := by
  obtain ⟨n, hn⟩ := t
  cases n with
  | zero => rfl
  | succ n => exact dif_pos h0

theorem outsAt1_pos (c : Dev nD) (t : Fin cfg1.N) (h0 : ¬t.val % 8 = 0) :
    outsAt1 V c t.val t.isLt = step V c t (outsAt1 V c (t.val - 1) (Nat.lt_of_le_of_lt (Nat.sub_le _ _) t.isLt)) := by
  obtain ⟨n, hn⟩ := t
  cases n with
  | zero => exact absurd (Nat.zero_mod _) h0
  | succ n => rfl

/-- The invariant before position `n`: before the first point the class's (every scratch buffer at anything);
    afterwards each scratch buffer at what the point before left in it. -/
def PhiS (c : Dev nD) : (n : ℕ) → n ≤ cfg1.N → sProp 𝕄
  | 0, _ => Pipeline.ΦA spec1 c
  | n + 1, hn => PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) := rfl
theorem PhiS_pos (c : Dev nD) (n : ℕ) (h : n ≤ cfg1.N) (hz : n ≠ 0) :
    PhiS V c n h = PhiWith c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) := by
  cases n with
  | zero => exact absurd rfl hz
  | succ n => rfl

/-- The proof data of the attention call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Flash2

end Cert.KernelIdeal.Hand

end
-- ==== Proof.KI.FlashBody.lean ====
/- The attention call of the idealized kernel: the body's triple at every grid point. -/
import proofs.«157933_j90314572300799_2_alg».proof.Proof.KI.FlashData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section FlashBody
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which of the five cases the point is in; the invariant hands the body
    the scratch buffers at what the point before left (at anything at a batch's and query block's first key block,
    where they are reset) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · -- key block 0: reset and accumulate
    have hc2 : ¬cond1_2 (grid1.coords t) := fun h => by have := (hcond1_2 t).mp h; omega
    rw [Dat.leavesExact_idle (dat1 V c) 3 t (idleAt1_3 t hc2) (noFlush1_3 t hc2)]
    rw [outsAt1_A V c t h0]
    unfold stA sout1_A_0 sout1_A_1 sout1_A_2; dsimp only
    have hrun := (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.2
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (PhiWith_split c _ _ _) $$ HΦ
      icases HΦ' with ⟨HS0, HS1, HS2, Hrest⟩
      iapply (hrun _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · iapply (PhiWith_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (PhiWith_split c _ _ _) $$ HΦ
      icases HΦ' with ⟨HS0, HS1, HS2, Hrest⟩
      iapply (hrun _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest]
      · iapply (PhiWith_join c _ _ _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3
  · have hz : t.val ≠ 0 := fun e => h0 (by rw [e])
    rw [PhiS_castSucc V c t, PhiS_pos V c _ _ hz, outsAt1_pos V c t h0]
    by_cases h1 : (t.val % 16 < 4 ∨ 8 ≤ t.val % 16)
    · by_cases h2 : t.val % 8 = 7
      · -- last key block, on the diagonal: accumulate and store the quotient
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3, outsAt1_pos V c t h0]
        simp only [step, dif_neg h0, dif_pos h1, dif_pos h2]
        unfold stE out1_E_3 sout1_E_0 sout1_E_1 sout1_E_2; dsimp only
        iintro ⟨HΦ, Ho, ⟨%d0, H0⟩, ⟨%d1, H1⟩, ⟨%d2, H2⟩, ⟨%d3, H3⟩⟩
        ihave HΦ' := (PhiWith_split c _ _ _) $$ HΦ
        icases HΦ' with ⟨HS0, HS1, HS2, Hrest⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrest]
        · iapply (PhiWith_join c _ _ _)
          isplitl [HS0]
          · unfold owns; iexists _; isplitr
            swap; · iexact HS0
            ipureintro; exact View.read_writes_of_cover _ _ _ _ _ (scover1_E_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_E_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_E_2 c _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _ _ _ _ _ _ _)
      · -- a later key block on or below the diagonal: accumulate
        have hc2 : ¬cond1_2 (grid1.coords t) := fun h => h2 ((hcond1_2 t).mp h)
        rw [Dat.leavesExact_idle (dat1 V c) 3 t (idleAt1_3 t hc2) (noFlush1_3 t hc2)]
        simp only [step, dif_neg h0, dif_pos h1, dif_neg h2]
        unfold stB sout1_B_0 sout1_B_1 sout1_B_2; dsimp only
        iintro ⟨HΦ, Ho, ⟨%d0, H0⟩, ⟨%d1, H1⟩, ⟨%d2, H2⟩, ⟨%d3, H3⟩⟩
        ihave HΦ' := (PhiWith_split c _ _ _) $$ HΦ
        icases HΦ' with ⟨HS0, HS1, HS2, Hrest⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest]
        · iapply (PhiWith_join c _ _ _)
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        iexists _; iexact H3
    · by_cases h2 : t.val % 8 = 7
      · -- last key block, wholly above the diagonal: store the quotient
        have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3 t hc2], after1_3, outsAt1_pos V c t h0]
        simp only [step, dif_neg h0, dif_neg h1, dif_pos h2]
        unfold stD out1_D_3; dsimp only
        iintro ⟨HΦ, Ho, ⟨%d0, H0⟩, ⟨%d1, H1⟩, ⟨%d2, H2⟩, ⟨%d3, H3⟩⟩
        ihave HΦ' := (PhiWith_split c _ _ _) $$ HΦ
        icases HΦ' with ⟨HS0, HS1, HS2, Hrest⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) _ _ _).2 Set.univ _)
        isplitl [H3]; · iexists _; iexact H3
        isplitl [HS0]; · iexact HS0
        isplitl [HS1]; · iexact HS1
        isplitl [HS2]; · iexact HS2
        iintro ⟨⟨%e3, H3⟩, HS0, HS1, HS2⟩
        isplitl [HS0 HS1 HS2 Hrest]
        · iapply (PhiWith_join c _ _ _)
          isplitl [HS0]; · iexact HS0
          isplitl [HS1]; · iexact HS1
          isplitl [HS2]; · iexact HS2
          iexact Hrest
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c _ _ _ _ _ _ _ _ _ _ _ _ _ _ _ _ _ _ _ _ _)
      · -- a key block wholly above the diagonal, not the last: nothing
        have hc2 : ¬cond1_2 (grid1.coords t) := fun h => h2 ((hcond1_2 t).mp h)
        rw [Dat.leavesExact_idle (dat1 V c) 3 t (idleAt1_3 t hc2) (noFlush1_3 t hc2)]
        simp only [step, dif_neg h0, dif_neg h1, dif_neg h2]
        unfold stC; dsimp only
        iintro ⟨HΦ, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) Set.univ _)
        isplitl [HΦ]; · iexact HΦ
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro H
  ihave H' := (PhiWith_split c _ _ _) $$ H
  icases H' with ⟨HS0, HS1, HS2, Hrest⟩
  iapply (PhiWith_join c _ _ _)
  isplitl [HS0]; · iexists _; iexact HS0
  isplitl [HS1]; · iexists _; iexact HS1
  isplitl [HS2]; · iexists _; iexact HS2
  iexact Hrest

end FlashBody

end Cert.KernelIdeal.Hand

end
-- ==== Proof.KI.Main.lean ====
/- The idealized kernel's whole run: host operations, the projection call, the attention call. -/
import proofs.«157933_j90314572300799_2_alg».proof.Proof.KI.Proj
import proofs.«157933_j90314572300799_2_alg».proof.Proof.KI.FlashBody
import proofs.«157933_j90314572300799_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of the whole program: the four host operations (the three weight matrices stacked and rounded,
    the three biases stacked and recast as a row), the projection call, the attention call — the buffer contents at
    each boundary as a fold from the launch memory, each call a segment between two boundaries. -/

/-- Core `c`'s buffers at launch. -/
abbrev W0 : Dev nD → Valuation τ sig (Elt F) := fun c b => m (c, b)
/-- After the host operations (the projection call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection call's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention call's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### No host operation and no call writes an argument array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in the final state every unscoped buffer of every core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

/-- The run with the result array named: after the run the output array holds what the attention call's
    write-backs leave, and the argument arrays are as launched. -/
theorem run_value : θ_run defs (onTc (τ := τ) (main (F := F))) ⟨m, fun _ => 0, ρ⟩ (fun r => ∀ c : Dev nD,
      r.2.mem ((c.tc : Thread nD τ).loc main_v5) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_v5 (by decide))).trans (W3_arr m c 3),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.KernelIdeal.Hand

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.KI.DotFacts.lean ====
/- The three matrix products of the two kernels' bodies: which operand index each output index and contraction
   index reads. -/
import proofs.«157933_j90314572300799_2_alg».proof.Proof.Gen.KernelIdeal
import proofs.«157933_j90314572300799_2_alg».proof.Proof.LibRowBlockDot
import proofs.«157933_j90314572300799_2_alg».proof.Proof.LibTransDot

namespace Cert.KernelIdeal.Hand

open Idealize.ShloMosaic Idealize.ShloMosaic.ValueIdx Cert.KernelIdeal

/-- The projection: 512 rows of the activations against all 3072 stacked weight rows, both contracted on their
    second axis. -/
theorem dot_proj : TransDot.TransDot dot_S512x1024_S3072x1024_S512x3072_1_1_0_0_n_n where
  hr := rfl
  hs := rfl
  l0 j q := by
    unfold DotDims.lhsIdx
    rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
    rfl
  l1 j q := dot_S512x1024_S3072x1024_S512x3072_1_1_0_0_n_n.lhsIdx_val_of_single rfl j q
  r0 j q := by
    unfold DotDims.rhsIdx
    rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
    rfl
  r1 j q := dot_S512x1024_S3072x1024_S512x3072_1_1_0_0_n_n.rhsIdx_val_of_single rfl j q

/-- The scores: 1024 query rows against 256 key rows, both contracted on their second axis. -/
theorem dot_qk : TransDot.TransDot dot_S1024x1024_S256x1024_S1024x256_1_1_0_0_n_n where
  hr := rfl
  hs := rfl
  l0 j q := by
    unfold DotDims.lhsIdx
    rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
    rfl
  l1 j q := dot_S1024x1024_S256x1024_S1024x256_1_1_0_0_n_n.lhsIdx_val_of_single rfl j q
  r0 j q := by
    unfold DotDims.rhsIdx
    rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
    rfl
  r1 j q := dot_S1024x1024_S256x1024_S1024x256_1_1_0_0_n_n.rhsIdx_val_of_single rfl j q

/-- The weighted values: 1024 rows of 256 weights against 256 value rows, a plain product. -/
theorem dot_pv : RowBlockDot.PlainDot dot_S1024x256_S256x1024_S1024x1024_1_0_0_1_n_n where
  hr := rfl
  hs := rfl
  l0 j q := by
    unfold DotDims.lhsIdx
    rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
    rfl
  l1 j q := dot_S1024x256_S256x1024_S1024x1024_1_0_0_1_n_n.lhsIdx_val_of_single rfl j q
  r0 j q := dot_S1024x256_S256x1024_S1024x1024_1_0_0_1_n_n.rhsIdx_val_of_single rfl j q
  r1 j q := by
    unfold DotDims.rhsIdx
    rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
    rfl

end Cert.KernelIdeal.Hand
-- ==== Proof.LibColumnForms.lean ====
/-
  Reading a block of rows at `(p, c)`: the keepdims column forms, a lane sum, and a plain matrix product.

  * a vector `[a]` cast to a column `[a, 1]` reads at `(p, 0)` the vector at `p`;
  * a column `[a, 1]` broadcast to `[a, b]` reads at `(p, c)` the column at `(p, 0)`;
  * the sum of an `[a, b]` array over its second axis, at `p`, is the sum over `k` of the array at `(p, k)`;
  * a matrix product `[a, K] × [K, b]` into a zero accumulator, at `(p, c)`, is the sum over `k` of
    `lhs (p, k) · rhs (k, c)`, for dimension numbers that contract the left operand's second axis with the right
    operand's first.
  All at the exact instance, where every float is an extended real.
-/
import Idealize.ShloMosaic.Lib.ValueIdx
import Idealize.ShloMosaic.Lib.Pipeline.Value
import Idealize.ShloMosaic.PureOps.Ideal.Laws
import proofs.«157933_j90314572300799_2_alg».proof.Proof.LibRowBlockDot

noncomputable section

namespace Idealize.ShloMosaic.ColumnForms

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with coordinate `k` put back on the second axis is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum of an `[a, b]` array over its second axis, read at `p`: the sum over `k` of the array at `(p, k)`. -/
theorem laneSum_apply {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- The same, with the accumulator's side condition spelt through the sum's neutral word. -/
theorem laneSum_apply' {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- A plain matrix product into the zero accumulator, read at `(p, c)`. -/
theorem matmul_zero_apply {a K b : ℕ} {φ₁ φ₂ : FTy}
    (d : DotDims (⟨2, ![a, K]⟩ : Shape) (⟨2, ![K, b]⟩ : Shape) (⟨2, ![a, b]⟩ : Shape)) (hd : RowBlockDot.PlainDot d)
    (prec : Option ContractPrecision) (lhs : FVec Ideal ⟨2, ![a, K]⟩ φ₁) (rhs : FVec Ideal ⟨2, ![K, b]⟩ φ₂) (p : Fin a) (c : Fin b) :
    matmul d prec lhs rhs (constant ⟨2, ![a, b]⟩ .f32 0x00000000#32) (ix2 p c) = ∑ k : Fin K, lhs (ix2 p k) * rhs (ix2 k c) :=
  (Ideal.matmul_constant_zero_apply d prec lhs rhs (ix2 p c)).trans (RowBlockDot.sum_contr_eq d hd lhs rhs (ix2 p c))

end Idealize.ShloMosaic.ColumnForms

end
-- ==== Proof.KI.ProjPay.lean ====
/- The projection call of the idealized kernel: the body's arithmetic at an index. -/
import proofs.«157933_j90314572300799_2_alg».proof.Proof.KI.Proj
import proofs.«157933_j90314572300799_2_alg».proof.Proof.KI.DotFacts
import proofs.«157933_j90314572300799_2_alg».proof.Proof.LibColumnForms
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The projection body's arithmetic read at an index. -/

/-- Row `p` of the block against stacked weight row `e`, plus stacked bias `e`. -/
theorem projPay1_apply (v0 : Vec Ideal S1x512x1024 .f32) (v3 : Vec Ideal S3072x1024 .bf16) (v6 : Vec Ideal S1x3072 .f32)
    (p : Fin 512) (e : Fin 3072) :
    k0_pay1 v0 v3 v6 (ix2 p e) = (∑ d : Fin 1024, v0 (ix3 (0 : Fin 1) p d) * v3 (ix2 e d)) + v6 (ix2 (0 : Fin 1) e) := by
  unfold k0_pay1
  rw [addf_apply]
  refine congrArg₂ (· + ·) ?_ ?_
  · refine (TransDot.matmul_zero_trans_apply _ dot_proj none _ _ p e).trans ?_
    refine Finset.sum_congr rfl fun d _ => ?_
    refine congrArg₂ (· * ·) ?_ ?_
    · rw [truncf_apply]
      exact shapeCast_1ab_ab_apply v0 _ p d
    · rw [shapeCast_self]
  · refine (broadcastTo_1b_ab_apply _ _ p e).trans ?_
    rw [shapeCast_self]

/-- The three stored thirds: columns `e`, `1024 + e`, `2048 + e` of the above. -/
theorem projPay2_apply (v0 : Vec Ideal S1x512x1024 .f32) (v3 : Vec Ideal S3072x1024 .bf16) (v6 : Vec Ideal S1x3072 .f32)
    (u : Fin 1) (p : Fin 512) (e : Fin 1024) :
    k0_pay2 v0 v3 v6 (ix3 u p e) = k0_pay1 v0 v3 v6 (ix2 p (⟨e.val, by omega⟩ : Fin 3072)) := by
  unfold k0_pay2
  refine (shapeCast_ab_1ab_apply _ _ u p e).trans ?_
  rw [truncf_apply]
  exact slice2_axis1_apply 0 _ _ p e _ (by simp)
theorem projPay3_apply (v0 : Vec Ideal S1x512x1024 .f32) (v3 : Vec Ideal S3072x1024 .bf16) (v6 : Vec Ideal S1x3072 .f32)
    (u : Fin 1) (p : Fin 512) (e : Fin 1024) :
    k0_pay3 v0 v3 v6 (ix3 u p e) = k0_pay1 v0 v3 v6 (ix2 p (⟨1024 + e.val, by omega⟩ : Fin 3072)) := by
  unfold k0_pay3
  refine (shapeCast_ab_1ab_apply _ _ u p e).trans ?_
  rw [truncf_apply]
  exact slice2_axis1_apply 1024 _ _ p e _ rfl
theorem projPay4_apply (v0 : Vec Ideal S1x512x1024 .f32) (v3 : Vec Ideal S3072x1024 .bf16) (v6 : Vec Ideal S1x3072 .f32)
    (u : Fin 1) (p : Fin 512) (e : Fin 1024) :
    k0_pay4 v0 v3 v6 (ix3 u p e) = k0_pay1 v0 v3 v6 (ix2 p (⟨2048 + e.val, by omega⟩ : Fin 3072)) := by
  unfold k0_pay4
  refine (shapeCast_ab_1ab_apply _ _ u p e).trans ?_
  rw [truncf_apply]
  exact slice2_axis1_apply 2048 _ _ p e _ rfl

end Cert.KernelIdeal.Hand

end
-- ==== Proof.KI.ProjValue.lean ====
/- The projection call of the idealized kernel: its output arrays. -/
import proofs.«157933_j90314572300799_2_alg».proof.Proof.KI.ProjPay

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The projection call's three output arrays after the call, as functions of the arrays it is entered with. -/

theorem hz2p : (![0, 0] : Fin 2 → Nat) = fun _ => 0 := by funext a; match a with | ⟨0, _⟩ => rfl | ⟨1, _⟩ => rfl
theorem hz3p : (![0, 0, 0] : Fin 3 → Nat) = fun _ => 0 := by funext a; match a with | ⟨0, _⟩ => rfl | ⟨1, _⟩ => rfl | ⟨2, _⟩ => rfl

/-- Row `(n, s)` of the activations against stacked weight row `off + e`, plus stacked bias `off + e`. -/
def projOf (off : Nat) (hoff : off + 1024 ≤ 3072) (X : S4x2048x1024.Idx → EReal) (Wst : S3072x1024.Idx → EReal) (Bst : S1x3072.Idx → EReal) :
    S4x2048x1024.Idx → EReal := fun i =>
  (∑ d : Fin 1024, X (ix3 (⟨(i 0).val, (i 0).isLt⟩ : Fin 4) (⟨(i 1).val, (i 1).isLt⟩ : Fin 2048) d)
      * Wst (ix2 (⟨off + (i 2).val, by have h : (i 2).val < 1024 := (i 2).isLt; omega⟩ : Fin 3072) d))
    + Bst (ix2 (0 : Fin 1) (⟨off + (i 2).val, by have h : (i 2).val < 1024 := (i 2).isLt; omega⟩ : Fin 3072))

theorem idx_facts0_3 : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 3 ∧ win0_3.index t (2 : Fin 3) = 0 :=
  (by decide +kernel : ∀ t : Fin grid0.N, _)
theorem idx_onto0_3 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

theorem idx_facts0_4 : ∀ t : Fin cfg0.N, win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 3) ≤ 3 ∧ win0_4.index t (1 : Fin 3) ≤ 3 ∧ win0_4.index t (2 : Fin 3) = 0 :=
  (by decide +kernel : ∀ t : Fin grid0.N, _)
theorem idx_onto0_4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

theorem idx_facts0_5 : ∀ t : Fin cfg0.N, win0_0.index t (0 : Fin 3) = win0_5.index t (0 : Fin 3)
    ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_5.index t (0 : Fin 3) ≤ 3 ∧ win0_5.index t (1 : Fin 3) ≤ 3 ∧ win0_5.index t (2 : Fin 3) = 0 :=
  (by decide +kernel : ∀ t : Fin grid0.N, _)
theorem idx_onto0_5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

section
variable (V : (c : Dev nD) → (b : Ref sig .tc) → Buf (Elt Ideal) ((c : Thread nD τ).loc b))

/-- What point `t` writes back through output window 3 is block `t` of the projection at offset 0. -/
theorem flushed0_3_eq (c : Dev nD) (t : Fin cfg0.N) :
    (dat0 V c).flushed 3 t = ((cfg0.win 3).blk t).view.read (Elt Ideal) (projOf 0 (by omega) (V c main_arg0) (V c main_v1) (V c main_v3)) := by
  show (cfg0.win 3).cut (grid0.coords t) ((dat0 V c).after 3 t) = _
  rw [after0_3]
  unfold out0_3
  rw [View.canon_unit_zero (S := S1x512x1024) hz3p]
  simp only [View.ld_unit_zero (S := S1x512x1024) hz3p, View.ld_unit_zero (S := S3072x1024) hz2p, View.ld_unit_zero (S := S1x3072) hz2p]
  obtain ⟨e00, e01, e02, e10, e11, e20, e21, f0, f1, f2⟩ := idx_facts0_3 t
  funext y
  obtain ⟨u, p, e, rfl⟩ : ∃ (u : Fin 1) (p : Fin 512) (e : Fin 1024), y = ix3 u p e := ⟨y 0, y 1, y 2, eq_ix3 y⟩
  show k0_pay2 (iblk0 V c 0 t) (iblk0 V c 1 t) (iblk0 V c 2 t) (ix3 u p e) = _
  rw [projPay2_apply, projPay1_apply]
  show _ = projOf 0 (by omega) (V c main_arg0) (V c main_v1) (V c main_v3) (((cfg0.win 3).blk t).view.emb (ix3 u p e))
  unfold projOf
  have hu : u.val = 0 := by omega
  refine congrArg₂ (· + ·) (Finset.sum_congr rfl fun d _ => congrArg₂ (· * ·) ?_ ?_) ?_
  · show V c main_arg0 (((cfg0.win 0).blk t).view.emb (ix3 (0 : Fin 1) p d)) = _
    refine congrArg (V c main_arg0) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 512 + 1 * p.val = win0_3.index t (1 : Fin 3) * 512 + 1 * p.val; omega
    | ⟨2, _⟩ => show win0_0.index t (2 : Fin 3) * 1024 + 1 * d.val = d.val; omega
  · show V c main_v1 (((cfg0.win 1).blk t).view.emb (ix2 (⟨e.val, by omega⟩ : Fin 3072) d)) = _
    refine congrArg (V c main_v1) (funext fun a => Fin.ext ?_)
    match a with
    | ⟨0, _⟩ => show win0_1.index t (0 : Fin 2) * 3072 + 1 * (e.val) = 0 + (win0_3.index t (2 : Fin 3) * 1024 + 1 * e.val); omega
    | ⟨1, _⟩ => show win0_1.index t (1 : Fin 2) * 1024 + 1 * d.val = d.val; omega
  · show V c main_v3 (((cfg0.win 2).blk t).view.emb (ix2 (0 : Fin 1) (⟨e.val, by omega⟩ : Fin 3072))) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 3072 + 1 * (e.val) = 0 + (win0_3.index t (2 : Fin 3) * 1024 + 1 * e.val); omega

theorem mem_blk0_3 (t : Fin cfg0.N) (i : S4x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v4_0).slice (win0_3.rect t)).set ↔ _
  rw [View.set_slice_whole, Rect.mem_set_unit]
  exact Iff.rfl

theorem cover0_3 (i : S4x2048x1024.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := idx_onto0_3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The whole array after the call. -/
theorem final0_3 (c : Dev nD) : (dat0 V c).arrAt 3 cfg0.N = projOf 0 (by omega) (V c main_arg0) (V c main_v1) (V c main_v3) :=
  (dat0 V c).arrAt_eq_of_cover 3 _ (fun t _ => flushed0_3_eq V c t) cover0_3

/-- What point `t` writes back through output window 4 is block `t` of the projection at offset 1024. -/
theorem flushed0_4_eq (c : Dev nD) (t : Fin cfg0.N) :
    (dat0 V c).flushed 4 t = ((cfg0.win 4).blk t).view.read (Elt Ideal) (projOf 1024 (by omega) (V c main_arg0) (V c main_v1) (V c main_v3)) := by
  show (cfg0.win 4).cut (grid0.coords t) ((dat0 V c).after 4 t) = _
  rw [after0_4]
  unfold out0_4
  rw [View.canon_unit_zero (S := S1x512x1024) hz3p]
  simp only [View.ld_unit_zero (S := S1x512x1024) hz3p, View.ld_unit_zero (S := S3072x1024) hz2p, View.ld_unit_zero (S := S1x3072) hz2p]
  obtain ⟨e00, e01, e02, e10, e11, e20, e21, f0, f1, f2⟩ := idx_facts0_4 t
  funext y
  obtain ⟨u, p, e, rfl⟩ : ∃ (u : Fin 1) (p : Fin 512) (e : Fin 1024), y = ix3 u p e := ⟨y 0, y 1, y 2, eq_ix3 y⟩
  show k0_pay3 (iblk0 V c 0 t) (iblk0 V c 1 t) (iblk0 V c 2 t) (ix3 u p e) = _
  rw [projPay3_apply, projPay1_apply]
  show _ = projOf 1024 (by omega) (V c main_arg0) (V c main_v1) (V c main_v3) (((cfg0.win 4).blk t).view.emb (ix3 u p e))
  unfold projOf
  have hu : u.val = 0 := by omega
  refine congrArg₂ (· + ·) (Finset.sum_congr rfl fun d _ => congrArg₂ (· * ·) ?_ ?_) ?_
  · show V c main_arg0 (((cfg0.win 0).blk t).view.emb (ix3 (0 : Fin 1) p d)) = _
    refine congrArg (V c main_arg0) (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 512 + 1 * p.val = win0_4.index t (1 : Fin 3) * 512 + 1 * p.val; omega
    | ⟨2, _⟩ => show win0_0.index t (2 : Fin 3) * 1024 + 1 * d.val = d.val; omega
  · show V c main_v1 (((cfg0.win 1).blk t).view.emb (ix2 (⟨1024 + e.val, by omega⟩ : Fin 3072) d)) = _
    refine congrArg (V c main_v1) (funext fun a => Fin.ext ?_)
    match a with
    | ⟨0, _⟩ => show win0_1.index t (0 : Fin 2) * 3072 + 1 * (1024 + e.val) = 1024 + (win0_4.index t (2 : Fin 3) * 1024 + 1 * e.val); omega
    | ⟨1, _⟩ => show win0_1.index t (1 : Fin 2) * 1024 + 1 * d.val = d.val; omega
  · show V c main_v3 (((cfg0.win 2).blk t).view.emb (ix2 (0 : Fin 1) (⟨1024 + e.val, by omega⟩ : Fin 3072))) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 3072 + 1 * (1024 + e.val) = 1024 + (win0_4.index t (2 : Fin 3) * 1024 + 1 * e.val); omega

theorem mem_blk0_4 (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v4_1).slice (win0_4.rect t)).set ↔ _
  rw [View.set_slice_whole, Rect.mem_set_unit]
  exact Iff.rfl

theorem cover0_4 (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto0_4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The whole array after the call. -/
theorem final0_4 (c : Dev nD) : (dat0 V c).arrAt 4 cfg0.N = projOf 1024 (by omega) (V c main_arg0) (V c main_v1) (V c main_v3) :=
  (dat0 V c).arrAt_eq_of_cover 4 _ (fun t _ => flushed0_4_eq V c t) cover0_4

/-- What point `t` writes back through output window 5 is block `t` of the projection at offset 2048. -/
theorem flushed0_5_eq (c : Dev nD) (t : Fin cfg0.N) :
    (dat0 V c).flushed 5 t = ((cfg0.win 5).blk t).view.read (Elt Ideal) (projOf 2048 (by omega) (V c main_arg0) (V c main_v1) (V c main_v3)) := by
  show (cfg0.win 5).cut (grid0.coords t) ((dat0 V c).after 5 t) = _
  rw [after0_5]
  unfold out0_5
  rw [View.canon_unit_zero (S := S1x512x1024) hz3p]
  simp only [View.ld_unit_zero (S := S1x512x1024) hz3p, View.ld_unit_zero (S := S3072x1024) hz2p, View.ld_unit_zero (S := S1x3072) hz2p]
  obtain ⟨e00, e01, e02, e10, e11, e20, e21, f0, f1, f2⟩ := idx_facts0_5 t
  funext y
  obtain ⟨u, p, e, rfl⟩ : ∃ (u : Fin 1) (p : Fin 512) (e : Fin 1024), y = ix3 u p e := ⟨y 0, y 1, y 2, eq_ix3 y⟩
  show k0_pay4 (iblk0 V c 0 t) (iblk0 V c 1 t) (iblk0 V c 2 t) (ix3 u p e) = _
  rw [projPay4_apply, projPay1_apply]
  show _ = projOf 2048 (by omega) (V c main_arg0) (V c main_v1) (V c main_v3) (((cfg0.win 5).blk t).view.emb (ix3 u p e))
  unfold projOf
  have hu : u.val = 0 := by omega
  refine congrArg₂ (· + ·) (Finset.sum_congr rfl fun d _ => congrArg₂ (· * ·) ?_ ?_) ?_
  · show V c main_arg0 (((cfg0.win 0).blk t).view.emb (ix3 (0 : Fin 1) p d)) = _
    refine congrArg (V c main_arg0) (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 512 + 1 * p.val = win0_5.index t (1 : Fin 3) * 512 + 1 * p.val; omega
    | ⟨2, _⟩ => show win0_0.index t (2 : Fin 3) * 1024 + 1 * d.val = d.val; omega
  · show V c main_v1 (((cfg0.win 1).blk t).view.emb (ix2 (⟨2048 + e.val, by omega⟩ : Fin 3072) d)) = _
    refine congrArg (V c main_v1) (funext fun a => Fin.ext ?_)
    match a with
    | ⟨0, _⟩ => show win0_1.index t (0 : Fin 2) * 3072 + 1 * (2048 + e.val) = 2048 + (win0_5.index t (2 : Fin 3) * 1024 + 1 * e.val); omega
    | ⟨1, _⟩ => show win0_1.index t (1 : Fin 2) * 1024 + 1 * d.val = d.val; omega
  · show V c main_v3 (((cfg0.win 2).blk t).view.emb (ix2 (0 : Fin 1) (⟨2048 + e.val, by omega⟩ : Fin 3072))) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 3072 + 1 * (2048 + e.val) = 2048 + (win0_5.index t (2 : Fin 3) * 1024 + 1 * e.val); omega

theorem mem_blk0_5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v4_2).slice (win0_5.rect t)).set ↔ _
  rw [View.set_slice_whole, Rect.mem_set_unit]
  exact Iff.rfl

theorem cover0_5 (i : S4x2048x1024.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto0_5 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The whole array after the call. -/
theorem final0_5 (c : Dev nD) : (dat0 V c).arrAt 5 cfg0.N = projOf 2048 (by omega) (V c main_arg0) (V c main_v1) (V c main_v3) :=
  (dat0 V c).arrAt_eq_of_cover 5 _ (fun t _ => flushed0_5_eq V c t) cover0_5

end

end Cert.KernelIdeal.Hand

end
-- ==== Proof.KI.FlashPieces.lean ====
/- The attention call of the idealized kernel: the found pieces read back as updates by one key block. -/
import proofs.«157933_j90314572300799_2_alg».proof.Proof.KI.FlashData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # What each case of the attention body leaves, as one update of (running maximum, running sum, accumulator) by
    a key block: the pieces the runs found, read back. -/

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-- The running maximum after a key block: the larger of the old one and the block's row maxima. -/
def updM (a1 a2 : BitVec 32) (q : Vec F S1x1024x1024 .bf16) (k : Vec F S1x256x1024 .bf16) (m : Vec F S1024x1 .f32) : Vec F S1024x1 .f32 :=
  k1_pay5 (k1_pay9 a1 a2 q k m)
/-- The running sum after a key block: the old one rescaled plus the block's row sums of exponentials. -/
def updL (a1 a2 : BitVec 32) (q : Vec F S1x1024x1024 .bf16) (k : Vec F S1x256x1024 .bf16) (m l : Vec F S1024x1 .f32) : Vec F S1024x1 .f32 :=
  k1_pay12 a1 a2 q k m l
/-- The accumulator after a key block: the old one rescaled plus the block's exponentials times the values. -/
def updA (a1 a2 : BitVec 32) (q : Vec F S1x1024x1024 .bf16) (k v : Vec F S1x256x1024 .bf16) (m : Vec F S1024x1 .f32) (acc : Vec F S1024x1024 .f32) : Vec F S1024x1024 .f32 :=
  k1_pay4 (k1_pay7 v) (k1_pay10 a1 a2 q k m) (k1_pay11 a1 a2 q k m) acc

theorem sout1_A_0_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i) (x0 : Vec F S1x1024x1024 .bf16) (x1 : Vec F S1x256x1024 .bf16) (x2 : Vec F S1x256x1024 .bf16) :
    sout1_A_0 c i arg3 harg3 arg4 harg4 arg5 harg5 arg6 harg6 arg7 harg7 arg8 harg8 arg9 harg9 hc0 hc1 hc2 x0 x1 x2 = updM (BitVec.ofNat 32 (i 1).val) (BitVec.ofNat 32 (i 2).val) x0 x1 (k1_pay1 (F := F)) := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem sout1_A_1_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i) (x0 : Vec F S1x1024x1024 .bf16) (x1 : Vec F S1x256x1024 .bf16) (x2 : Vec F S1x256x1024 .bf16) :
    sout1_A_1 c i arg3 harg3 arg4 harg4 arg5 harg5 arg6 harg6 arg7 harg7 arg8 harg8 arg9 harg9 hc0 hc1 hc2 x0 x1 x2 = updL (BitVec.ofNat 32 (i 1).val) (BitVec.ofNat 32 (i 2).val) x0 x1 (k1_pay1 (F := F)) (k1_pay2 (F := F)) := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem sout1_A_2_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i) (x0 : Vec F S1x1024x1024 .bf16) (x1 : Vec F S1x256x1024 .bf16) (x2 : Vec F S1x256x1024 .bf16) :
    sout1_A_2 c i arg3 harg3 arg4 harg4 arg5 harg5 arg6 harg6 arg7 harg7 arg8 harg8 arg9 harg9 hc0 hc1 hc2 x0 x1 x2 = updA (BitVec.ofNat 32 (i 1).val) (BitVec.ofNat 32 (i 2).val) x0 x1 x2 (k1_pay1 (F := F)) (k1_pay3 (F := F)) := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]

theorem sout1_B_0_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 hc2 x0 x1 x2 xs0 xs1 xs2 = updM (BitVec.ofNat 32 (i 1).val) (BitVec.ofNat 32 (i 2).val) x0 x1 xs0 := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem sout1_B_1_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 hc2 x0 x1 x2 xs0 xs1 xs2 = updL (BitVec.ofNat 32 (i 1).val) (BitVec.ofNat 32 (i 2).val) x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem sout1_B_2_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 hc2 x0 x1 x2 xs0 xs1 xs2 = updA (BitVec.ofNat 32 (i 1).val) (BitVec.ofNat 32 (i 2).val) x0 x1 x2 xs0 xs2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]

theorem sout1_E_0_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    sout1_E_0 c i arg3 harg3 arg4 harg4 arg5 harg5 arg6 harg6 arg7 harg7 arg8 harg8 arg9 harg9 hc0 hc1 hc2 x0 x1 x2 xs0 xs1 xs2 = updM (BitVec.ofNat 32 (i 1).val) (BitVec.ofNat 32 (i 2).val) x0 x1 xs0 := by
  unfold sout1_E_0
  rw [View.read_writes_eq_canon _ _ _ (scover1_E_0 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem sout1_E_1_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    sout1_E_1 c i arg3 harg3 arg4 harg4 arg5 harg5 arg6 harg6 arg7 harg7 arg8 harg8 arg9 harg9 hc0 hc1 hc2 x0 x1 x2 xs0 xs1 xs2 = updL (BitVec.ofNat 32 (i 1).val) (BitVec.ofNat 32 (i 2).val) x0 x1 xs0 xs1 := by
  unfold sout1_E_1
  rw [View.read_writes_eq_canon _ _ _ (scover1_E_1 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem sout1_E_2_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    sout1_E_2 c i arg3 harg3 arg4 harg4 arg5 harg5 arg6 harg6 arg7 harg7 arg8 harg8 arg9 harg9 hc0 hc1 hc2 x0 x1 x2 xs0 xs1 xs2 = updA (BitVec.ofNat 32 (i 1).val) (BitVec.ofNat 32 (i 2).val) x0 x1 x2 xs0 xs2 := by
  unfold sout1_E_2
  rw [View.read_writes_eq_canon _ _ _ (scover1_E_2 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem out1_E_3_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x256x1024 .bf16) (x2 : Vec F S1x256x1024 .bf16) (xs0 : Vec F S1024x1 .f32) (xs1 : Vec F S1024x1 .f32) (xs2 : Vec F S1024x1024 .f32) :
    out1_E_3 c i arg3 harg3 arg4 harg4 arg5 harg5 arg6 harg6 arg7 harg7 arg8 harg8 arg9 harg9 hc0 hc1 hc2 x0 x1 x2 xs0 xs1 xs2 = k1_pay6 (updA (BitVec.ofNat 32 (i 1).val) (BitVec.ofNat 32 (i 2).val) x0 x1 x2 xs0 xs2) (updL (BitVec.ofNat 32 (i 1).val) (BitVec.ofNat 32 (i 2).val) x0 x1 xs0 xs1) := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]
theorem out1_D_3_eq (c : Dev nD) (i : grid1.Coords) (arg3 : Memref sig .tc .vmem S1x1024x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i) (xs0 : Vec F S1024x1 .f32) (xs1 : Vec F S1024x1 .f32) (xs2 : Vec F S1024x1024 .f32) :
    out1_D_3 c i arg3 harg3 arg4 harg4 arg5 harg5 arg6 harg6 arg7 harg7 arg8 harg8 arg9 harg9 hc0 hc1 hc2 xs0 xs1 xs2 = k1_pay6 xs2 xs1 := by
  unfold out1_D_3
  rw [View.read_writes_eq_canon _ _ _ (cover1_D_3 c i arg3 harg3 arg4 harg4 arg5 harg5 arg6 harg6 arg7 harg7 arg8 harg8 arg9 harg9 hc0 hc1 hc2 xs0 xs1 xs2)]
  unfold kernelRun1_D
  dsimp only
  sl_unfold_words
  simp only [View.canon_cons_unit_zero (S := S1024x1) hz2, View.canon_cons_unit_zero (S := S1024x1024) hz2, View.canon_cons_unit_zero (S := S1x1024x1024) hz3,
    View.canon_unit_zero (S := S1024x1) hz2, View.canon_unit_zero (S := S1024x1024) hz2, View.canon_unit_zero (S := S1x1024x1024) hz3,
    View.readAt_eq_ld, harg3.read_unread, harg4.read_unread, harg5.read_unread, harg7.read_unread, harg8.read_unread, harg9.read_unread,
    View.ld_unit_zero (S := S1024x1) hz2, View.ld_unit_zero (S := S1024x1024) hz2, View.ld_unit_zero (S := S1x1024x1024) hz3, View.ld_unit_zero (S := S1x256x1024) hz3,
    View.readCov_unit_zero (S := S1024x1) _ hz2, View.readCov_unit_zero (S := S1024x1024) _ hz2, updM, updL, updA]

end Cert.KernelIdeal.Hand

end
-- ==== Proof.LibLaneMax.lean ====
/-
  The maximum of an `[a, b]` array over its second axis, read at `p`: the supremum over `k` of the array at
  `(p, k)`, from `−∞`. At the exact instance, where every float is an extended real.
-/
import Idealize.ShloMosaic.Lib.ValueIdx
import Idealize.ShloMosaic.PureOps.Ideal.Laws

noncomputable section

namespace Idealize.ShloMosaic.LaneMax

open Idealize.ShloMosaic Idealize.ShloMosaic.ValueIdx

/-- The pattern of `−∞` denotes the bottom of the extended reals. -/
theorem ofBits_negInf : Ideal.ofBits .f32 0xFF800000#32 = (⊥ : EReal) := by simp [Ideal.ofBits, Ideal.ieee]

/-- The reduced index `p` with coordinate `k` put back on the second axis is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A fold of `max` from `−∞` is the supremum. -/
theorem fold_max_bot {ι : Type} (s : Finset ι) (f : ι → EReal) : s.fold max ⊥ f = s.sup f := rfl

/-- A float maximum of an `[a, b]` array over its second axis, read at `p`. -/
theorem laneMax_apply {a b : ℕ} (v : FVec Ideal ⟨2, ![a, b]⟩ .f32) (h : (⟨2, ![a, b]⟩ : Shape).Reduces [1] (⟨1, ![a]⟩ : Shape))
    (hφ : FKind.Formats .f32) (hacc : (0xFF800000#32 : BitVec 32) = 0xFF800000#32) (p : Fin a) :
    multiReduction .maximumf [1] ⟨1, ![a]⟩ v 0xFF800000#32 h hφ hacc (ix1 p) = Finset.univ.sup fun k : Fin b => v (ix2 p k) := by
  refine (Ideal.multiReduction_maximumf_single v 0xFF800000#32 h hφ hacc (ix1 p)).trans ?_
  rw [show FloatOps.ofBits (F := Ideal) .f32 0xFF800000#32 = (⊥ : EReal) from ofBits_negInf, fold_max_bot]
  exact congrArg (Finset.univ.sup) (funext fun k => congrArg v (lift_axis1 h p k))

end Idealize.ShloMosaic.LaneMax

end
-- ==== Proof.KI.FlashPay.lean ====
/- The attention call of the idealized kernel: the body's arithmetic at an index. -/
import proofs.«157933_j90314572300799_2_alg».proof.Proof.KI.FlashPieces
import proofs.«157933_j90314572300799_2_alg».proof.Proof.KI.DotFacts
import proofs.«157933_j90314572300799_2_alg».proof.Proof.LibColumnForms
import proofs.«157933_j90314572300799_2_alg».proof.Proof.LibTransDot
import proofs.«157933_j90314572300799_2_alg».proof.Proof.LibLaneMax
import Idealize.ShloMosaic.Lib.Pipeline.Value
import Idealize.ShloMosaic.Lib.ValueLayout
import Idealize.ShloMosaic.PureOps.IdealRules

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The attention body's arithmetic read at an index, at the exact instance. -/

/-- The kernel's fill value for masked scores denotes `−∞`. -/
theorem negBig : Named.named (F := Ideal) κ "neg_big" (φ := .f32) 0xFF333332#32 = (⊥ : EReal) :=
  IdealRules.named_const.ideal_named_scalar _ _ _ _ rfl

theorem cmpi_apply' {s : Shape} {w : Nat} (p : CmpIPredicate) (x y : IVec s w) (i : s.Idx) : cmpi p x y i = IntOp.cmpi p (x i) (y i) := rfl
theorem addi_apply' {s : Shape} {w : Nat} (x y : IVec s w) (i : s.Idx) : addi x y i = IntOp.addi (x i) (y i) := rfl

/-- The mask bit at row `r` of the query block and column `j` of the key block: query position at least key position. -/
def maskBit (a1 a2 : BitVec 32) (r : Fin 1024) (j : Fin 256) : BitVec 1 :=
  IntOp.cmpi .sge (IntOp.addi (Scalar.muli a1 1024#32) (BitVec.ofNat 32 r.val)) (IntOp.addi (Scalar.muli a2 256#32) (BitVec.ofNat 32 j.val))

/-- The block's masked score at `(r, j)`. -/
theorem pay8_apply (a1 a2 : BitVec 32) (q : Vec Ideal S1x1024x1024 .bf16) (k : Vec Ideal S1x256x1024 .bf16) (r : Fin 1024) (j : Fin 256) :
    k1_pay8 a1 a2 q k (ix2 r j) = Scalar.select (maskBit a1 a2 r j)
      ((∑ d : Fin 1024, q (ix3 (0 : Fin 1) r d) * k (ix3 (0 : Fin 1) j d)) * FloatOps.ofBits (F := Ideal) .f32 0x3D000000#32) ⊥ := by
  unfold k1_pay8
  rw [select_apply, cmpi_apply', addi_apply', addi_apply', broadcast_apply, broadcast_apply, broadcast_apply,
    iota_single_apply, iota_single_apply, mulf_apply, broadcast_apply, negBig,
    TransDot.matmul_zero_trans_apply _ dot_qk none _ _ r j]
  unfold maskBit
  refine congrArg (fun x => Scalar.select _ (x * _) ⊥) (Finset.sum_congr rfl fun d _ => ?_)
  rw [shapeCast_1ab_ab_apply, shapeCast_1ab_ab_apply]

set_option backward.isDefEq.respectTransparency.types false in
/-- The new running maximum at row `r`. -/
theorem pay9_apply (a1 a2 : BitVec 32) (q : Vec Ideal S1x1024x1024 .bf16) (k : Vec Ideal S1x256x1024 .bf16) (m : Vec Ideal S1024x1 .f32)
    (r : Fin 1024) (u : Fin 1) :
    k1_pay9 a1 a2 q k m (ix2 r u) = max (m (ix2 r u)) (Finset.univ.sup fun j : Fin 256 => k1_pay8 a1 a2 q k (ix2 r j)) := by
  unfold k1_pay9
  rw [maximumf_apply]
  refine congrArg (max _) ?_
  refine (ColumnForms.shapeCast_a_a1_apply _ _ r u).trans ?_
  exact LaneMax.laneMax_apply _ _ _ _ r

/-- The rescaling factor at row `r`. -/
theorem pay10_apply (a1 a2 : BitVec 32) (q : Vec Ideal S1x1024x1024 .bf16) (k : Vec Ideal S1x256x1024 .bf16) (m : Vec Ideal S1024x1 .f32)
    (r : Fin 1024) (u : Fin 1) :
    k1_pay10 a1 a2 q k m (ix2 r u) = Ideal.exp (m (ix2 r u) - k1_pay9 a1 a2 q k m (ix2 r u)) := rfl

/-- The block's weight at `(r, j)`. -/
theorem pay11_apply (a1 a2 : BitVec 32) (q : Vec Ideal S1x1024x1024 .bf16) (k : Vec Ideal S1x256x1024 .bf16) (m : Vec Ideal S1024x1 .f32)
    (r : Fin 1024) (j : Fin 256) :
    k1_pay11 a1 a2 q k m (ix2 r j) = Ideal.exp (k1_pay8 a1 a2 q k (ix2 r j) - k1_pay9 a1 a2 q k m (ix2 r (0 : Fin 1))) := by
  unfold k1_pay11
  show Ideal.exp (k1_pay8 a1 a2 q k (ix2 r j) - broadcastTo S1024x256 (k1_pay9 a1 a2 q k m) broadcasts_S1024x1_S1024x256 (ix2 r j)) = _
  rw [ColumnForms.broadcastTo_a1_ab_apply]

set_option backward.isDefEq.respectTransparency.types false in
/-- The new running sum at row `r`. -/
theorem pay12_apply (a1 a2 : BitVec 32) (q : Vec Ideal S1x1024x1024 .bf16) (k : Vec Ideal S1x256x1024 .bf16) (m l : Vec Ideal S1024x1 .f32)
    (r : Fin 1024) (u : Fin 1) :
    k1_pay12 a1 a2 q k m l (ix2 r u) = k1_pay10 a1 a2 q k m (ix2 r u) * l (ix2 r u) + ∑ j : Fin 256, k1_pay11 a1 a2 q k m (ix2 r j) := by
  unfold k1_pay12
  rw [shapeCast_self, addf_apply, mulf_apply]
  refine congrArg₂ (· + ·) rfl ?_
  refine (ColumnForms.shapeCast_a_a1_apply _ _ r u).trans ?_
  exact ColumnForms.laneSum_apply _ _ _ _ r

/-- The new accumulator at `(r, d)`. -/
theorem pay4_apply (v16 : FVec Ideal S256x1024 .bf16) (v36 : FVec Ideal S1024x1 .f32) (v39 : FVec Ideal S1024x256 .f32) (v48 : Vec Ideal S1024x1024 .f32)
    (r : Fin 1024) (d : Fin 1024) :
    k1_pay4 v16 v36 v39 v48 (ix2 r d) = v36 (ix2 r (0 : Fin 1)) * v48 (ix2 r d) + ∑ j : Fin 256, v39 (ix2 r j) * v16 (ix2 j d) := by
  unfold k1_pay4
  rw [shapeCast_self, addf_apply, mulf_apply, ColumnForms.broadcastTo_a1_ab_apply]
  refine congrArg₂ (· + ·) rfl ?_
  exact ColumnForms.matmul_zero_apply _ dot_pv none _ _ r d

theorem pay7_apply (v : Vec Ideal S1x256x1024 .bf16) (j : Fin 256) (d : Fin 1024) : k1_pay7 v (ix2 j d) = v (ix3 (0 : Fin 1) j d) := by
  unfold k1_pay7
  exact shapeCast_1ab_ab_apply v _ j d

theorem pay5_eq (v : FVec Ideal S1024x1 .f32) : k1_pay5 v = v := by
  unfold k1_pay5; exact shapeCast_self _ _

/-- The stored quotient at `(r, d)`. -/
theorem pay6_apply (acc : Vec Ideal S1024x1024 .f32) (l : Vec Ideal S1024x1 .f32) (u : Fin 1) (r : Fin 1024) (d : Fin 1024) :
    k1_pay6 acc l (ix3 u r d) = Ideal.div (acc (ix2 r d)) (l (ix2 r (0 : Fin 1))) := by
  unfold k1_pay6
  refine (shapeCast_ab_1ab_apply _ _ u r d).trans ?_
  rw [divf_apply, ColumnForms.broadcastTo_a1_ab_apply]

/-- The reset values: `−∞`, `0`, `0`. -/
theorem pay1_apply' (i : S1024x1.Idx) : k1_pay1 (F := Ideal) i = (⊥ : EReal) := by
  unfold k1_pay1; rw [shapeCast_self, broadcast_apply]; exact LaneMax.ofBits_negInf
theorem pay2_apply' (i : S1024x1.Idx) : k1_pay2 (F := Ideal) i = (0 : EReal) := by
  unfold k1_pay2; rw [shapeCast_self, broadcast_apply]; exact Ideal.ofBits_zero_f32
theorem pay3_apply' (i : S1024x1024.Idx) : k1_pay3 (F := Ideal) i = (0 : EReal) := by
  unfold k1_pay3; rw [shapeCast_self, broadcast_apply]; exact Ideal.ofBits_zero_f32

/-- The kernel's scale is the exact dyadic `1/32`. -/
theorem inv32 : FloatOps.ofBits (F := Ideal) .f32 0x3D000000#32 = (((1 / 32 : ℝ) : ℝ) : EReal) := by
  show Ideal.ofBits .f32 0x3D000000#32 = _
  simp [Ideal.ofBits, Ideal.ieee]
  rw [← EReal.coe_mul]
  exact congrArg _ (by norm_num)

end Cert.KernelIdeal.Hand

end
-- ==== Proof.Spec.lean ====
/-
  The layer as plain mathematics over the extended reals, index by index: the projections `x · Wᵀ + b`, the causal
  scores `q · k / 32` with `−∞` above the diagonal, and the softmax-weighted sum of the values.
-/
import Idealize.ShloMosaic.PureOps.Ideal
import Idealize.ShloMosaic.Lib.ValueIdx

noncomputable section

open scoped BigOperators

namespace Cert.Spec

open Idealize.ShloMosaic Idealize.ShloMosaic.ValueIdx

/-- The shapes of the activations (and of every projection and of the result), of a weight matrix, of a bias. -/
abbrev S4x2048x1024 : Shape := ⟨3, ![4, 2048, 1024]⟩
abbrev S1024x1024 : Shape := ⟨2, ![1024, 1024]⟩
abbrev S1024 : Shape := ⟨1, ![1024]⟩

/-- A projection: row `(n, s)` of the activations against row `e` of the weights, plus bias `e`. -/
def proj (X : S4x2048x1024.Idx → EReal) (W : S1024x1024.Idx → EReal) (b : S1024.Idx → EReal) : S4x2048x1024.Idx → EReal := fun i =>
  (∑ d : Fin 1024, X (ix3 (⟨(i 0).val, (i 0).isLt⟩ : Fin 4) (⟨(i 1).val, (i 1).isLt⟩ : Fin 2048) d)
      * W (ix2 (⟨(i 2).val, (i 2).isLt⟩ : Fin 1024) d))
    + b (ix1 (⟨(i 2).val, (i 2).isLt⟩ : Fin 1024))

/-- The causal score of query `q` against key `k` in batch `n`: their inner product over 32, `−∞` for a later key. -/
def score (Q Kk : S4x2048x1024.Idx → EReal) (n : Fin 4) (q k : Fin 2048) : EReal :=
  if k.val ≤ q.val then (∑ d : Fin 1024, Q (ix3 n q d) * Kk (ix3 n k d)) * (((1 / 32 : ℝ) : ℝ) : EReal) else ⊥

/-- The row's maximum score. -/
def rowMax (Q Kk : S4x2048x1024.Idx → EReal) (n : Fin 4) (q : Fin 2048) : EReal :=
  (Finset.univ : Finset (Fin 2048)).sup (score Q Kk n q)

/-- Causal attention, as the reference spells it: the normalised weights times the values, summed over all keys. -/
def attn (Q Kk Vv : S4x2048x1024.Idx → EReal) : S4x2048x1024.Idx → EReal := fun i =>
  let n : Fin 4 := ⟨(i 0).val, (i 0).isLt⟩
  let q : Fin 2048 := ⟨(i 1).val, (i 1).isLt⟩
  let d : Fin 1024 := ⟨(i 2).val, (i 2).isLt⟩
  ∑ k : Fin 2048, Ideal.div (Ideal.exp (score Q Kk n q k - rowMax Q Kk n q))
      ((0 : EReal) + ∑ k' : Fin 2048, Ideal.exp (score Q Kk n q k' - rowMax Q Kk n q)) * Vv (ix3 n k d)

/-- The keys a block of 1024 queries ever looks at: those before the end of the block. -/
def seen (q : Fin 2048) : Finset (Fin 2048) := Finset.univ.filter fun k => k.val < 1024 * (q.val / 1024 + 1)

/-- Causal attention, as the kernel accumulates it: the accumulator over the running sum, both over the keys seen. -/
def attnAcc (Q Kk Vv : S4x2048x1024.Idx → EReal) : S4x2048x1024.Idx → EReal := fun i =>
  let n : Fin 4 := ⟨(i 0).val, (i 0).isLt⟩
  let q : Fin 2048 := ⟨(i 1).val, (i 1).isLt⟩
  let d : Fin 1024 := ⟨(i 2).val, (i 2).isLt⟩
  Ideal.div (∑ k ∈ seen q, Ideal.exp (score Q Kk n q k - (seen q).sup (score Q Kk n q)) * Vv (ix3 n k d))
    (∑ k ∈ seen q, Ideal.exp (score Q Kk n q k - (seen q).sup (score Q Kk n q)))

end Cert.Spec

end
-- ==== Proof.KI.FlashRows.lean ====
/- The attention call of the idealized kernel: blocks and scores. -/
import proofs.«157933_j90314572300799_2_alg».proof.Proof.KI.FlashPay
import proofs.«157933_j90314572300799_2_alg».proof.Proof.KI.FlashData
import proofs.«157933_j90314572300799_2_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The attention call's geometry: which query rows and key rows a grid point's blocks hold, and the block's
    masked scores as the layer's causal scores. -/

/-- The grid's coordinates (batch, query block, key block) of point `t`. -/
theorem coords1 : ∀ t : Fin cfg1.N, (grid1.coords t 0).val = t.val / 16 ∧ (grid1.coords t 1).val = t.val / 8 % 2 ∧ (grid1.coords t 2).val = t.val % 8 :=
  (by decide +kernel : ∀ t : Fin grid1.N, (grid1.coords t 0).val = t.val / 16 ∧ (grid1.coords t 1).val = t.val / 8 % 2 ∧ (grid1.coords t 2).val = t.val % 8)

/-- The windows' block indices: the query and output blocks follow (batch, query block); the key and value blocks
    follow the key block, held at the last block on the diagonal once past it. -/
theorem idx_facts1 : ∀ t : Fin cfg1.N,
    win1_0.index t (0 : Fin 3) = t.val / 16 ∧ win1_0.index t (1 : Fin 3) = t.val / 8 % 2 ∧ win1_0.index t (2 : Fin 3) = 0
    ∧ win1_1.index t (0 : Fin 3) = t.val / 16 ∧ win1_1.index t (1 : Fin 3) = min (t.val % 8) (4 * (t.val / 8 % 2) + 3) ∧ win1_1.index t (2 : Fin 3) = 0
    ∧ win1_2.index t (0 : Fin 3) = t.val / 16 ∧ win1_2.index t (1 : Fin 3) = min (t.val % 8) (4 * (t.val / 8 % 2) + 3) ∧ win1_2.index t (2 : Fin 3) = 0
    ∧ win1_3.index t (0 : Fin 3) = t.val / 16 ∧ win1_3.index t (1 : Fin 3) = t.val / 8 % 2 ∧ win1_3.index t (2 : Fin 3) = 0 :=
  (by decide +kernel : ∀ t : Fin grid1.N, _)

/-- Small words: `a · c + b` computed on 32-bit words is the number, below `2³¹`. -/
theorem word_of (a : ℕ) (c : ℕ) (b : ℕ) (h : a * c + b < 2 ^ 31) :
    IntOp.addi (Scalar.muli (BitVec.ofNat 32 a) (BitVec.ofNat 32 c)) (BitVec.ofNat 32 b) = BitVec.ofNat 32 (a * c + b) := by
  apply BitVec.eq_of_toNat_eq
  simp [IntOp.addi, Scalar.muli, IntOp.muli, BitVec.toNat_add, BitVec.toNat_mul, BitVec.toNat_ofNat]

/-- The signed comparison of two small words is the comparison of the numbers. -/
theorem sle_ofNat (x y : ℕ) (hx : x < 2 ^ 31) (hy : y < 2 ^ 31) : (BitVec.ofNat 32 x).sle (BitVec.ofNat 32 y) = decide (x ≤ y) := by
  have hxi : (BitVec.ofNat 32 x).toInt = x := by
    rw [BitVec.toInt_eq_toNat_cond, BitVec.toNat_ofNat]
    have : x % 2 ^ 32 = x := Nat.mod_eq_of_lt (by omega)
    rw [this]; split <;> omega
  have hyi : (BitVec.ofNat 32 y).toInt = y := by
    rw [BitVec.toInt_eq_toNat_cond, BitVec.toNat_ofNat]
    have : y % 2 ^ 32 = y := Nat.mod_eq_of_lt (by omega)
    rw [this]; split <;> omega
  unfold BitVec.sle
  rw [hxi, hyi]
  simp

/-- The mask bit is "key position at most query position". -/
theorem maskBit_eq (qi kv : ℕ) (hqi : qi < 2) (hkv : kv < 8) (r : Fin 1024) (j : Fin 256) :
    maskBit (BitVec.ofNat 32 qi) (BitVec.ofNat 32 kv) r j = BitVec.ofBool (decide (kv * 256 + j.val ≤ qi * 1024 + r.val)) := by
  unfold maskBit
  rw [show (1024#32 : BitVec 32) = BitVec.ofNat 32 1024 from rfl, show (256#32 : BitVec 32) = BitVec.ofNat 32 256 from rfl,
    word_of qi 1024 r.val (by have := r.isLt; omega), word_of kv 256 j.val (by have := j.isLt; omega)]
  show BitVec.ofBool ((BitVec.ofNat 32 (kv * 256 + j.val)).sle (BitVec.ofNat 32 (qi * 1024 + r.val))) = _
  rw [sle_ofNat _ _ (by have := j.isLt; omega) (by have := r.isLt; omega)]

theorem select_ofBool {α : Type} (p : Prop) [Decidable p] (a b : α) : Scalar.select (BitVec.ofBool (decide p)) a b = if p then a else b := by
  by_cases h : p <;> simp [Scalar.select, h]

section
variable (V : (c : Dev nD) → (b : Ref sig .tc) → Buf (Elt Ideal) ((c : Thread nD τ).loc b))

theorem iblk1_0_apply (c : Dev nD) (t : Fin cfg1.N) (y : Fin 1024) (d : Fin 1024) (n : Fin 4) (g : Fin 2048) (hn : n.val = t.val / 16)
    (hg : g.val = 1024 * (t.val / 8 % 2) + y.val) :
    iblk1 V c 0 t (ix3 (0 : Fin 1) y d) = V c main_v4_0 (ix3 n g d) := by
  obtain ⟨e00, e01, e02, e10, e11, e12, e20, e21, e22, e30, e31, e32⟩ := idx_facts1 t
  show V c main_v4_0 (((cfg1.win 0).blk t).view.emb (ix3 (0 : Fin 1) y d)) = _
  refine congrArg (V c main_v4_0) (funext fun a => Fin.ext ?_)
  match a with
  | ⟨0, _⟩ => show win1_0.index t (0 : Fin 3) * 1 + 1 * 0 = n.val; omega
  | ⟨1, _⟩ => show win1_0.index t (1 : Fin 3) * 1024 + 1 * y.val = g.val; omega
  | ⟨2, _⟩ => show win1_0.index t (2 : Fin 3) * 1024 + 1 * d.val = d.val; omega

theorem iblk1_1_apply (c : Dev nD) (t : Fin cfg1.N) (y : Fin 256) (d : Fin 1024) (n : Fin 4) (g : Fin 2048) (hn : n.val = t.val / 16)
    (hg : g.val = 256 * (min (t.val % 8) (4 * (t.val / 8 % 2) + 3)) + y.val) :
    iblk1 V c 1 t (ix3 (0 : Fin 1) y d) = V c main_v4_1 (ix3 n g d) := by
  obtain ⟨e00, e01, e02, e10, e11, e12, e20, e21, e22, e30, e31, e32⟩ := idx_facts1 t
  show V c main_v4_1 (((cfg1.win 1).blk t).view.emb (ix3 (0 : Fin 1) y d)) = _
  refine congrArg (V c main_v4_1) (funext fun a => Fin.ext ?_)
  match a with
  | ⟨0, _⟩ => show win1_1.index t (0 : Fin 3) * 1 + 1 * 0 = n.val; omega
  | ⟨1, _⟩ => show win1_1.index t (1 : Fin 3) * 256 + 1 * y.val = g.val; omega
  | ⟨2, _⟩ => show win1_1.index t (2 : Fin 3) * 1024 + 1 * d.val = d.val; omega

theorem iblk1_2_apply (c : Dev nD) (t : Fin cfg1.N) (y : Fin 256) (d : Fin 1024) (n : Fin 4) (g : Fin 2048) (hn : n.val = t.val / 16)
    (hg : g.val = 256 * (min (t.val % 8) (4 * (t.val / 8 % 2) + 3)) + y.val) :
    iblk1 V c 2 t (ix3 (0 : Fin 1) y d) = V c main_v4_2 (ix3 n g d) := by
  obtain ⟨e00, e01, e02, e10, e11, e12, e20, e21, e22, e30, e31, e32⟩ := idx_facts1 t
  show V c main_v4_2 (((cfg1.win 2).blk t).view.emb (ix3 (0 : Fin 1) y d)) = _
  refine congrArg (V c main_v4_2) (funext fun a => Fin.ext ?_)
  match a with
  | ⟨0, _⟩ => show win1_2.index t (0 : Fin 3) * 1 + 1 * 0 = n.val; omega
  | ⟨1, _⟩ => show win1_2.index t (1 : Fin 3) * 256 + 1 * y.val = g.val; omega
  | ⟨2, _⟩ => show win1_2.index t (2 : Fin 3) * 1024 + 1 * d.val = d.val; omega

/-- At a point that accumulates (key block on or below the diagonal of the query block) the block's masked score at
    `(r, j)` is the layer's causal score of query `1024·qi + r` against key `256·kv + j`. -/
theorem tile_score (c : Dev nD) (t : Fin cfg1.N) (hproc : t.val % 8 ≤ 4 * (t.val / 8 % 2) + 3) (r : Fin 1024) (j : Fin 256)
    (n : Fin 4) (q k : Fin 2048) (hn : n.val = t.val / 16) (hq : q.val = 1024 * (t.val / 8 % 2) + r.val) (hk : k.val = 256 * (t.val % 8) + j.val) :
    k1_pay8 (BitVec.ofNat 32 (grid1.coords t 1).val) (BitVec.ofNat 32 (grid1.coords t 2).val) (iblk1 V c 0 t) (iblk1 V c 1 t) (ix2 r j)
      = Cert.Spec.score (V c main_v4_0) (V c main_v4_1) n q k := by
  obtain ⟨c0, c1, c2⟩ := coords1 t
  have hN : t.val < 64 := lt_of_lt_of_eq t.isLt (show cfg1.N = 64 from N_1)
  rw [pay8_apply, c1, c2, maskBit_eq _ _ (by omega) (by omega), select_ofBool, inv32]
  unfold Cert.Spec.score
  have hiff : (t.val % 8 * 256 + j.val ≤ t.val / 8 % 2 * 1024 + r.val) ↔ (k.val ≤ q.val) := by omega
  rw [if_congr hiff rfl rfl]
  refine congrArg (fun x => if k.val ≤ q.val then x * _ else ⊥) (Finset.sum_congr rfl fun d _ => ?_)
  rw [iblk1_0_apply V c t r d n q hn hq, iblk1_1_apply V c t j d n k hn (by rw [hk, Nat.min_eq_left hproc])]

end

end Cert.KernelIdeal.Hand

end
-- ==== Proof.AttnMath.lean ====
/-
  The arithmetic of a softmax accumulated one block of keys at a time, over the extended reals.

  A row's scores `s k` are reals or `−∞` (masked keys), the values `ν k` reals. For a set `C` of keys already
  folded in, with maximum `μ`, the running sum is `∑_{k ∈ C} exp (s k − μ)` and the accumulator
  `∑_{k ∈ C} exp (s k − μ) · ν k`. Folding in a disjoint block `T` at the new maximum `μ'` rescales both by
  `exp (μ − μ')` and adds the block's terms (`fold_sum`, `fold_acc`): termwise `exp (μ − μ') · exp (s − μ) = exp (s − μ')`,
  and a real factor distributes over a finite sum of reals. At the end the accumulator over the running sum is the
  softmax-weighted sum of the values (`quotient_eq`): a real divisor that is not zero distributes over the sum, and
  a masked key weighs `exp (−∞) / Z = 0`.
-/
import Idealize.ShloMosaic.PureOps.Ideal

noncomputable section

open scoped BigOperators

namespace Cert.AttnMath

open Idealize.ShloMosaic

variable {K : Type} [DecidableEq K]

/-- A real-valued finite sum, as an extended real, is the sum of the coercions. -/
theorem coe_sum (C : Finset K) (f : K → ℝ) : ((∑ k ∈ C, f k : ℝ) : EReal) = ∑ k ∈ C, (f k : EReal) := by
  induction C using Finset.induction_on with
  | empty => simp
  | insert a C ha ih => rw [Finset.sum_insert ha, Finset.sum_insert ha, EReal.coe_add, ih]

theorem exp_bot_sub (μ : ℝ) : Ideal.exp (⊥ - (μ : EReal)) = 0 := by
  rw [EReal.bot_sub]; exact Ideal.exp_bot
theorem exp_coe_sub (μ μ' : ℝ) : Ideal.exp ((μ : EReal) - (μ' : EReal)) = ((Real.exp (μ - μ') : ℝ) : EReal) := by
  rw [← EReal.coe_sub]; rfl

/-- The weight of a score `x` at maximum `μ`, as a real: `exp (x − μ)`, `0` for `−∞`. -/
def wx (x : EReal) (μ : ℝ) : ℝ := (Ideal.exp (x - (μ : EReal))).toReal

theorem exp_eq_wx (x : EReal) (hx : x ≠ ⊤) (μ : ℝ) : Ideal.exp (x - (μ : EReal)) = ((wx x μ : ℝ) : EReal) := by
  unfold wx
  induction x using EReal.rec with
  | bot => rw [exp_bot_sub]; simp
  | coe a => rw [exp_coe_sub]; simp
  | top => exact absurd rfl hx

theorem wx_bot (μ : ℝ) : wx ⊥ μ = 0 := by unfold wx; rw [exp_bot_sub]; simp

theorem wx_nonneg (x : EReal) (hx : x ≠ ⊤) (μ : ℝ) : 0 ≤ wx x μ := by
  unfold wx
  induction x using EReal.rec with
  | bot => rw [exp_bot_sub]; simp
  | coe a => rw [exp_coe_sub]; simp [Real.exp_nonneg]
  | top => exact absurd rfl hx

/-- Rescaling a weight from maximum `μ` to `μ'`. -/
theorem wx_rescale (x : EReal) (hx : x ≠ ⊤) (μ μ' : ℝ) : Real.exp (μ - μ') * wx x μ = wx x μ' := by
  unfold wx
  induction x using EReal.rec with
  | bot => rw [exp_bot_sub, exp_bot_sub]; simp
  | coe a =>
    rw [exp_coe_sub, exp_coe_sub, EReal.toReal_coe, EReal.toReal_coe, ← Real.exp_add]; congr 1; ring
  | top => exact absurd rfl hx

/-- A score at the maximum weighs one. -/
theorem wx_self (μ : ℝ) : wx (μ : EReal) μ = 1 := by
  unfold wx; rw [exp_coe_sub]; simp

/-- The weight of key `k`. -/
abbrev w (s : K → EReal) (μ : ℝ) (k : K) : ℝ := wx (s k) μ
theorem exp_eq_w (s : K → EReal) (μ : ℝ) (k : K) (hs : s k ≠ ⊤) : Ideal.exp (s k - (μ : EReal)) = ((w s μ k : ℝ) : EReal) :=
  exp_eq_wx (s k) hs μ
theorem w_nonneg (s : K → EReal) (μ : ℝ) (k : K) (hs : s k ≠ ⊤) : 0 ≤ w s μ k := wx_nonneg (s k) hs μ
theorem w_rescale (s : K → EReal) (μ μ' : ℝ) (k : K) (hs : s k ≠ ⊤) : Real.exp (μ - μ') * w s μ k = w s μ' k :=
  wx_rescale (s k) hs μ μ'
theorem w_self (s : K → EReal) (μ : ℝ) (k : K) (hk : s k = (μ : EReal)) : w s μ k = 1 := by
  show wx (s k) μ = 1; rw [hk]; exact wx_self μ

/-- Folding a block of keys into the running sum. -/
theorem fold_sum (s : K → EReal) (hs : ∀ k, s k ≠ ⊤) (C T : Finset K) (hd : Disjoint C T) (μ μ' : ℝ) :
    Ideal.exp ((μ : EReal) - (μ' : EReal)) * (∑ k ∈ C, Ideal.exp (s k - (μ : EReal))) + ∑ k ∈ T, Ideal.exp (s k - (μ' : EReal))
      = ∑ k ∈ C ∪ T, Ideal.exp (s k - (μ' : EReal)) := by
  rw [Finset.sum_union hd, exp_coe_sub]
  simp only [exp_eq_w s _ _ (hs _)]
  rw [← coe_sum, ← coe_sum, ← coe_sum, ← EReal.coe_mul, Finset.mul_sum]
  simp only [w_rescale s μ μ' _ (hs _)]

/-- Folding a block of keys into the accumulator. -/
theorem fold_acc (s : K → EReal) (hs : ∀ k, s k ≠ ⊤) (ν : K → ℝ) (C T : Finset K) (hd : Disjoint C T) (μ μ' : ℝ) :
    Ideal.exp ((μ : EReal) - (μ' : EReal)) * (∑ k ∈ C, Ideal.exp (s k - (μ : EReal)) * (ν k : EReal))
        + ∑ k ∈ T, Ideal.exp (s k - (μ' : EReal)) * (ν k : EReal)
      = ∑ k ∈ C ∪ T, Ideal.exp (s k - (μ' : EReal)) * (ν k : EReal) := by
  rw [Finset.sum_union hd, exp_coe_sub]
  simp only [exp_eq_w s _ _ (hs _), ← EReal.coe_mul]
  rw [← coe_sum, ← coe_sum, ← coe_sum, ← EReal.coe_mul, Finset.mul_sum]
  refine congrArg₂ (· + ·) (congrArg _ (Finset.sum_congr rfl fun k _ => ?_)) rfl
  rw [← mul_assoc, w_rescale s μ μ' _ (hs _)]

/-- The first block: from maximum `−∞`, sum `0`, accumulator `0`. -/
theorem first_sum (x m' : EReal) (S : EReal) : Ideal.exp (⊥ - m') * (0 : EReal) + S = S := by
  rw [mul_zero, zero_add]

/-- The quotient at the end is the softmax-weighted sum: over all keys, of which those outside `C` are masked. -/
theorem quotient_eq [Fintype K] (s : K → EReal) (hs : ∀ k, s k ≠ ⊤) (ν : K → ℝ) (C : Finset K) (hC : ∀ k, k ∉ C → s k = ⊥)
    (μ : ℝ) (k₀ : K) (hk₀ : k₀ ∈ C) (hμ : s k₀ = (μ : EReal)) :
    ∑ k : K, Ideal.div (Ideal.exp (s k - (μ : EReal))) ((0 : EReal) + ∑ k' : K, Ideal.exp (s k' - (μ : EReal))) * (ν k : EReal)
      = Ideal.div (∑ k ∈ C, Ideal.exp (s k - (μ : EReal)) * (ν k : EReal)) (∑ k ∈ C, Ideal.exp (s k - (μ : EReal))) := by
  have hout : ∀ k, k ∉ C → w s μ k = 0 := fun k hk => by show wx (s k) μ = 0; rw [hC k hk]; exact wx_bot μ
  have hZ : (∑ k' : K, Ideal.exp (s k' - (μ : EReal))) = ((∑ k ∈ C, w s μ k : ℝ) : EReal) := by
    simp only [exp_eq_w s _ _ (hs _)]
    rw [← coe_sum]
    refine congrArg _ ?_
    exact (Finset.sum_subset (Finset.subset_univ C) fun k _ hk => hout k hk).symm
  have hpos : (0 : ℝ) < ∑ k ∈ C, w s μ k :=
    lt_of_lt_of_le (by rw [w_self s μ k₀ hμ]; exact one_pos)
      (Finset.single_le_sum (fun k _ => w_nonneg s μ k (hs k)) hk₀)
  have hne : (∑ k ∈ C, w s μ k) ≠ 0 := ne_of_gt hpos
  rw [hZ, zero_add]
  simp only [exp_eq_w s _ _ (hs _), Ideal.div_coe hne, ← EReal.coe_mul]
  rw [← coe_sum, ← coe_sum, ← coe_sum, Ideal.div_coe hne, ← EReal.coe_mul]
  refine congrArg _ ?_
  rw [Finset.sum_mul]
  rw [← Finset.sum_subset (Finset.subset_univ C) (fun k _ hk => by rw [hout k hk]; ring)]
  refine Finset.sum_congr rfl fun k _ => by ring

end Cert.AttnMath

end
-- ==== Proof.AttnRow.lean ====
/-
  One row of the accumulated softmax, step by step: the running maximum, sum and accumulator over a set `C` of keys,
  and what folding in one more block `T` of keys makes of them.
-/
import proofs.«157933_j90314572300799_2_alg».proof.Proof.AttnMath

noncomputable section

open scoped BigOperators

namespace Cert.AttnMath

open Idealize.ShloMosaic

variable {K : Type} [DecidableEq K]

/-- The maximum of scores that are reals or `−∞`, at least one of them real, is real. -/
theorem sup_real (s : K → EReal) (hs : ∀ k, s k ≠ ⊤) (C : Finset K) (k0 : K) (hk0 : k0 ∈ C) (h0 : s k0 ≠ ⊥) :
    ∃ μ : ℝ, C.sup s = (μ : EReal) := by
  have hne : C.Nonempty := ⟨k0, hk0⟩
  obtain ⟨k1, hk1, hsup⟩ := Finset.exists_mem_eq_sup C hne s
  have htop : C.sup s ≠ ⊤ := by rw [hsup]; exact hs k1
  have hbot : C.sup s ≠ ⊥ := fun h => h0 (le_bot_iff.mp (h ▸ Finset.le_sup hk0))
  exact ⟨(C.sup s).toReal, (EReal.coe_toReal htop hbot).symm⟩

/-- Folding a block `T` into a row that has already seen the keys `C`. -/
theorem row_step (s : K → EReal) (hs : ∀ k, s k ≠ ⊤) (ν : K → ℝ) (C T : Finset K) (hd : Disjoint C T)
    (k0 : K) (hk0 : k0 ∈ C) (h0 : s k0 ≠ ⊥) (m l a m' l' a' : EReal)
    (hm : m = C.sup s) (hl : l = ∑ k ∈ C, Ideal.exp (s k - m)) (ha : a = ∑ k ∈ C, Ideal.exp (s k - m) * (ν k : EReal))
    (hm' : m' = max m (T.sup s)) (hl' : l' = Ideal.exp (m - m') * l + ∑ k ∈ T, Ideal.exp (s k - m'))
    (ha' : a' = Ideal.exp (m - m') * a + ∑ k ∈ T, Ideal.exp (s k - m') * (ν k : EReal)) :
    m' = (C ∪ T).sup s ∧ l' = ∑ k ∈ C ∪ T, Ideal.exp (s k - m') ∧ a' = ∑ k ∈ C ∪ T, Ideal.exp (s k - m') * (ν k : EReal) := by
  obtain ⟨μ, hμ⟩ := sup_real s hs C k0 hk0 h0
  obtain ⟨μ', hμ'⟩ := sup_real s hs (C ∪ T) k0 (Finset.mem_union_left T hk0) h0
  have hm2 : m' = (C ∪ T).sup s := by rw [hm', hm, Finset.sup_union]
  refine ⟨hm2, ?_, ?_⟩
  · rw [hl', hl, hm2, hμ', hm, hμ]; exact fold_sum s hs C T hd μ μ'
  · rw [ha', ha, hm2, hμ', hm, hμ]; exact fold_acc s hs ν C T hd μ μ'

/-- The same with the values given as extended reals that are real, and the new maximum written as the supremum. -/
theorem row_step' (s : K → EReal) (hs : ∀ k, s k ≠ ⊤) (vv : K → EReal) (hvv : ∀ k, ∃ x : ℝ, vv k = (x : EReal)) (C T : Finset K) (hd : Disjoint C T)
    (k0 : K) (hk0 : k0 ∈ C) (h0 : s k0 ≠ ⊥) (m l a : EReal)
    (hm : m = C.sup s) (hl : l = ∑ k ∈ C, Ideal.exp (s k - C.sup s)) (ha : a = ∑ k ∈ C, Ideal.exp (s k - C.sup s) * vv k) :
    max m (T.sup s) = (C ∪ T).sup s
    ∧ Ideal.exp (m - max m (T.sup s)) * l + ∑ k ∈ T, Ideal.exp (s k - max m (T.sup s)) = ∑ k ∈ C ∪ T, Ideal.exp (s k - (C ∪ T).sup s)
    ∧ Ideal.exp (m - max m (T.sup s)) * a + ∑ k ∈ T, Ideal.exp (s k - max m (T.sup s)) * vv k = ∑ k ∈ C ∪ T, Ideal.exp (s k - (C ∪ T).sup s) * vv k := by
  choose ν hν using hvv
  obtain rfl : vv = fun k => ((ν k : ℝ) : EReal) := funext hν
  obtain ⟨h1, h2, h3⟩ := row_step s hs ν C T hd k0 hk0 h0 m l a _ _ _ hm (by rw [hl, hm]) (by rw [ha, hm]) rfl rfl rfl
  exact ⟨h1, by rw [h2, h1], by rw [h3, h1]⟩

/-- The first block, into a reset row (maximum `−∞`, sum `0`, accumulator `0`). -/
theorem row_first (s : K → EReal) (vv : K → EReal) (T : Finset K) (m l a : EReal)
    (hm : m = ⊥) (hl : l = 0) (ha : a = 0) :
    max m (T.sup s) = T.sup s
    ∧ Ideal.exp (m - max m (T.sup s)) * l + ∑ k ∈ T, Ideal.exp (s k - max m (T.sup s)) = ∑ k ∈ T, Ideal.exp (s k - T.sup s)
    ∧ Ideal.exp (m - max m (T.sup s)) * a + ∑ k ∈ T, Ideal.exp (s k - max m (T.sup s)) * vv k = ∑ k ∈ T, Ideal.exp (s k - T.sup s) * vv k := by
  have h1 : max m (T.sup s) = T.sup s := by rw [hm]; exact bot_sup_eq _
  refine ⟨h1, ?_, ?_⟩
  · rw [hl, mul_zero, zero_add, h1]
  · rw [ha, mul_zero, zero_add, h1]

/-! ## The keys below a bound, block by block -/

/-- The keys before position `b`. -/
def below (b : ℕ) : Finset (Fin 2048) := Finset.univ.filter fun k => k.val < b

/-- Key block `kv` as the image of its 256 columns. -/
def tileEmb (kv : ℕ) (h : 256 * kv + 256 ≤ 2048) : Fin 256 ↪ Fin 2048 :=
  ⟨fun j => ⟨256 * kv + j.val, by have := j.isLt; omega⟩, fun a b hab => by
    have := congrArg Fin.val hab; simp only at this; exact Fin.ext (by omega)⟩

/-- Key block `kv`. -/
def tile (kv : ℕ) (h : 256 * kv + 256 ≤ 2048) : Finset (Fin 2048) := Finset.univ.map (tileEmb kv h)

theorem mem_tile (kv : ℕ) (h : 256 * kv + 256 ≤ 2048) (k : Fin 2048) : k ∈ tile kv h ↔ 256 * kv ≤ k.val ∧ k.val < 256 * kv + 256 := by
  unfold tile
  rw [Finset.mem_map]
  constructor
  · rintro ⟨j, -, rfl⟩; show 256 * kv ≤ 256 * kv + j.val ∧ 256 * kv + j.val < 256 * kv + 256; have := j.isLt; omega
  · rintro ⟨h1, h2⟩; exact ⟨⟨k.val - 256 * kv, by omega⟩, Finset.mem_univ _, Fin.ext (by show 256 * kv + (k.val - 256 * kv) = k.val; omega)⟩

theorem below_zero : below 0 = ∅ := by
  unfold below; exact Finset.filter_false_of_mem fun k _ => by omega

theorem below_succ (kv : ℕ) (h : 256 * kv + 256 ≤ 2048) : below (256 * (kv + 1)) = below (256 * kv) ∪ tile kv h := by
  ext k
  rw [Finset.mem_union, mem_tile]
  unfold below
  simp only [Finset.mem_filter, Finset.mem_univ, true_and]
  omega

theorem below_disj (kv : ℕ) (h : 256 * kv + 256 ≤ 2048) : Disjoint (below (256 * kv)) (tile kv h) := by
  rw [Finset.disjoint_left]
  intro k hk hk'
  rw [mem_tile] at hk'
  unfold below at hk
  simp only [Finset.mem_filter, Finset.mem_univ, true_and] at hk
  omega

theorem sum_tile (kv : ℕ) (h : 256 * kv + 256 ≤ 2048) (f : Fin 2048 → EReal) :
    ∑ k ∈ tile kv h, f k = ∑ j : Fin 256, f (tileEmb kv h j) := Finset.sum_map _ _ _

theorem sup_tile (kv : ℕ) (h : 256 * kv + 256 ≤ 2048) (f : Fin 2048 → EReal) :
    (tile kv h).sup f = Finset.univ.sup fun j : Fin 256 => f (tileEmb kv h j) := Finset.sup_map _ _ _

end Cert.AttnMath

end
-- ==== Proof.KI.FlashInv.lean ====
/- The attention call of the idealized kernel: the scratch buffers' invariant. -/
import proofs.«157933_j90314572300799_2_alg».proof.Proof.KI.FlashRows
import proofs.«157933_j90314572300799_2_alg».proof.Proof.AttnRow

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The attention call's invariant: after every grid point each row of the three scratch buffers holds the
    running maximum, sum and accumulator of its query over the keys seen so far. -/

open Cert.AttnMath

/-- A sum of products of reals is a real. -/
theorem real_dot {ι : Type} [Fintype ι] [DecidableEq ι] (f g : ι → EReal) (hf : ∀ d, ∃ r : ℝ, f d = (r : EReal)) (hg : ∀ d, ∃ r : ℝ, g d = (r : EReal)) :
    ∃ r : ℝ, ∑ d, f d * g d = (r : EReal) := by
  choose a ha using hf
  choose b hb using hg
  refine ⟨∑ d, a d * b d, ?_⟩
  rw [coe_sum]
  exact Finset.sum_congr rfl fun d _ => by rw [ha, hb, EReal.coe_mul]

section
variable (V : (c : Dev nD) → (b : Ref sig .tc) → Buf (Elt Ideal) ((c : Thread nD τ).loc b)) (c : Dev nD)
variable (hQ : ∀ i, ∃ r : ℝ, V c main_v4_0 i = (r : EReal)) (hK : ∀ i, ∃ r : ℝ, V c main_v4_1 i = (r : EReal))
  (hV : ∀ i, ∃ r : ℝ, V c main_v4_2 i = (r : EReal))

include hQ hK in
/-- A causal score is a real or `−∞`. -/
theorem score_ne_top (n : Fin 4) (q k : Fin 2048) : Cert.Spec.score (V c main_v4_0) (V c main_v4_1) n q k ≠ ⊤ := by
  unfold Cert.Spec.score
  split
  · obtain ⟨r, hr⟩ := real_dot (fun d => V c main_v4_0 (ix3 n q d)) (fun d => V c main_v4_1 (ix3 n k d)) (fun d => hQ _) (fun d => hK _)
    rw [hr, ← EReal.coe_mul]; exact EReal.coe_ne_top _
  · exact bot_ne_top

include hQ hK in
/-- The score against key 0 is a real: key 0 is never masked. -/
theorem score_zero_ne_bot (n : Fin 4) (q : Fin 2048) : Cert.Spec.score (V c main_v4_0) (V c main_v4_1) n q ⟨0, by omega⟩ ≠ ⊥ := by
  unfold Cert.Spec.score
  rw [if_pos (Nat.zero_le _)]
  obtain ⟨r, hr⟩ := real_dot (fun d => V c main_v4_0 (ix3 n q d)) (fun d => V c main_v4_1 (ix3 n (⟨0, by omega⟩ : Fin 2048) d)) (fun d => hQ _) (fun d => hK _)
  rw [hr, ← EReal.coe_mul]; exact EReal.coe_ne_bot _

/-- The keys a point's rows have seen once its body has run: the blocks up to the point's key block, held at the
    last block on the diagonal. -/
def seenAt (t : Fin cfg1.N) : Finset (Fin 2048) := below (256 * (min (t.val % 8) (4 * (t.val / 8 % 2) + 3) + 1))

/-- The three scratch buffers are right for point `t`: row `r` holds the running maximum, sum and accumulator of query
    `1024·qi + r` of batch `n` over the keys seen. -/
def RowsOK (t : Fin cfg1.N) (s0 s1 : Vec Ideal S1024x1 .f32) (s2 : Vec Ideal S1024x1024 .f32) : Prop :=
  ∀ (r : Fin 1024) (n : Fin 4) (q : Fin 2048), n.val = t.val / 16 → q.val = 1024 * (t.val / 8 % 2) + r.val →
    (∀ u : Fin 1, s0 (ix2 r u) = (seenAt t).sup (Cert.Spec.score (V c main_v4_0) (V c main_v4_1) n q))
    ∧ (∀ u : Fin 1, s1 (ix2 r u) = ∑ k ∈ seenAt t, Ideal.exp (Cert.Spec.score (V c main_v4_0) (V c main_v4_1) n q k - (seenAt t).sup (Cert.Spec.score (V c main_v4_0) (V c main_v4_1) n q)))
    ∧ (∀ d : Fin 1024, s2 (ix2 r d) = ∑ k ∈ seenAt t, Ideal.exp (Cert.Spec.score (V c main_v4_0) (V c main_v4_1) n q k - (seenAt t).sup (Cert.Spec.score (V c main_v4_0) (V c main_v4_1) n q)) * V c main_v4_2 (ix3 n k d))

/-- What one accumulating point makes of row `r`, spelt over the layer's scores: the three updates of the body with
    the block's masked scores and values replaced by the layer's. -/
theorem upd_row (t : Fin cfg1.N) (hproc : t.val % 8 ≤ 4 * (t.val / 8 % 2) + 3) (m l : Vec Ideal S1024x1 .f32) (acc : Vec Ideal S1024x1024 .f32)
    (r : Fin 1024) (n : Fin 4) (q : Fin 2048) (hn : n.val = t.val / 16) (hq : q.val = 1024 * (t.val / 8 % 2) + r.val)
    (hb : 256 * (t.val % 8) + 256 ≤ 2048) :
    let s := Cert.Spec.score (V c main_v4_0) (V c main_v4_1) n q
    let T := tile (t.val % 8) hb
    let m' := max (m (ix2 r (0 : Fin 1))) (T.sup s)
    (∀ u : Fin 1, updM (BitVec.ofNat 32 (grid1.coords t 1).val) (BitVec.ofNat 32 (grid1.coords t 2).val) (iblk1 V c 0 t) (iblk1 V c 1 t) m (ix2 r u) = m')
    ∧ (∀ u : Fin 1, updL (BitVec.ofNat 32 (grid1.coords t 1).val) (BitVec.ofNat 32 (grid1.coords t 2).val) (iblk1 V c 0 t) (iblk1 V c 1 t) m l (ix2 r u)
        = Ideal.exp (m (ix2 r (0 : Fin 1)) - m') * l (ix2 r (0 : Fin 1)) + ∑ k ∈ T, Ideal.exp (s k - m'))
    ∧ (∀ d : Fin 1024, updA (BitVec.ofNat 32 (grid1.coords t 1).val) (BitVec.ofNat 32 (grid1.coords t 2).val) (iblk1 V c 0 t) (iblk1 V c 1 t) (iblk1 V c 2 t) m acc (ix2 r d)
        = Ideal.exp (m (ix2 r (0 : Fin 1)) - m') * acc (ix2 r d) + ∑ k ∈ T, Ideal.exp (s k - m') * V c main_v4_2 (ix3 n k d)) := by
  intro s T m'
  have hs8 : ∀ j : Fin 256, k1_pay8 (BitVec.ofNat 32 (grid1.coords t 1).val) (BitVec.ofNat 32 (grid1.coords t 2).val) (iblk1 V c 0 t) (iblk1 V c 1 t) (ix2 r j) = s (tileEmb (t.val % 8) hb j) :=
    fun j => tile_score V c t hproc r j n q (tileEmb (t.val % 8) hb j) hn hq rfl
  have h9 : ∀ u : Fin 1, k1_pay9 (BitVec.ofNat 32 (grid1.coords t 1).val) (BitVec.ofNat 32 (grid1.coords t 2).val) (iblk1 V c 0 t) (iblk1 V c 1 t) m (ix2 r u) = m' := fun u => by
    obtain rfl : u = 0 := Subsingleton.elim _ _
    rw [pay9_apply]
    refine congrArg (max _) ?_
    rw [sup_tile]
    exact congrArg Finset.univ.sup (funext hs8)
  refine ⟨fun u => ?_, fun u => ?_, fun d => ?_⟩
  · unfold updM; rw [pay5_eq]; exact h9 u
  · obtain rfl : u = 0 := Subsingleton.elim _ _
    unfold updL
    rw [pay12_apply, pay10_apply, h9, sum_tile]
    refine congrArg₂ (· + ·) rfl (Finset.sum_congr rfl fun j _ => ?_)
    rw [pay11_apply, h9, hs8]
  · unfold updA
    rw [pay4_apply, pay10_apply, h9, sum_tile]
    refine congrArg₂ (· + ·) rfl (Finset.sum_congr rfl fun j _ => ?_)
    rw [pay11_apply, h9, hs8, pay7_apply]
    refine congrArg₂ (· * ·) rfl ?_
    exact iblk1_2_apply V c t j d n (tileEmb (t.val % 8) hb j) hn (by
      show 256 * (t.val % 8) + j.val = 256 * min (t.val % 8) (4 * (t.val / 8 % 2) + 3) + j.val
      rw [Nat.min_eq_left hproc])

end

end Cert.KernelIdeal.Hand

end
-- ==== Proof.KI.FlashInd.lean ====
/- The attention call of the idealized kernel: the invariant along the grid. -/
import proofs.«157933_j90314572300799_2_alg».proof.Proof.KI.FlashInv

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The invariant holds after every grid point, by induction along the grid. -/

open Cert.AttnMath

section
variable (V : (c : Dev nD) → (b : Ref sig .tc) → Buf (Elt Ideal) ((c : Thread nD τ).loc b)) (c : Dev nD)
variable (hQ : ∀ i, ∃ r : ℝ, V c main_v4_0 i = (r : EReal)) (hK : ∀ i, ∃ r : ℝ, V c main_v4_1 i = (r : EReal))
  (hV : ∀ i, ∃ r : ℝ, V c main_v4_2 i = (r : EReal))

/-- Key block 0: the reset buffers with the first block folded in. -/
theorem rows_first (t : Fin cfg1.N) (h0 : t.val % 8 = 0) :
    RowsOK V c t (updM (BitVec.ofNat 32 (grid1.coords t 1).val) (BitVec.ofNat 32 (grid1.coords t 2).val) (iblk1 V c 0 t) (iblk1 V c 1 t) (k1_pay1 (F := Ideal)))
      (updL (BitVec.ofNat 32 (grid1.coords t 1).val) (BitVec.ofNat 32 (grid1.coords t 2).val) (iblk1 V c 0 t) (iblk1 V c 1 t) (k1_pay1 (F := Ideal)) (k1_pay2 (F := Ideal)))
      (updA (BitVec.ofNat 32 (grid1.coords t 1).val) (BitVec.ofNat 32 (grid1.coords t 2).val) (iblk1 V c 0 t) (iblk1 V c 1 t) (iblk1 V c 2 t) (k1_pay1 (F := Ideal)) (k1_pay3 (F := Ideal))) := by
  intro r n q hn hq
  have hproc : t.val % 8 ≤ 4 * (t.val / 8 % 2) + 3 := by omega
  have hb : 256 * (t.val % 8) + 256 ≤ 2048 := by omega
  obtain ⟨hM, hL, hA⟩ := upd_row V c t hproc (k1_pay1 (F := Ideal)) (k1_pay2 (F := Ideal)) (k1_pay3 (F := Ideal)) r n q hn hq hb
  have hseen : seenAt t = tile (t.val % 8) hb := by
    ext k; rw [mem_tile]; unfold seenAt below
    simp only [Finset.mem_filter, Finset.mem_univ, true_and]
    rw [Nat.min_eq_left hproc]; omega
  rw [hseen]
  have key := fun d : Fin 1024 => row_first (Cert.Spec.score (V c main_v4_0) (V c main_v4_1) n q) (fun k => V c main_v4_2 (ix3 n k d))
    (tile (t.val % 8) hb) _ _ _ (pay1_apply' (ix2 r (0 : Fin 1))) (pay2_apply' (ix2 r (0 : Fin 1))) (pay3_apply' (ix2 r d))
  exact ⟨fun u => (hM u).trans (key 0).1, fun u => (hL u).trans (key 0).2.1, fun d => (hA d).trans (key d).2.2⟩

include hQ hK hV in
/-- A later key block on or below the diagonal: folded into what the point before left. -/
theorem rows_acc (t t' : Fin cfg1.N) (ht : t'.val + 1 = t.val) (h0 : ¬t.val % 8 = 0) (hproc : t.val % 8 ≤ 4 * (t.val / 8 % 2) + 3)
    (s0 s1 : Vec Ideal S1024x1 .f32) (s2 : Vec Ideal S1024x1024 .f32) (hprev : RowsOK V c t' s0 s1 s2) :
    RowsOK V c t (updM (BitVec.ofNat 32 (grid1.coords t 1).val) (BitVec.ofNat 32 (grid1.coords t 2).val) (iblk1 V c 0 t) (iblk1 V c 1 t) s0)
      (updL (BitVec.ofNat 32 (grid1.coords t 1).val) (BitVec.ofNat 32 (grid1.coords t 2).val) (iblk1 V c 0 t) (iblk1 V c 1 t) s0 s1)
      (updA (BitVec.ofNat 32 (grid1.coords t 1).val) (BitVec.ofNat 32 (grid1.coords t 2).val) (iblk1 V c 0 t) (iblk1 V c 1 t) (iblk1 V c 2 t) s0 s2) := by
  intro r n q hn hq
  have hN : t.val < 64 := lt_of_lt_of_eq t.isLt (show cfg1.N = 64 from N_1)
  have hb : 256 * (t.val % 8) + 256 ≤ 2048 := by omega
  obtain ⟨pM, pL, pA⟩ := hprev r n q (by omega) (by omega)
  obtain ⟨hM, hL, hA⟩ := upd_row V c t hproc s0 s1 s2 r n q hn hq hb
  have hC : seenAt t' = below (256 * (t.val % 8)) := by
    unfold seenAt; refine congrArg below ?_; omega
  have hseen : seenAt t = below (256 * (t.val % 8)) ∪ tile (t.val % 8) hb := by
    unfold seenAt; rw [Nat.min_eq_left hproc]; exact below_succ _ hb
  rw [hC] at pM pL pA
  rw [hseen]
  have hk0 : (⟨0, by omega⟩ : Fin 2048) ∈ below (256 * (t.val % 8)) := by
    unfold below; simp only [Finset.mem_filter, Finset.mem_univ, true_and]; show 0 < 256 * (t.val % 8); omega
  have key := fun d : Fin 1024 => row_step' (Cert.Spec.score (V c main_v4_0) (V c main_v4_1) n q) (score_ne_top V c hQ hK n q)
    (fun k => V c main_v4_2 (ix3 n k d)) (fun k => hV _) (below (256 * (t.val % 8))) (tile (t.val % 8) hb) (below_disj _ hb)
    ⟨0, by omega⟩ hk0 (score_zero_ne_bot V c hQ hK n q) _ _ _ (pM 0) (pL 0) (pA d)
  exact ⟨fun u => (hM u).trans (key 0).1, fun u => (hL u).trans (key 0).2.1, fun d => (hA d).trans (key d).2.2⟩

/-- A key block wholly above the diagonal: the buffers stay, and so do the keys seen. -/
theorem rows_keep (t t' : Fin cfg1.N) (ht : t'.val + 1 = t.val) (h0 : ¬t.val % 8 = 0) (hskip : ¬t.val % 8 ≤ 4 * (t.val / 8 % 2) + 3)
    (s0 s1 : Vec Ideal S1024x1 .f32) (s2 : Vec Ideal S1024x1024 .f32) (hprev : RowsOK V c t' s0 s1 s2) : RowsOK V c t s0 s1 s2 := by
  intro r n q hn hq
  have hN : t.val < 64 := lt_of_lt_of_eq t.isLt (show cfg1.N = 64 from N_1)
  have hC : seenAt t = seenAt t' := by
    unfold seenAt; refine congrArg below ?_; omega
  rw [hC]
  exact hprev r n q (by omega) (by omega)

include hQ hK hV in
/-- After every point the scratch buffers are right. -/
theorem rowsOK_all : ∀ (n : ℕ) (hn : n < cfg1.N),
    RowsOK V c ⟨n, hn⟩ (outsAt1 V c n hn).2.1 (outsAt1 V c n hn).2.2.1 (outsAt1 V c n hn).2.2.2 := by
  intro n
  induction n with
  | zero =>
    intro hn
    show RowsOK V c ⟨0, hn⟩ (stA V c ⟨0, hn⟩ (Nat.zero_mod _)).2.1 (stA V c ⟨0, hn⟩ (Nat.zero_mod _)).2.2.1 (stA V c ⟨0, hn⟩ (Nat.zero_mod _)).2.2.2
    unfold stA; dsimp only
    rw [sout1_A_0_eq, sout1_A_1_eq, sout1_A_2_eq]
    exact rows_first V c ⟨0, hn⟩ (Nat.zero_mod _)
  | succ n ih =>
    intro hn
    have ih' := ih (Nat.lt_of_succ_lt hn)
    show RowsOK V c ⟨n + 1, hn⟩ (step V c ⟨n + 1, hn⟩ (outsAt1 V c n (Nat.lt_of_succ_lt hn))).2.1 (step V c ⟨n + 1, hn⟩ (outsAt1 V c n (Nat.lt_of_succ_lt hn))).2.2.1
      (step V c ⟨n + 1, hn⟩ (outsAt1 V c n (Nat.lt_of_succ_lt hn))).2.2.2
    unfold step
    by_cases h0 : (n + 1) % 8 = 0
    · rw [dif_pos h0]
      unfold stA; dsimp only
      rw [sout1_A_0_eq, sout1_A_1_eq, sout1_A_2_eq]
      exact rows_first V c ⟨n + 1, hn⟩ h0
    · rw [dif_neg h0]
      by_cases h1 : ((n + 1) % 16 < 4 ∨ 8 ≤ (n + 1) % 16)
      · have hproc : (n + 1) % 8 ≤ 4 * ((n + 1) / 8 % 2) + 3 := by omega
        rw [dif_pos h1]
        by_cases h2 : (n + 1) % 8 = 7
        · rw [dif_pos h2]
          unfold stE; dsimp only
          rw [sout1_E_0_eq, sout1_E_1_eq, sout1_E_2_eq]
          exact rows_acc V c hQ hK hV ⟨n + 1, hn⟩ ⟨n, Nat.lt_of_succ_lt hn⟩ rfl h0 hproc _ _ _ ih'
        · rw [dif_neg h2]
          unfold stB; dsimp only
          rw [sout1_B_0_eq, sout1_B_1_eq, sout1_B_2_eq]
          exact rows_acc V c hQ hK hV ⟨n + 1, hn⟩ ⟨n, Nat.lt_of_succ_lt hn⟩ rfl h0 hproc _ _ _ ih'
      · have hskip : ¬(n + 1) % 8 ≤ 4 * ((n + 1) / 8 % 2) + 3 := by omega
        rw [dif_neg h1]
        by_cases h2 : (n + 1) % 8 = 7
        · rw [dif_pos h2]
          unfold stD; dsimp only
          exact rows_keep V c ⟨n + 1, hn⟩ ⟨n, Nat.lt_of_succ_lt hn⟩ rfl h0 hskip _ _ _ ih'
        · rw [dif_neg h2]
          unfold stC; dsimp only
          exact rows_keep V c ⟨n + 1, hn⟩ ⟨n, Nat.lt_of_succ_lt hn⟩ rfl h0 hskip _ _ _ ih'

end

end Cert.KernelIdeal.Hand

end
-- ==== Proof.KI.FlashFinal.lean ====
/- The attention call of the idealized kernel: its output array. -/
import proofs.«157933_j90314572300799_2_alg».proof.Proof.KI.FlashInd

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # The attention call's output array after the call: the accumulator over the running sum, query by query. -/

open Cert.AttnMath

theorem idx_onto1_3 : ∀ (n : Fin 4) (qi : Fin 2), ∃ t : Fin cfg1.N, (cfg1.win 3).flush t = true ∧ win1_3.index t = ![n.val, qi.val, 0] :=
  (by decide +kernel : ∀ (n : Fin 4) (qi : Fin 2), ∃ t : Fin grid1.N, win1_3.flush t = true ∧ win1_3.index t = ![n.val, qi.val, 0])

section
variable (V : (c : Dev nD) → (b : Ref sig .tc) → Buf (Elt Ideal) ((c : Thread nD τ).loc b)) (c : Dev nD)
variable (hQ : ∀ i, ∃ r : ℝ, V c main_v4_0 i = (r : EReal)) (hK : ∀ i, ∃ r : ℝ, V c main_v4_1 i = (r : EReal))
  (hV : ∀ i, ∃ r : ℝ, V c main_v4_2 i = (r : EReal))

/-- At a batch's and query block's last key block the output buffer holds the accumulator over the running sum. -/
theorem out_at_flush : ∀ (n : ℕ) (hn : n < cfg1.N), n % 8 = 7 →
    (outsAt1 V c n hn).1 = k1_pay6 (outsAt1 V c n hn).2.2.2 (outsAt1 V c n hn).2.2.1 := by
  intro n hn h7
  cases n with
  | zero => exact absurd h7 (by decide)
  | succ n =>
    show (step V c ⟨n + 1, hn⟩ (outsAt1 V c n (Nat.lt_of_succ_lt hn))).1 = k1_pay6 (step V c ⟨n + 1, hn⟩ (outsAt1 V c n (Nat.lt_of_succ_lt hn))).2.2.2
      (step V c ⟨n + 1, hn⟩ (outsAt1 V c n (Nat.lt_of_succ_lt hn))).2.2.1
    unfold step
    have h0 : ¬(n + 1) % 8 = 0 := by omega
    rw [dif_neg h0]
    by_cases h1 : ((n + 1) % 16 < 4 ∨ 8 ≤ (n + 1) % 16)
    · rw [dif_pos h1, dif_pos h7]
      unfold stE; dsimp only
      rw [out1_E_3_eq, sout1_E_1_eq, sout1_E_2_eq]
    · rw [dif_neg h1, dif_pos h7]
      unfold stD; dsimp only
      rw [out1_D_3_eq]

theorem mem_blk1_3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v5).slice (win1_3.rect t)).set ↔ _
  rw [View.set_slice_whole, Rect.mem_set_unit]
  exact Iff.rfl

theorem cover1_3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, hf, ht⟩ := idx_onto1_3 ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, hf, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

include hQ hK hV in
/-- What a writing-back point writes is its block of the accumulated attention. -/
theorem flushed1_3_eq (t : Fin cfg1.N) (hf : (cfg1.win 3).flush t = true) :
    (dat1 V c).flushed 3 t = ((cfg1.win 3).blk t).view.read (Elt Ideal) (Cert.Spec.attnAcc (V c main_v4_0) (V c main_v4_1) (V c main_v4_2)) := by
  have h7 : t.val % 8 = 7 := (flush1_3 t).mp hf
  have hN : t.val < 64 := lt_of_lt_of_eq t.isLt (show cfg1.N = 64 from N_1)
  obtain ⟨e00, e01, e02, e10, e11, e12, e20, e21, e22, e30, e31, e32⟩ := idx_facts1 t
  show (cfg1.win 3).cut (grid1.coords t) ((dat1 V c).after 3 t) = _
  rw [after1_3, out_at_flush V c t.val t.isLt h7]
  funext y
  obtain ⟨u, r, d, rfl⟩ : ∃ (u : Fin 1) (r : Fin 1024) (d : Fin 1024), y = ix3 u r d := ⟨y 0, y 1, y 2, eq_ix3 y⟩
  show k1_pay6 (outsAt1 V c t.val t.isLt).2.2.2 (outsAt1 V c t.val t.isLt).2.2.1 (ix3 u r d)
    = Cert.Spec.attnAcc (V c main_v4_0) (V c main_v4_1) (V c main_v4_2) (((cfg1.win 3).blk t).view.emb (ix3 u r d))
  rw [pay6_apply]
  have hu : u.val = 0 := by omega
  have hi0 : ((((cfg1.win 3).blk t).view.emb (ix3 u r d)) 0).val = t.val / 16 := by
    show win1_3.index t (0 : Fin 3) * 1 + 1 * u.val = t.val / 16; omega
  have hi1 : ((((cfg1.win 3).blk t).view.emb (ix3 u r d)) 1).val = 1024 * (t.val / 8 % 2) + r.val := by
    show win1_3.index t (1 : Fin 3) * 1024 + 1 * r.val = 1024 * (t.val / 8 % 2) + r.val; omega
  have hi2 : ((((cfg1.win 3).blk t).view.emb (ix3 u r d)) 2).val = d.val := by
    show win1_3.index t (2 : Fin 3) * 1024 + 1 * d.val = d.val; omega
  generalize ((cfg1.win 3).blk t).view.emb (ix3 u r d) = i at hi0 hi1 hi2 ⊢
  obtain ⟨-, hL, hA⟩ := rowsOK_all V c hQ hK hV t.val t.isLt r ⟨(i 0).val, (i 0).isLt⟩ ⟨(i 1).val, (i 1).isLt⟩ hi0 hi1
  rw [hL 0, hA d]
  have hseen : seenAt (⟨t.val, t.isLt⟩ : Fin cfg1.N) = Cert.Spec.seen ⟨(i 1).val, (i 1).isLt⟩ := by
    unfold seenAt Cert.Spec.seen below
    refine congrArg (fun b => Finset.univ.filter fun k : Fin 2048 => k.val < b) ?_
    show 256 * (min (t.val % 8) (4 * (t.val / 8 % 2) + 3) + 1) = 1024 * ((i 1).val / 1024 + 1)
    rw [hi1]; omega
  rw [hseen]
  unfold Cert.Spec.attnAcc
  dsimp only
  have ed : (⟨(i 2).val, (i 2).isLt⟩ : Fin 1024) = d := Fin.ext hi2
  rw [ed]

include hQ hK hV in
/-- The whole output array after the call. -/
theorem final1_3 : (dat1 V c).arrAt 3 cfg1.N = Cert.Spec.attnAcc (V c main_v4_0) (V c main_v4_1) (V c main_v4_2) :=
  (dat1 V c).arrAt_eq_of_cover 3 _ (fun t hf => flushed1_3_eq V c hQ hK hV t hf) cover1_3

end

end Cert.KernelIdeal.Hand

end
-- ==== Proof.KI.HostValue.lean ====
/- The kernel's host side read entry by entry: the stacked weights and biases the projection call is entered with,
   and the precondition read as "every input entry is a real number". -/
import proofs.«157933_j90314572300799_2_alg».proof.Proof.KI.Main
import proofs.«157933_j90314572300799_2_alg».proof.Proof.KI.ProjValue
import proofs.«157933_j90314572300799_2_alg».proof.Proof.Spec
import proofs.«157933_j90314572300799_2_alg».proof.Proof.AttnMath
import proofs.«157933_j90314572300799_2_alg».proof.Proof.Gen.Pre_finite_inputs
import proofs.«157933_j90314572300799_2_alg».proof.Defs
import proofs.«157933_j90314572300799_2_alg».proof.Proof.Gen.KernelIdeal.Regions
import Idealize.ShloMosaic.Lib.StableHlo.Run
import Idealize.ShloMosaic.Lib.ValueLayout
import Idealize.ShloMosaic.Lib.ReduceAll
import Idealize.ShloMosaic.Lib.Pipeline.Value
import Idealize.ShloMosaic.Lib.ValueIdx

set_option maxRecDepth 16384

noncomputable section

namespace Cert.KernelIdeal.HostV

open Idealize.ShloMosaic Idealize.ShloMosaic.TcCoe Idealize.ShloMosaic.ValueIdx Idealize.ShloMosaic.Tactic
open Idealize.SL.Sem
open Cert.KernelIdeal Cert.KernelIdeal.Gen
open scoped BigOperators

variable (m : (ℓ : Loc nD τ sig) → Buf (Elt Ideal) ℓ) (c : Dev nD)

/-! # The stacked operands -/

theorem v1_eq : (Hand.V1 m c main_v1 : S3072x1024.Idx → EReal)
    = (truncf .bf16 (concatenate S3072x1024 0 [⟨S1024x1024, m ((c : Thread nD τ).loc main_arg1)⟩, ⟨S1024x1024, m ((c : Thread nD τ).loc main_arg3)⟩, ⟨S1024x1024, m ((c : Thread nD τ).loc main_arg5)⟩] Facts₀.concatenates_S1024x1024_S1024x1024_S1024x1024_S3072x1024_d0 : FVec Ideal S3072x1024 .f32) Facts₀.bitsLt_bf16_f32 : FVec Ideal S3072x1024 .bf16) := by
  show StableHlo.after hostOps0 _ (Proc.devRef .tc main_v1) = _
  after_results
  rfl

theorem v3_eq : (Hand.V1 m c main_v3 : S1x3072.Idx → EReal)
    = (shapeCast S1x3072 (concatenate S3072 0 [⟨S1024, m ((c : Thread nD τ).loc main_arg2)⟩, ⟨S1024, m ((c : Thread nD τ).loc main_arg4)⟩, ⟨S1024, m ((c : Thread nD τ).loc main_arg6)⟩] Facts₀.concatenates_S1024_S1024_S1024_S3072_d0 : FVec Ideal S3072 .f32) Facts₀.shapeCasts_S3072_S1x3072 : FVec Ideal S1x3072 .f32) := by
  show StableHlo.after hostOps0 _ (Proc.devRef .tc main_v3) = _
  after_results
  rfl

/-- Row `k * 1024 + e` of three `[1024, 1024]` matrices stacked along the rows is row `e` of matrix `k`. -/
theorem wst_apply0 (A B C : S1024x1024.Idx → EReal) (h : Shape.Concatenates [S1024x1024, S1024x1024, S1024x1024] S3072x1024 0)
    (j : Fin 3072) (e d : Fin 1024) (hj : j.val = 0 + e.val) :
    concatenate S3072x1024 0 [⟨S1024x1024, A⟩, ⟨S1024x1024, B⟩, ⟨S1024x1024, C⟩] h (ix2 j d) = A (ix2 e d) := by
  refine concatenate_apply_piece (t := S3072x1024) (0 : Fin 2) [⟨S1024x1024, A⟩, ⟨S1024x1024, B⟩, ⟨S1024x1024, C⟩] h (ix2 j d) 0 (by show 0 < 3; omega) S1024x1024 A rfl rfl 0 rfl (ix2 e d) ?_ ?_
  · intro b hb
    match b, hb with
    | ⟨0, _⟩, hb => exact absurd rfl hb
    | ⟨1, _⟩, _ => rfl
  · show 0 + e.val = j.val
    omega
theorem wst_apply1 (A B C : S1024x1024.Idx → EReal) (h : Shape.Concatenates [S1024x1024, S1024x1024, S1024x1024] S3072x1024 0)
    (j : Fin 3072) (e d : Fin 1024) (hj : j.val = 1024 + e.val) :
    concatenate S3072x1024 0 [⟨S1024x1024, A⟩, ⟨S1024x1024, B⟩, ⟨S1024x1024, C⟩] h (ix2 j d) = B (ix2 e d) := by
  refine concatenate_apply_piece (t := S3072x1024) (0 : Fin 2) [⟨S1024x1024, A⟩, ⟨S1024x1024, B⟩, ⟨S1024x1024, C⟩] h (ix2 j d) 1 (by show 1 < 3; omega) S1024x1024 B rfl rfl 1024 rfl (ix2 e d) ?_ ?_
  · intro b hb
    match b, hb with
    | ⟨0, _⟩, hb => exact absurd rfl hb
    | ⟨1, _⟩, _ => rfl
  · show 1024 + e.val = j.val
    omega
theorem wst_apply2 (A B C : S1024x1024.Idx → EReal) (h : Shape.Concatenates [S1024x1024, S1024x1024, S1024x1024] S3072x1024 0)
    (j : Fin 3072) (e d : Fin 1024) (hj : j.val = 2048 + e.val) :
    concatenate S3072x1024 0 [⟨S1024x1024, A⟩, ⟨S1024x1024, B⟩, ⟨S1024x1024, C⟩] h (ix2 j d) = C (ix2 e d) := by
  refine concatenate_apply_piece (t := S3072x1024) (0 : Fin 2) [⟨S1024x1024, A⟩, ⟨S1024x1024, B⟩, ⟨S1024x1024, C⟩] h (ix2 j d) 2 (by show 2 < 3; omega) S1024x1024 C rfl rfl 2048 rfl (ix2 e d) ?_ ?_
  · intro b hb
    match b, hb with
    | ⟨0, _⟩, hb => exact absurd rfl hb
    | ⟨1, _⟩, _ => rfl
  · show 2048 + e.val = j.val
    omega

/-- Entry `k * 1024 + e` of three `[1024]` vectors laid end to end is entry `e` of vector `k`. -/
theorem bst_apply0 (A B C : S1024.Idx → EReal) (h : Shape.Concatenates [S1024, S1024, S1024] S3072 0)
    (j : Fin 3072) (e : Fin 1024) (hj : j.val = 0 + e.val) :
    concatenate S3072 0 [⟨S1024, A⟩, ⟨S1024, B⟩, ⟨S1024, C⟩] h (ix1 j) = A (ix1 e) := by
  refine concatenate_apply_piece (t := S3072) (0 : Fin 1) [⟨S1024, A⟩, ⟨S1024, B⟩, ⟨S1024, C⟩] h (ix1 j) 0 (by show 0 < 3; omega) S1024 A rfl rfl 0 rfl (ix1 e) ?_ ?_
  · intro b hb
    match b, hb with
    | ⟨0, _⟩, hb => exact absurd rfl hb
  · show 0 + e.val = j.val
    omega
theorem bst_apply1 (A B C : S1024.Idx → EReal) (h : Shape.Concatenates [S1024, S1024, S1024] S3072 0)
    (j : Fin 3072) (e : Fin 1024) (hj : j.val = 1024 + e.val) :
    concatenate S3072 0 [⟨S1024, A⟩, ⟨S1024, B⟩, ⟨S1024, C⟩] h (ix1 j) = B (ix1 e) := by
  refine concatenate_apply_piece (t := S3072) (0 : Fin 1) [⟨S1024, A⟩, ⟨S1024, B⟩, ⟨S1024, C⟩] h (ix1 j) 1 (by show 1 < 3; omega) S1024 B rfl rfl 1024 rfl (ix1 e) ?_ ?_
  · intro b hb
    match b, hb with
    | ⟨0, _⟩, hb => exact absurd rfl hb
  · show 1024 + e.val = j.val
    omega
theorem bst_apply2 (A B C : S1024.Idx → EReal) (h : Shape.Concatenates [S1024, S1024, S1024] S3072 0)
    (j : Fin 3072) (e : Fin 1024) (hj : j.val = 2048 + e.val) :
    concatenate S3072 0 [⟨S1024, A⟩, ⟨S1024, B⟩, ⟨S1024, C⟩] h (ix1 j) = C (ix1 e) := by
  refine concatenate_apply_piece (t := S3072) (0 : Fin 1) [⟨S1024, A⟩, ⟨S1024, B⟩, ⟨S1024, C⟩] h (ix1 j) 2 (by show 2 < 3; omega) S1024 C rfl rfl 2048 rfl (ix1 e) ?_ ?_
  · intro b hb
    match b, hb with
    | ⟨0, _⟩, hb => exact absurd rfl hb
  · show 2048 + e.val = j.val
    omega

/-- The activations are not written by the host operations. -/
theorem arg0_eq : (Hand.V1 m c main_arg0 : S4x2048x1024.Idx → EReal) = m ((c : Thread nD τ).loc main_arg0) :=
  Gen.V1_of m c main_arg0 (by decide)

/-- The stacked, rounded weights at row `j`, column `d`, and the stacked bias row at `j`: by thirds. -/
theorem v1_apply0 (j : Fin 3072) (e d : Fin 1024) (hj : j.val = 0 + e.val) :
    (Hand.V1 m c main_v1 : S3072x1024.Idx → EReal) (ix2 j d) = m ((c : Thread nD τ).loc main_arg1) (ix2 e d) :=
  (congrFun (v1_eq m c) (ix2 j d)).trans ((truncf_apply (ψ := .bf16) _ Facts₀.bitsLt_bf16_f32 (ix2 j d)).trans (wst_apply0 _ _ _ _ j e d hj))
theorem v1_apply1 (j : Fin 3072) (e d : Fin 1024) (hj : j.val = 1024 + e.val) :
    (Hand.V1 m c main_v1 : S3072x1024.Idx → EReal) (ix2 j d) = m ((c : Thread nD τ).loc main_arg3) (ix2 e d) :=
  (congrFun (v1_eq m c) (ix2 j d)).trans ((truncf_apply (ψ := .bf16) _ Facts₀.bitsLt_bf16_f32 (ix2 j d)).trans (wst_apply1 _ _ _ _ j e d hj))
theorem v1_apply2 (j : Fin 3072) (e d : Fin 1024) (hj : j.val = 2048 + e.val) :
    (Hand.V1 m c main_v1 : S3072x1024.Idx → EReal) (ix2 j d) = m ((c : Thread nD τ).loc main_arg5) (ix2 e d) :=
  (congrFun (v1_eq m c) (ix2 j d)).trans ((truncf_apply (ψ := .bf16) _ Facts₀.bitsLt_bf16_f32 (ix2 j d)).trans (wst_apply2 _ _ _ _ j e d hj))

theorem v3_apply0 (u : Fin 1) (j : Fin 3072) (e : Fin 1024) (hj : j.val = 0 + e.val) :
    (Hand.V1 m c main_v3 : S1x3072.Idx → EReal) (ix2 u j) = m ((c : Thread nD τ).loc main_arg2) (ix1 e) :=
  (congrFun (v3_eq m c) (ix2 u j)).trans ((shapeCast_a_1a_apply _ _ u j).trans (bst_apply0 _ _ _ _ j e hj))
theorem v3_apply1 (u : Fin 1) (j : Fin 3072) (e : Fin 1024) (hj : j.val = 1024 + e.val) :
    (Hand.V1 m c main_v3 : S1x3072.Idx → EReal) (ix2 u j) = m ((c : Thread nD τ).loc main_arg4) (ix1 e) :=
  (congrFun (v3_eq m c) (ix2 u j)).trans ((shapeCast_a_1a_apply _ _ u j).trans (bst_apply1 _ _ _ _ j e hj))
theorem v3_apply2 (u : Fin 1) (j : Fin 3072) (e : Fin 1024) (hj : j.val = 2048 + e.val) :
    (Hand.V1 m c main_v3 : S1x3072.Idx → EReal) (ix2 u j) = m ((c : Thread nD τ).loc main_arg6) (ix1 e) :=
  (congrFun (v3_eq m c) (ix2 u j)).trans ((shapeCast_a_1a_apply _ _ u j).trans (bst_apply2 _ _ _ _ j e hj))

/-- The query projection the kernel computes from the stacked operands (rows `0 … 1023`) is the layer's. -/
theorem proj_q : Hand.projOf 0 (by omega) (Hand.V1 m c main_arg0) (Hand.V1 m c main_v1) (Hand.V1 m c main_v3)
    = Cert.Spec.proj (m ((c : Thread nD τ).loc main_arg0)) (m ((c : Thread nD τ).loc main_arg1)) (m ((c : Thread nD τ).loc main_arg2)) := by
  funext i
  unfold Hand.projOf Cert.Spec.proj
  refine congrArg₂ (· + ·) (Finset.sum_congr rfl fun d _ => congrArg₂ (· * ·) (congrFun (arg0_eq m c) _) ?_) ?_
  · exact v1_apply0 m c _ ⟨(i 2).val, (i 2).isLt⟩ d rfl
  · exact v3_apply0 m c _ _ ⟨(i 2).val, (i 2).isLt⟩ rfl
/-- The key projection (rows `1024 … 2047`). -/
theorem proj_k : Hand.projOf 1024 (by omega) (Hand.V1 m c main_arg0) (Hand.V1 m c main_v1) (Hand.V1 m c main_v3)
    = Cert.Spec.proj (m ((c : Thread nD τ).loc main_arg0)) (m ((c : Thread nD τ).loc main_arg3)) (m ((c : Thread nD τ).loc main_arg4)) := by
  funext i
  unfold Hand.projOf Cert.Spec.proj
  refine congrArg₂ (· + ·) (Finset.sum_congr rfl fun d _ => congrArg₂ (· * ·) (congrFun (arg0_eq m c) _) ?_) ?_
  · exact v1_apply1 m c _ ⟨(i 2).val, (i 2).isLt⟩ d rfl
  · exact v3_apply1 m c _ _ ⟨(i 2).val, (i 2).isLt⟩ rfl
/-- The value projection (rows `2048 … 3071`). -/
theorem proj_v : Hand.projOf 2048 (by omega) (Hand.V1 m c main_arg0) (Hand.V1 m c main_v1) (Hand.V1 m c main_v3)
    = Cert.Spec.proj (m ((c : Thread nD τ).loc main_arg0)) (m ((c : Thread nD τ).loc main_arg5)) (m ((c : Thread nD τ).loc main_arg6)) := by
  funext i
  unfold Hand.projOf Cert.Spec.proj
  refine congrArg₂ (· + ·) (Finset.sum_congr rfl fun d _ => congrArg₂ (· * ·) (congrFun (arg0_eq m c) _) ?_) ?_
  · exact v1_apply2 m c _ ⟨(i 2).val, (i 2).isLt⟩ d rfl
  · exact v3_apply2 m c _ _ ⟨(i 2).val, (i 2).isLt⟩ rfl

/-! # Finiteness -/

/-- A projection of real arrays is real: a finite sum of products of reals plus a real. -/
theorem real_proj (X : Cert.Spec.S4x2048x1024.Idx → EReal) (W : Cert.Spec.S1024x1024.Idx → EReal) (b : Cert.Spec.S1024.Idx → EReal)
    (hX : ∀ i, ∃ r : ℝ, X i = (r : EReal)) (hW : ∀ i, ∃ r : ℝ, W i = (r : EReal)) (hb : ∀ i, ∃ r : ℝ, b i = (r : EReal)) :
    ∀ i, ∃ r : ℝ, Cert.Spec.proj X W b i = (r : EReal) := by
  intro i
  choose x hx using hX
  choose w hw using hW
  choose β hβ using hb
  refine ⟨(∑ d : Fin 1024, x (ix3 (⟨(i 0).val, (i 0).isLt⟩ : Fin 4) (⟨(i 1).val, (i 1).isLt⟩ : Fin 2048) d)
      * w (ix2 (⟨(i 2).val, (i 2).isLt⟩ : Fin 1024) d)) + β (ix1 (⟨(i 2).val, (i 2).isLt⟩ : Fin 1024)), ?_⟩
  unfold Cert.Spec.proj
  rw [EReal.coe_add, Cert.AttnMath.coe_sum, hβ]
  refine congrArg₂ (· + ·) (Finset.sum_congr rfl fun d _ => ?_) rfl
  rw [hx, hw, EReal.coe_mul]

instance : Subsingleton Cert.Pre_finite_inputs.S_.Idx := ⟨fun a b => funext fun d => d.elim0⟩

/-- An extended real whose absolute value lies below `+∞` (the word `0x7F800000`) is a real. -/
theorem real_of_lt_inf (x : EReal) (h : Ideal.cmp .olt (max x (-x)) (Ideal.ofBits .f32 0x7F800000#32) = 1#1) :
    ∃ r : ℝ, x = (r : EReal) := by
  have e : Ideal.ofBits .f32 0x7F800000#32 = (⊤ : EReal) := by simp [Ideal.ofBits, Ideal.ieee]
  rw [e] at h
  induction x using EReal.rec with
  | bot => simp [Ideal.cmp] at h
  | coe r => exact ⟨r, rfl⟩
  | top => simp [Ideal.cmp] at h

/-- `all (|x| < +∞)` of an array says every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel) (init : IVec Cert.Pre_finite_inputs.S_ 1)
    (e : Host.reduce IntOp.andi (cmpf .olt (Host.absf x) (broadcastInDim s ![] hb (constant (F := Ideal) Cert.Pre_finite_inputs.S_ .f32 0x7F800000#32))) init hr hu ix0 = 1#1) :
    ∀ i, ∃ r : ℝ, x i = (r : EReal) :=
  fun i => real_of_lt_inf (x i) (Host.reduce_andi_all _ init hr hu ix0 e i)

theorem real_args (h : Cert.Pre_KernelIdeal m) (c : Dev nD) :
    (∀ i, ∃ r : ℝ, m ((c : Thread nD τ).loc main_arg0) i = (r : EReal))
    ∧ (∀ i, ∃ r : ℝ, m ((c : Thread nD τ).loc main_arg1) i = (r : EReal))
    ∧ (∀ i, ∃ r : ℝ, m ((c : Thread nD τ).loc main_arg2) i = (r : EReal))
    ∧ (∀ i, ∃ r : ℝ, m ((c : Thread nD τ).loc main_arg3) i = (r : EReal))
    ∧ (∀ i, ∃ r : ℝ, m ((c : Thread nD τ).loc main_arg4) i = (r : EReal))
    ∧ (∀ i, ∃ r : ℝ, m ((c : Thread nD τ).loc main_arg5) i = (r : EReal))
    ∧ (∀ i, ∃ r : ℝ, m ((c : Thread nD τ).loc main_arg6) i = (r : EReal)) := by
  have e := congrFun (h c) ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  exact ⟨all_real _ _ _ _ _ h0, all_real _ _ _ _ _ h1, all_real _ _ _ _ _ h2, all_real _ _ _ _ _ h3,
    all_real _ _ _ _ _ h4, all_real _ _ _ _ _ h5, all_real _ _ _ _ _ h6⟩

end Cert.KernelIdeal.HostV

end
-- ==== Proof.RefValue.lean ====
/-
  The reference program read as plain mathematics over the extended reals: its three projections are `Spec.proj`,
  its masked scaled scores `Spec.score`, its row maximum `Spec.rowMax`, and its result `Spec.attn` of the projections.
-/
import proofs.«157933_j90314572300799_2_alg».proof.Proof.Gen.ReferenceIdeal.Read
import proofs.«157933_j90314572300799_2_alg».proof.Proof.Spec
import Idealize.ShloMosaic.PureOps.Ideal.Laws
import Idealize.ShloMosaic.Lib.ValueIdx
import Idealize.ShloMosaic.Lib.Pipeline.Value

noncomputable section

open scoped BigOperators

namespace Cert.RefValue

open Idealize.ShloMosaic Idealize.ShloMosaic.ValueIdx Idealize.ShloMosaic.StableHlo
open Cert.ReferenceIdeal Cert.ReferenceIdeal.Gen Cert.ReferenceIdeal.Read

/-- The query projection of the reference is `Spec.proj`: the contraction over the feature axis plus the broadcast bias. -/
theorem q_eq (x0 : Cert.Spec.S4x2048x1024.Idx → EReal) (x1 : Cert.Spec.S1024x1024.Idx → EReal) (x2 : Cert.Spec.S1024.Idx → EReal) :
    val_main_v3 (F := Ideal) x0 x1 x2 = Cert.Spec.proj x0 x1 x2 := by
  funext i
  rw [val_main_v3_apply, val_main_v0_apply, val_main_v2_apply, val_main_v1_apply]
  show (∑ k : Fin 1024, _) + _ = (∑ d : Fin 1024, _) + _
  refine congrArg₂ (· + ·) (Finset.sum_congr rfl fun k _ => congrArg₂ (· * ·) (congrArg _ ?_) (congrArg _ ?_)) (congrArg _ ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The key projection likewise. -/
theorem k_eq (x0 : Cert.Spec.S4x2048x1024.Idx → EReal) (x3 : Cert.Spec.S1024x1024.Idx → EReal) (x4 : Cert.Spec.S1024.Idx → EReal) :
    val_main_v7 (F := Ideal) x0 x3 x4 = Cert.Spec.proj x0 x3 x4 := by
  funext i
  rw [val_main_v7_apply, val_main_v4_apply, val_main_v6_apply, val_main_v5_apply]
  show (∑ k : Fin 1024, _) + _ = (∑ d : Fin 1024, _) + _
  refine congrArg₂ (· + ·) (Finset.sum_congr rfl fun k _ => congrArg₂ (· * ·) (congrArg _ ?_) (congrArg _ ?_)) (congrArg _ ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The value projection likewise. -/
theorem v_eq (x0 : Cert.Spec.S4x2048x1024.Idx → EReal) (x5 : Cert.Spec.S1024x1024.Idx → EReal) (x6 : Cert.Spec.S1024.Idx → EReal) :
    val_main_v11 (F := Ideal) x0 x5 x6 = Cert.Spec.proj x0 x5 x6 := by
  funext i
  rw [val_main_v11_apply, val_main_v8_apply, val_main_v10_apply, val_main_v9_apply]
  show (∑ k : Fin 1024, _) + _ = (∑ d : Fin 1024, _) + _
  refine congrArg₂ (· + ·) (Finset.sum_congr rfl fun k _ => congrArg₂ (· * ·) (congrArg _ ?_) (congrArg _ ?_)) (congrArg _ ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- A natural number below 2048, as a 32-bit word read signed, is itself. -/
theorem toInt_ofNat32 {k : Nat} (hk : k < 2048) : (BitVec.ofNat 32 k).toInt = (k : Int) := by
  rw [BitVec.toInt_eq_toNat_of_lt (by rw [BitVec.toNat_ofNat]; omega), BitVec.toNat_ofNat]; omega

/-- The causal mask: the bit at (query, key) is set exactly when the key comes after the query. -/
theorem mask_eq (q k : Fin 2048) :
    val_main_v16 (F := Ideal) (ix2 q k) = if k.val ≤ q.val then 0#1 else 1#1 := by
  rw [val_main_v16_apply, val_main_call0_v4_apply, val_main_call0_v2_apply, val_main_call0_v0_apply,
    val_main_call0_v1_apply, val_main_call0_c_apply, val_main_call0_v3_apply, val_main_call0_v5_apply,
    val_main_call0_c_0_apply, val_main_v15_apply, val_main_c_apply]
  show Scalar.select (IntOp.cmpi .sge (IntOp.addi (BitVec.ofNat 32 q.val) 0#32) (BitVec.ofNat 32 k.val)) 0#1 1#1 = _
  have hq := toInt_ofNat32 q.isLt
  have hk := toInt_ofNat32 k.isLt
  by_cases h : k.val ≤ q.val
  · rw [if_pos h]
    have hc : IntOp.cmpi .sge (IntOp.addi (BitVec.ofNat 32 q.val) 0#32) (BitVec.ofNat 32 k.val) = 1#1 := by
      simp only [IntOp.cmpi, IntOp.addi, BitVec.add_zero, BitVec.sle, hq, hk]
      rw [decide_eq_true (by omega)]; rfl
    rw [hc, select_one]
  · rw [if_neg h]
    have hc : IntOp.cmpi .sge (IntOp.addi (BitVec.ofNat 32 q.val) 0#32) (BitVec.ofNat 32 k.val) = 0#1 := by
      simp only [IntOp.cmpi, IntOp.addi, BitVec.add_zero, BitVec.sle, hq, hk]
      rw [decide_eq_false (by omega)]; rfl
    rw [hc, select_zero]
/-- The pattern of the scale denotes the real 32. -/
theorem ofBits_32 : Ideal.ofBits .f32 0x42000000#32 = ((32 : ℝ) : EReal) := by
  simp [Ideal.ofBits, Ideal.ieee, -EReal.coe_mul]; norm_num

/-- The pattern of the mask's fill value denotes −∞. -/
theorem ofBits_neg_inf : Ideal.ofBits .f32 0xFF800000#32 = (⊥ : EReal) := by
  simp [Ideal.ofBits, Ideal.ieee]

/-- The masked scaled scores of the reference are `Spec.score` of the query and key projections. -/
theorem score_eq (x0 : Cert.Spec.S4x2048x1024.Idx → EReal) (x1 : Cert.Spec.S1024x1024.Idx → EReal) (x2 : Cert.Spec.S1024.Idx → EReal)
    (x3 : Cert.Spec.S1024x1024.Idx → EReal) (x4 : Cert.Spec.S1024.Idx → EReal) (n : Fin 4) (q k : Fin 2048) :
    val_main_v17 (F := Ideal) x0 x1 x2 x3 x4 (ix3 n q k)
      = Cert.Spec.score (Cert.Spec.proj x0 x1 x2) (Cert.Spec.proj x0 x3 x4) n q k := by
  rw [val_main_v17_apply, val_main_call1_v1_apply, val_main_call1_v2_apply, val_main_call1_v0_apply, val_main_cst_0_apply,
    val_main_v14_apply, val_main_v12_apply, val_main_v13_apply, val_main_cst_apply, q_eq, k_eq]
  have hm : idx_main_call1_v1 (ix3 n q k) = ix2 q k := funext fun a => by match a with | ⟨0, _⟩ => rfl | ⟨1, _⟩ => rfl
  rw [hm, mask_eq]
  unfold Cert.Spec.score
  by_cases h : k.val ≤ q.val
  · rw [if_pos h, if_pos h, select_zero, Ideal.hostDivf_def, Ideal.ofBits_def, ofBits_32, Ideal.div_coe (by norm_num)]
    refine congrArg (· * _) (Finset.sum_congr rfl fun d _ => congrArg₂ (· * ·) (congrArg _ ?_) (congrArg _ ?_))
    · exact funext fun a => by match a with | ⟨0, _⟩ => rfl | ⟨1, _⟩ => rfl | ⟨2, _⟩ => rfl
    · exact funext fun a => by match a with | ⟨0, _⟩ => rfl | ⟨1, _⟩ => rfl | ⟨2, _⟩ => rfl
  · rw [if_neg h, if_neg h, select_one, Ideal.ofBits_def, ofBits_neg_inf]
/-- A fold of `max` from −∞ over every key is the supremum over the keys. -/
theorem fold_max_bot_eq_sup (f : Fin 2048 → EReal) :
    (Finset.univ : Finset (Fin 2048)).fold max ⊥ f = (Finset.univ : Finset (Fin 2048)).sup f := rfl

/-- The row maximum of the reference, a fold of `max` from −∞ over the keys, again joined with −∞, is `Spec.rowMax`. -/
theorem rowMax_eq (x0 : Cert.Spec.S4x2048x1024.Idx → EReal) (x1 : Cert.Spec.S1024x1024.Idx → EReal) (x2 : Cert.Spec.S1024.Idx → EReal)
    (x3 : Cert.Spec.S1024x1024.Idx → EReal) (x4 : Cert.Spec.S1024.Idx → EReal) (n : Fin 4) (q : Fin 2048) :
    val_main_v20 (F := Ideal) x0 x1 x2 x3 x4 (ix2 n q)
      = Cert.Spec.rowMax (Cert.Spec.proj x0 x1 x2) (Cert.Spec.proj x0 x3 x4) n q := by
  rw [val_main_v20_apply, val_main_v19_apply, val_main_cst_2_apply, Ideal.maximumf_def, Ideal.ofBits_def, ofBits_neg_inf,
    max_eq_right bot_le]
  unfold val_main_v18
  have hr : S4x2048x2048.Reduces [2] S4x2048 := by decide
  rw [Host.reduce_eq_fold_single FloatOps.maximumf _ _ reducesTo_S4x2048x2048_S4x2048_d2 hr h_S_ (ix2 n q),
    val_main_cst_1_apply, Ideal.ofBits_def, ofBits_neg_inf]
  have hf : (val_main_v17 (F := Ideal) x0 x1 x2 x3 x4 ∘ hr.lift (ix2 n q))
      = fun k : Fin 2048 => Cert.Spec.score (Cert.Spec.proj x0 x1 x2) (Cert.Spec.proj x0 x3 x4) n q k :=
    funext fun k => (congrArg (val_main_v17 (F := Ideal) x0 x1 x2 x3 x4)
      (funext fun a => Fin.ext (by match a with | ⟨0, _⟩ => rfl | ⟨1, _⟩ => rfl | ⟨2, _⟩ => rfl))).trans
      (score_eq x0 x1 x2 x3 x4 n q k)
  rw [hf]
  exact fold_max_bot_eq_sup _
/-- The exponentials of the reference: `exp` of the score less the row maximum. -/
theorem exp_eq (x0 : Cert.Spec.S4x2048x1024.Idx → EReal) (x1 : Cert.Spec.S1024x1024.Idx → EReal) (x2 : Cert.Spec.S1024.Idx → EReal)
    (x3 : Cert.Spec.S1024x1024.Idx → EReal) (x4 : Cert.Spec.S1024.Idx → EReal) (n : Fin 4) (q k : Fin 2048) :
    val_main_v24 (F := Ideal) x0 x1 x2 x3 x4 (ix3 n q k)
      = Ideal.exp (Cert.Spec.score (Cert.Spec.proj x0 x1 x2) (Cert.Spec.proj x0 x3 x4) n q k
          - Cert.Spec.rowMax (Cert.Spec.proj x0 x1 x2) (Cert.Spec.proj x0 x3 x4) n q) := by
  rw [val_main_v24_apply, val_main_v23_apply, val_main_v22_apply, val_main_v21_apply, Ideal.hostUnary_exp_def, Ideal.subf_def,
    score_eq]
  have hi : idx_main_v21 (idx_main_v22 (ix3 n q k)) = ix2 n q :=
    funext fun a => by match a with | ⟨0, _⟩ => rfl | ⟨1, _⟩ => rfl
  rw [hi, rowMax_eq]

/-- The normaliser of the reference: zero plus the sum of the row's exponentials. -/
theorem denom_eq (x0 : Cert.Spec.S4x2048x1024.Idx → EReal) (x1 : Cert.Spec.S1024x1024.Idx → EReal) (x2 : Cert.Spec.S1024.Idx → EReal)
    (x3 : Cert.Spec.S1024x1024.Idx → EReal) (x4 : Cert.Spec.S1024.Idx → EReal) (n : Fin 4) (q k : Fin 2048) :
    val_main_v27 (F := Ideal) x0 x1 x2 x3 x4 (ix3 n q k)
      = (0 : EReal) + ∑ k' : Fin 2048, Ideal.exp (Cert.Spec.score (Cert.Spec.proj x0 x1 x2) (Cert.Spec.proj x0 x3 x4) n q k'
          - Cert.Spec.rowMax (Cert.Spec.proj x0 x1 x2) (Cert.Spec.proj x0 x3 x4) n q) := by
  rw [val_main_v27_apply, val_main_v26_apply, val_main_v25_apply, val_main_cst_3_apply, Ideal.ofBits_def, Ideal.ofBits_zero_f32]
  refine congrArg ((0 : EReal) + ·) (Finset.sum_congr rfl fun k' _ => ?_)
  have hi : idx_main_v25 (idx_main_v26 (idx_main_v27 (ix3 n q k))) k' = ix3 n q k' :=
    funext fun a => by match a with | ⟨0, _⟩ => rfl | ⟨1, _⟩ => rfl | ⟨2, _⟩ => rfl
  rw [hi, exp_eq]

/-- The reference program computes causal attention of its three projections. -/
theorem ref_eq (x0 : Cert.Spec.S4x2048x1024.Idx → EReal) (x1 : Cert.Spec.S1024x1024.Idx → EReal) (x2 : Cert.Spec.S1024.Idx → EReal)
    (x3 : Cert.Spec.S1024x1024.Idx → EReal) (x4 : Cert.Spec.S1024.Idx → EReal) (x5 : Cert.Spec.S1024x1024.Idx → EReal) (x6 : Cert.Spec.S1024.Idx → EReal) :
    Cert.ReferenceIdeal.Read.val_main_v29 (F := Idealize.ShloMosaic.Ideal) x0 x1 x2 x3 x4 x5 x6
      = Cert.Spec.attn (Cert.Spec.proj x0 x1 x2) (Cert.Spec.proj x0 x3 x4) (Cert.Spec.proj x0 x5 x6) := by
  funext i
  obtain ⟨n, q, d, rfl⟩ : ∃ (n : Fin 4) (q : Fin 2048) (d : Fin 1024), i = ix3 n q d := ⟨i 0, i 1, i 2, eq_ix3 i⟩
  rw [val_main_v29_apply, v_eq]
  show _ = ∑ k : Fin 2048, Ideal.div (Ideal.exp (Cert.Spec.score (Cert.Spec.proj x0 x1 x2) (Cert.Spec.proj x0 x3 x4) n q k
        - Cert.Spec.rowMax (Cert.Spec.proj x0 x1 x2) (Cert.Spec.proj x0 x3 x4) n q))
      ((0 : EReal) + ∑ k' : Fin 2048, Ideal.exp (Cert.Spec.score (Cert.Spec.proj x0 x1 x2) (Cert.Spec.proj x0 x3 x4) n q k'
        - Cert.Spec.rowMax (Cert.Spec.proj x0 x1 x2) (Cert.Spec.proj x0 x3 x4) n q)) * Cert.Spec.proj x0 x5 x6 (ix3 n k d)
  refine Finset.sum_congr rfl fun k _ => ?_
  have hl : lidx_main_v29 (ix3 n q d) k = ix3 n q k :=
    funext fun a => by match a with | ⟨0, _⟩ => rfl | ⟨1, _⟩ => rfl | ⟨2, _⟩ => rfl
  have hr : ridx_main_v29 (ix3 n q d) k = ix3 n k d :=
    funext fun a => by match a with | ⟨0, _⟩ => rfl | ⟨1, _⟩ => rfl | ⟨2, _⟩ => rfl
  rw [hl, hr, val_main_v28_apply, Ideal.hostDivf_def, exp_eq, denom_eq]

end Cert.RefValue

end
-- ==== Proof.AttnBridge.lean ====
/-
  Causal attention summed over every key, normalised term by term at the row's maximum, is the accumulated form: the
  weighted sum over the keys a block of queries ever looks at, divided once by the sum of the weights over those keys.
  The keys never looked at are masked (score `−∞`, weight `0`), the first key is never masked, so the row's maximum is real
  and the normaliser is a positive real.
-/
import proofs.«157933_j90314572300799_2_alg».proof.Proof.Spec
import proofs.«157933_j90314572300799_2_alg».proof.Proof.AttnMath
import proofs.«157933_j90314572300799_2_alg».proof.Proof.AttnRow

noncomputable section

open scoped BigOperators

namespace Cert.AttnBridge

open Idealize.ShloMosaic Idealize.ShloMosaic.ValueIdx Cert.Spec

/-- With real queries and keys a score is a real for a key not after the query, and `−∞` for a later key. -/
theorem score_real (Q Kk : S4x2048x1024.Idx → EReal)
    (hQ : ∀ i, ∃ r : ℝ, Q i = (r : EReal)) (hK : ∀ i, ∃ r : ℝ, Kk i = (r : EReal)) (n : Fin 4) (q k : Fin 2048) :
    ∃ r : ℝ, score Q Kk n q k = if k.val ≤ q.val then (r : EReal) else ⊥ := by
  choose rQ hrQ using hQ
  choose rK hrK using hK
  refine ⟨(∑ d : Fin 1024, rQ (ix3 n q d) * rK (ix3 n k d)) * (1 / 32 : ℝ), ?_⟩
  unfold score
  simp only [hrQ, hrK, ← EReal.coe_mul]
  rw [← Cert.AttnMath.coe_sum, ← EReal.coe_mul]

/-- No score is `+∞`. -/
theorem score_ne_top (Q Kk : S4x2048x1024.Idx → EReal)
    (hQ : ∀ i, ∃ r : ℝ, Q i = (r : EReal)) (hK : ∀ i, ∃ r : ℝ, Kk i = (r : EReal)) (n : Fin 4) (q k : Fin 2048) :
    score Q Kk n q k ≠ ⊤ := by
  obtain ⟨r, hr⟩ := score_real Q Kk hQ hK n q k
  rw [hr]
  by_cases h : k.val ≤ q.val
  · rw [if_pos h]; exact EReal.coe_ne_top r
  · rw [if_neg h]; exact bot_ne_top

/-- The first key is never masked: its score is real. -/
theorem score_zero_ne_bot (Q Kk : S4x2048x1024.Idx → EReal)
    (hQ : ∀ i, ∃ r : ℝ, Q i = (r : EReal)) (hK : ∀ i, ∃ r : ℝ, Kk i = (r : EReal)) (n : Fin 4) (q : Fin 2048) :
    score Q Kk n q ⟨0, by decide⟩ ≠ ⊥ := by
  obtain ⟨r, hr⟩ := score_real Q Kk hQ hK n q ⟨0, by decide⟩
  rw [hr, if_pos (Nat.zero_le _)]
  exact EReal.coe_ne_bot r

/-- The first key is among those a block of queries looks at. -/
theorem zero_mem_seen (q : Fin 2048) : (⟨0, by decide⟩ : Fin 2048) ∈ seen q := by
  unfold seen
  rw [Finset.mem_filter]
  exact ⟨Finset.mem_univ _, by show 0 < 1024 * (q.val / 1024 + 1); omega⟩

/-- A key the block of queries never looks at comes after the query, so it is masked. -/
theorem score_of_not_mem_seen (Q Kk : S4x2048x1024.Idx → EReal) (n : Fin 4) (q k : Fin 2048) (hk : k ∉ seen q) :
    score Q Kk n q k = ⊥ := by
  unfold seen at hk
  rw [Finset.mem_filter, not_and] at hk
  have h1 : ¬ k.val < 1024 * (q.val / 1024 + 1) := hk (Finset.mem_univ _)
  unfold score
  rw [if_neg (by omega)]

/-- The row's maximum is attained among the keys looked at: the others contribute `−∞`. -/
theorem rowMax_eq_sup_seen (Q Kk : S4x2048x1024.Idx → EReal) (n : Fin 4) (q : Fin 2048) :
    rowMax Q Kk n q = (seen q).sup (score Q Kk n q) := by
  unfold rowMax
  refine le_antisymm (Finset.sup_le fun k _ => ?_) (Finset.sup_mono (Finset.subset_univ _))
  by_cases hk : k ∈ seen q
  · exact Finset.le_sup hk
  · rw [score_of_not_mem_seen Q Kk n q k hk]; exact bot_le

/-- The accumulated form of causal attention is causal attention, for real queries, keys and values. -/
theorem attnAcc_eq_attn (Q Kk Vv : Cert.Spec.S4x2048x1024.Idx → EReal)
    (hQ : ∀ i, ∃ r : ℝ, Q i = (r : EReal)) (hK : ∀ i, ∃ r : ℝ, Kk i = (r : EReal)) (hV : ∀ i, ∃ r : ℝ, Vv i = (r : EReal)) :
    Cert.Spec.attnAcc Q Kk Vv = Cert.Spec.attn Q Kk Vv := by
  funext i
  obtain ⟨n, q, d, rfl⟩ : ∃ (n : Fin 4) (q : Fin 2048) (d : Fin 1024), i = ix3 n q d := ⟨i 0, i 1, i 2, eq_ix3 i⟩
  have hs : ∀ k, score Q Kk n q k ≠ ⊤ := score_ne_top Q Kk hQ hK n q
  have h0 : score Q Kk n q ⟨0, by decide⟩ ≠ ⊥ := score_zero_ne_bot Q Kk hQ hK n q
  have hk0 : (⟨0, by decide⟩ : Fin 2048) ∈ seen q := zero_mem_seen q
  obtain ⟨μ, hμ⟩ := Cert.AttnMath.sup_real (score Q Kk n q) hs (seen q) _ hk0 h0
  obtain ⟨k1, hk1, hsup⟩ := Finset.exists_mem_eq_sup (seen q) ⟨_, hk0⟩ (score Q Kk n q)
  have hμ1 : score Q Kk n q k1 = (μ : EReal) := hsup ▸ hμ
  choose ν hν using hV
  show Ideal.div (∑ k ∈ seen q, Ideal.exp (score Q Kk n q k - (seen q).sup (score Q Kk n q)) * Vv (ix3 n k d))
      (∑ k ∈ seen q, Ideal.exp (score Q Kk n q k - (seen q).sup (score Q Kk n q)))
    = ∑ k : Fin 2048, Ideal.div (Ideal.exp (score Q Kk n q k - rowMax Q Kk n q))
        ((0 : EReal) + ∑ k' : Fin 2048, Ideal.exp (score Q Kk n q k' - rowMax Q Kk n q)) * Vv (ix3 n k d)
  rw [rowMax_eq_sup_seen, hμ]
  simp only [hν]
  exact (Cert.AttnMath.quotient_eq (score Q Kk n q) hs (fun k => ν (ix3 n k d)) (seen q)
    (fun k hk => score_of_not_mem_seen Q Kk n q k hk) μ k1 hk1 hμ1).symm

end Cert.AttnBridge

end
-- ==== Proof.Value.lean ====
/-
  The value bridge: the reference's composed term and the array the attention call's write-backs leave are one
  function of the seven argument arrays.

  Kernel side: the stacked host operands read back to the three weight matrices and biases, so the projection call
  leaves the three projections `x · Wᵀ + b`; every entry is real because the arguments are finite; the attention call
  then leaves, query by query, its accumulator over its running sum, both taken over the keys up to the end of the
  query's block (the scratch buffers' invariant along the grid). Reference side: its operations read at an index are
  the normalised weights times the values summed over all keys. The two agree: keys after the query weigh
  `exp (−∞) = 0`, and a nonzero real divisor distributes over the finite sum.
-/
import proofs.«157933_j90314572300799_2_alg».proof.Defs
import proofs.«157933_j90314572300799_2_alg».proof.Proof.Gen.ReferenceIdeal.Read
import proofs.«157933_j90314572300799_2_alg».proof.Proof.Gen.Pre_finite_inputs
import proofs.«157933_j90314572300799_2_alg».proof.Proof.KI.Main
import proofs.«157933_j90314572300799_2_alg».proof.Proof.KI.ProjValue
import proofs.«157933_j90314572300799_2_alg».proof.Proof.KI.FlashFinal
import proofs.«157933_j90314572300799_2_alg».proof.Proof.KI.HostValue
import proofs.«157933_j90314572300799_2_alg».proof.Proof.RefValue
import proofs.«157933_j90314572300799_2_alg».proof.Proof.AttnBridge

noncomputable section

namespace Cert.Value

open Idealize.ShloMosaic Idealize.ShloMosaic.TcCoe Idealize.SL.Sem
open Cert.KernelIdeal Cert.KernelIdeal.Gen Cert.KernelIdeal.Hand

theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
    = (Cert.KernelIdeal.Hand.dat1 (Cert.KernelIdeal.Hand.V2 m) c).arrAt 3 Cert.KernelIdeal.cfg1.N := by
  obtain ⟨h0, h1, h2, h3, h4, h5, h6⟩ := Cert.KernelIdeal.HostV.real_args m hpre c
  -- the projection call leaves the three projections
  have eQ : V2 m c main_v4_0 = Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    (W2_arr m c 3).trans ((final0_3 (V1 m) c).trans (Cert.KernelIdeal.HostV.proj_q m c))
  have eK : V2 m c main_v4_1 = Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    (W2_arr m c 4).trans ((final0_4 (V1 m) c).trans (Cert.KernelIdeal.HostV.proj_k m c))
  have eV : V2 m c main_v4_2 = Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    (W2_arr m c 5).trans ((final0_5 (V1 m) c).trans (Cert.KernelIdeal.HostV.proj_v m c))
  -- whose entries are real
  have rQ := Cert.KernelIdeal.HostV.real_proj _ _ _ h0 h1 h2
  have rK := Cert.KernelIdeal.HostV.real_proj _ _ _ h0 h3 h4
  have rV := Cert.KernelIdeal.HostV.real_proj _ _ _ h0 h5 h6
  have hQ : ∀ i, ∃ r : ℝ, V2 m c main_v4_0 i = (r : EReal) := fun i => by rw [eQ]; exact rQ i
  have hK : ∀ i, ∃ r : ℝ, V2 m c main_v4_1 i = (r : EReal) := fun i => by rw [eK]; exact rK i
  have hV : ∀ i, ∃ r : ℝ, V2 m c main_v4_2 i = (r : EReal) := fun i => by rw [eV]; exact rV i
  refine (Cert.RefValue.ref_eq _ _ _ _ _ _ _).trans ?_
  refine Eq.trans ?_ (final1_3 (V2 m) c hQ hK hV).symm
  rw [eQ, eK, eV]
  exact (Cert.AttnBridge.attnAcc_eq_attn _ _ _ rQ rK rV).symm

end Cert.Value

end
-- ==== Proof.lean ====
/-
  A fused attention layer against its plain jnp statement.

  The kernel stacks the three weight matrices and biases on the host, computes the three projections
  `Q = X·Wqᵀ + bq`, `K = X·Wkᵀ + bk`, `V = X·Wvᵀ + bv` in one call (512 rows per grid point), and then runs causal
  attention in a second call over a grid (batch, block of 1024 queries, block of 256 keys): per query row it keeps a
  running maximum `m`, a running sum `l` and an accumulator `acc` in scratch buffers, rescaling by `exp(m_old − m_new)`
  at every key block on or below the diagonal, skipping the key blocks wholly above it, and stores `acc / l` at the
  last key block. The reference computes the scores `Q·Kᵀ / 32`, sets the entries above the diagonal to `−∞`, takes
  the row-wise softmax and multiplies by `V`.

  At the ideal instance floats are extended reals, a change of format is the identity, the kernel's finite stand-in
  for `−∞` is named and denotes `−∞`, and the kernel's factor `1/32` is the exact dyadic, so both sides are
  `Σ_k softmax_k(S(q,·))·V(k,d)` with the sum over the keys `k ≤ q`.

  The three frames: each of the two printed kernels runs to the end as the host stretch followed by the two calls,
  each call a segment whose body obligation is proved case by case (Proof/KB, Proof/KI); the reference's frame is its
  run with the result dropped. The one rewrite of the ideal pass is the named constant.
-/
import proofs.«157933_j90314572300799_2_alg».proof.Defs
import proofs.«157933_j90314572300799_2_alg».proof.Proof.Gen.Kernel
import proofs.«157933_j90314572300799_2_alg».proof.Proof.Gen.KernelIdeal
import proofs.«157933_j90314572300799_2_alg».proof.Proof.Gen.ReferenceIdeal
import proofs.«157933_j90314572300799_2_alg».proof.Proof.Gen.ReferenceIdeal.Run
import proofs.«157933_j90314572300799_2_alg».proof.Proof.Gen.ReferenceIdeal.Read
import proofs.«157933_j90314572300799_2_alg».proof.Proof.Gen.Pre_finite_inputs
import proofs.«157933_j90314572300799_2_alg».proof.Proof.KB.Main
import proofs.«157933_j90314572300799_2_alg».proof.Proof.KI.Main
import proofs.«157933_j90314572300799_2_alg».proof.Proof.Value
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the kernel's fill value for masked scores is named and denotes `−∞`. -/
theorem preserves : Cert.preserves_Kernel_KernelIdeal :=
  IdealRules.named_const.statement Cert.KernelIdeal.κ "neg_big" .f32 0xFF333332#32 ⊥ rfl

/-- Both idealized programs end with the same result array: the kernel's at what the attention call's write-backs
    leave, the reference's at its composed term, and these are one function of the arguments (`Cert.Value.value_eq`). -/
theorem algebraic : Cert.algebraic_KernelIdeal_ReferenceIdeal := by
  intro m ρ m' ρ' hpre hagree
  refine ⟨fun c => (Cert.KernelIdeal.Hand.dat1 (Cert.KernelIdeal.Hand.V2 m) c).arrAt 3 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2]
  exact Cert.Value.value_eq m hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
